-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128x256 : Shape := ⟨2, ![128, 256]⟩
abbrev S256x2 : Shape := ⟨2, ![256, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256x2 : S_.BroadcastsInDim S256x2 (![] : Fin 0 → Fin S256x2.rank)
  reducesTo_S256x2_S_d0_1 : S256x2.ReducesTo [0, 1] S_

variable [Facts]

def fn_part1 {F : FTy → Type} [FloatOps F] (main_arg5 : FVec F S128x256 .f32) (main_arg6 : FVec F S256x2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x2 .f32 := Host.absf main_arg6
  let main_cst_8 : FVec F S_ .f32 := constant S_ .f32 0x7F800000#32
  let main_v25 : FVec F S256x2 .f32 := broadcastInDim S256x2 ![] bcast_S_S256x2 main_cst_8
  let main_v26 : IVec S256x2 1 := cmpf .olt main_v24 main_v25
  let main_c_9 : IVec S_ 1 := constantI S_ 1 1#1
  let main_v27 : IVec S_ 1 := (fun x v => Host.reduce IntOp.andi x v reducesTo_S256x2_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128x128 .f32) (main_arg4 : FVec F S128x128 .f32) (main_arg5 : FVec F S128x256 .f32) (main_arg6 : FVec F S256x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128x256 : Shape := ⟨2, ![128, 256]⟩
abbrev S256x2 : Shape := ⟨2, ![256, 2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S50000x2 : Shape := ⟨2, ![50000, 2]⟩
abbrev S2000x2 : Shape := ⟨2, ![2000, 2]⟩
abbrev S2000x256 : Shape := ⟨2, ![2000, 256]⟩
abbrev S2000 : Shape := ⟨1, ![2000]⟩

abbrev nBuf : Space → Nat
  | .hbm => 75
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x256, .f32⟩
  | .hbm, ⟨6, _⟩ => ⟨S256x2, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .bf16⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x128, .bf16⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .bf16⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .bf16⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S128x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S128x256, .f32⟩
  | .local _ .vmem, ⟨26, _⟩ => ⟨S256x2, .f32⟩
  | .local _ .vmem, ⟨27, _⟩ => ⟨S2000x2, .f32⟩
  | .local _ .vmem, ⟨28, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256x2_S256x2_0_0 : ∀ a, (![0, 0] : Fin 2 → Nat) a + S256x2.size a ≤ S256x2.size a
  h_S256x2 : 0 < S256x2.numel
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S128x256.size a
  hwx3_2 : ∀ i : grid3.Coords, EltTy.bits .f32 = 32 ∨ (Rect.block (s := S128x256) S128x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x2.size a ≤ S256x2.size a
  hwx3_3 : ∀ i : grid3.Coords, EltTy.bits .f32 = 32 ∨ (Rect.block (s := S256x2) S256x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x2.size a ≤ S50000x2.size a
  hwx3_4 : ∀ i : grid3.Coords, EltTy.bits .f32 = 32 ∨ (Rect.block (s := S50000x2) S2000x2.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S256x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S2000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128x256 : Shape := ⟨2, ![128, 256]⟩
abbrev S256x2 : Shape := ⟨2, ![256, 2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S50000x2 : Shape := ⟨2, ![50000, 2]⟩
abbrev S50000x1 : Shape := ⟨2, ![50000, 1]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128x128, .f32⟩
  | 5 => ⟨S128x256, .f32⟩
  | 6 => ⟨S256x2, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S_, .f32⟩
  | 65 => ⟨S50000x128, .f32⟩
  | 66 => ⟨S50000x128, .i1⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x128, .f32⟩
  | 81 => ⟨S850000x1, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S_, .f32⟩
  | 89 => ⟨S50000x128, .f32⟩
  | 90 => ⟨S50000x128, .i1⟩
  | 91 => ⟨S_, .f32⟩
  | 92 => ⟨S50000x128, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S_, .f32⟩
  | 113 => ⟨S50000x128, .f32⟩
  | 114 => ⟨S50000x128, .i1⟩
  | 115 => ⟨S_, .f32⟩
  | 116 => ⟨S50000x128, .f32⟩
  | 117 => ⟨S50000x128, .f32⟩
  | 118 => ⟨S50000x128, .f32⟩
  | 119 => ⟨S50000x256, .f32⟩
  | 120 => ⟨S_, .f32⟩
  | 121 => ⟨S50000x256, .f32⟩
  | 122 => ⟨S50000x256, .i1⟩
  | 123 => ⟨S_, .f32⟩
  | 124 => ⟨S50000x256, .f32⟩
  | 125 => ⟨S50000x256, .f32⟩
  | 126 => ⟨S50000x256, .f32⟩
  | 127 => ⟨S50000x2, .f32⟩
  | _ => ⟨S50000x128, .f32⟩

abbrev hbmTy0_1 (i : Nat) : BufTy := match i % 128 with
  | 0 => ⟨S_, .f32⟩
  | 1 => ⟨S50000x2, .f32⟩
  | 2 => ⟨S50000x2, .i1⟩
  | 3 => ⟨S_, .f32⟩
  | 4 => ⟨S50000x2, .f32⟩
  | 5 => ⟨S50000x2, .f32⟩
  | 6 => ⟨S50000x2, .f32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x2, .f32⟩
  | 14 => ⟨S50000x2, .f32⟩
  | 15 => ⟨S50000x2, .f32⟩
  | 16 => ⟨S_, .f32⟩
  | 17 => ⟨S50000, .f32⟩
  | 18 => ⟨S50000x1, .f32⟩
  | 19 => ⟨S50000x2, .f32⟩
  | 20 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_c_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_19 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_23 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_25 : Ref sig .tc := ⟨.hbm, 135, rfl⟩
abbrev main_v99 : Ref sig .tc := ⟨.hbm, 136, rfl⟩
abbrev main_cst_26 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_27 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S50000x256 : S_.BroadcastsInDim S50000x256 (![] : Fin 0 → Fin S50000x256.rank)
  bcast_S_S50000x2 : S_.BroadcastsInDim S50000x2 (![] : Fin 0 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel program's run with its result named.

  The program is four kernel launches among stretches of host operations.  Its generated frame certificate already follows
  the buffer contents from the launch memory through every stretch and every launch (`W0 … W10`) and shows that each
  execution ends with every unscoped buffer at the last contents `W10`; it then keeps only what it needs, that the argument
  arrays end as launched.  The same run read at the result buffer as well says that the result ends at `W10` there.
-/
import proofs.«145696_j7971459301586_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched: the segments' run of the frame certificate, the last thread state read
    at the result buffer too. -/
theorem run_valued : θ_run defs (onTc (τ := τ) (main (F := F))) ⟨m, fun _ => 0, ρ⟩ (fun r => ∀ c : Dev nD,
      r.2.mem ((c.tc : Thread nD τ).loc main_v52) = W10 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v52 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunValue

end
-- ==== Proof.KernelDefs.lean ====
/-
  The idealized kernel program's host stages as named functions.

  Between its four kernel launches the program computes, with the host's operations: the two edge lists (the self loops
  appended), the degrees and their gated inverse square roots as a one-column matrix (every launch's second operand),
  and after each of the first three launches the plain sum along the edges: the rows of the launch's result gathered at
  the edges' sources and accumulated at their destinations.
-/
import proofs.«145696_j7971459301586_2_alg».proof.Proof.Gen.KernelIdeal
import Idealize.ShloMosaic.PureOps.Ideal.Laws

noncomputable section

namespace Cert.KernelIdeal.KValue

open Cert.KernelIdeal Cert.KernelIdeal.Gen
open Idealize.ShloMosaic Idealize.ShloMosaic.TcCoe Idealize.SL.Sem

/-- The source list: row 0 of the edge array, then the self loops `0, 1, …, N − 1`. -/
def srcList (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- The destination list: row 1 of the edge array, then the self loops. -/
def dstList (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- A list of node numbers as a one-column index array. -/
def dstCol (dst : IVec S850000 32) : IVec S850000x1 32 :=
  broadcastInDim S850000x1 ![0] bcast_S850000_S850000x1_0 dst

/-- A list of node numbers, the negative ones wrapped by `N`, as a one-column index array (what a gather reads). -/
def srcCol (src : IVec S850000 32) : IVec S850000x1 32 :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- The degrees: a one per edge accumulated at the edge's destination. -/
def deg (dst : IVec S850000 32) : FVec Ideal S50000 .f32 :=
  Host.scatterAdd (F := Ideal) scatter_S50000_S850000x1_S850000_n_0_0_1 (broadcastInDim S50000 ![] bcast_S_S50000 (constant (F := Ideal) S_ .f32 0x00000000#32))
    (dstCol dst) (broadcastInDim S850000 ![] bcast_S_S850000 (constant (F := Ideal) S_ .f32 0x3F800000#32))

/-- The gated inverse square roots of the degrees. -/
def dinv (dst : IVec S850000 32) : FVec Ideal S50000 .f32 :=
  select (cmpf (F := Ideal) .ogt (deg dst) (broadcastInDim S50000 ![] bcast_S_S50000 (constant (F := Ideal) S_ .f32 0x00000000#32))) (Host.rsqrt (F := Ideal) (deg dst))
    (broadcastInDim S50000 ![] bcast_S_S50000 (id (constant (F := Ideal) S_ .f32 0x00000000#32)))

/-- The same as a one-column matrix: every launch's second operand. -/
def dcol (dst : IVec S850000 32) : FVec Ideal S50000x1 .f32 :=
  shapeCast S50000x1 (dinv dst) shapeCasts_S50000_S50000x1

/-- The zero matrix a sum along the edges starts from. -/
def zeros128 : FVec Ideal S50000x128 .f32 := broadcastInDim S50000x128 ![] bcast_S_S50000x128 (constant (F := Ideal) S_ .f32 0x00000000#32)

/-- The plain sum along the edges of a launch's result `A`: its rows gathered at the edges' sources, accumulated at their
    destinations. -/
def aggK (src dst : IVec S850000 32) (A : FVec Ideal S50000x128 .bf16) : FVec Ideal S50000x128 .f32 :=
  Host.scatterAdd (F := Ideal) scatter_S50000x128_S850000x1_S850000x128_1_0_0_1 zeros128 (dstCol dst)
    (extf (F := Ideal) .f32 (Host.gather gather_S50000x128_S850000x1_S850000x128_1_0_n_n_0_1_1128 A (srcCol src)) bitsLt_bf16_f32)

end Cert.KernelIdeal.KValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«145696_j7971459301586_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLogSoftmax.lean ====
/-
  The logarithm of a row softmax on the extended reals, over rank-2 arrays of any extents.

  `rowMax X p` is the maximum of row `p` taken from −∞; `lsm X` is the row-wise log-softmax in its shifted form,
  `lsm X (p, q) = (X(p, q) − M p) − log (∑ k, exp (X(p, k) − M p))` with `M p = rowMax X p`.  The vector unit spells it
  with lane reductions along the second axis (a maximum from −∞, a sum from 0), the reduced vectors cast to a column and
  the column broadcast along the rows; the host with reductions along the second axis, one more maximum with −∞
  (which changes nothing), and `broadcast_in_dim` to a column and to the array.  Both are `lsm`.  The entry at
  `(p, q)` depends on row `p` of `X` only (`lsm_rows`).
-/
import Idealize.ShloMosaic.PureOps.Ideal.Laws
import Idealize.ShloMosaic.Lib.ValueIdx
import Idealize.ShloMosaic.Lib.ValueLayout
import Idealize.ShloMosaic.Lib.Pipeline.Value
import proofs.«145696_j7971459301586_2_alg».proof.Proof.LibDense
import proofs.«145696_j7971459301586_2_alg».proof.Proof.LibRowBlocks
import proofs.«145696_j7971459301586_2_alg».proof.Proof.LibHostLayout

noncomputable section

open scoped BigOperators

namespace Cert.LogSoftmax

open Idealize.ShloMosaic Idealize.ShloMosaic.ValueIdx Cert.Dense

/-- −∞ as the float pattern both programs spell it with. -/
abbrev negInf : EReal := Ideal.ofBits .f32 0xFF800000#32

/-- The maximum with −∞ on the left changes nothing. -/
theorem max_negInf (y : EReal) : max negInf y = y := by
  show max (Ideal.ofBits .f32 0xFF800000#32) y = y
  simp [Ideal.ofBits, Ideal.ieee]

/-- The maximum of row `p`, from −∞. -/
def rowMax {n c : ℕ} (X : Mat n c) (p : Fin n) : EReal :=
  (Finset.univ : Finset (Fin c)).fold max negInf (fun k => X (ix2 p k))

/-- The row-wise log-softmax, shifted by the row maximum. -/
def lsm {n c : ℕ} (X : Mat n c) : Mat n c :=
  fun i => (X i - rowMax X (c0 i)) - Ideal.log (∑ k : Fin c, Ideal.exp (X (ix2 (c0 i) k) - rowMax X (c0 i)))

theorem lsm_apply {n c : ℕ} (X : Mat n c) (p : Fin n) (q : Fin c) :
    lsm X (ix2 p q) = (X (ix2 p q) - rowMax X p) - Ideal.log (∑ k : Fin c, Ideal.exp (X (ix2 p k) - rowMax X p)) := rfl

/-- The row maximum depends on the row only. -/
theorem rowMax_rows {n n' c : ℕ} (X : Mat n c) (X' : Mat n' c) (p : Fin n) (p' : Fin n')
    (h : ∀ k, X' (ix2 p' k) = X (ix2 p k)) : rowMax X' p' = rowMax X p := by
  unfold rowMax
  exact congrArg (fun f => Finset.fold max negInf f (Finset.univ : Finset (Fin c))) (funext h)

/-- Row `p'` of the log-softmax of `X'` is row `p` of that of `X` when the two rows agree. -/
theorem lsm_rows {n n' c : ℕ} (X : Mat n c) (X' : Mat n' c) (p : Fin n) (p' : Fin n')
    (h : ∀ k, X' (ix2 p' k) = X (ix2 p k)) (q : Fin c) : lsm X' (ix2 p' q) = lsm X (ix2 p q) := by
  simp only [lsm_apply, rowMax_rows X X' p p' h, h]

/-- The reduced index `p` with column `k` put back is `(p, k)`. -/
theorem lift_row {n c : ℕ} (h : (⟨2, ![n, c]⟩ : Shape).Reduces [1] (⟨1, ![n]⟩ : Shape)) (p : Fin n)
    (k : Fin ((⟨2, ![n, c]⟩ : Shape).size 1)) : h.lift (ix1 p) k = ix2 p (⟨k.val, k.isLt⟩ : Fin c) := by
  funext a; apply Fin.ext
  match a with
  | ⟨0, _⟩ => rfl
  | ⟨1, _⟩ => rfl

/-- The vector unit's lane maximum from −∞ along the second axis reads, at row `p`, the row's maximum. -/
theorem vecRowMax {n c : ℕ} (X : FVec Ideal ⟨2, ![n, c]⟩ .f32)
    (h : (⟨2, ![n, c]⟩ : Shape).Reduces [1] ⟨1, ![n]⟩) (hφ : FKind.Formats .f32)
    (hacc : (0xFF800000#32 : BitVec 32) = FKind.maximumf.neutral .f32 hφ) (p : Fin n) :
    multiReduction .maximumf [1] ⟨1, ![n]⟩ X 0xFF800000#32 h hφ hacc (ix1 p) = rowMax X p := by
  rw [Ideal.multiReduction_maximumf_single X 0xFF800000#32 h hφ hacc (ix1 p)]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- The host's maximum reduction from −∞ along the second axis reads, at row `p`, the row's maximum. -/
theorem hostRowMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (p : Fin n) :
    Host.reduce FloatOps.maximumf X (constant (F := Ideal) (⟨0, ![]⟩ : Shape) .f32 0xFF800000#32) h' hu (ix1 p) = rowMax X p := by
  rw [Host.reduce_eq_fold_single FloatOps.maximumf X _ h' h hu]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- A scalar broadcast to a vector reads the scalar everywhere. -/
theorem bcast_scalar_vec {α : Type} {n : ℕ} (x : (⟨0, ![]⟩ : Shape).Idx → α)
    (h : (⟨0, ![]⟩ : Shape).BroadcastsInDim ⟨1, ![n]⟩ ![]) (p : Fin n) :
    broadcastInDim ⟨1, ![n]⟩ ![] h x (ix1 p) = x ix0 :=
  broadcastInDim_apply ![] h x (ix1 p) ix0 fun a => a.elim0

/-- The shifted form assembled from its parts: an array `Mx` holding every row's maximum along that row, and an array
    `L` holding along every row the logarithm of the row's sum of `exp (X − Mx)`. -/
theorem lsm_of_parts {n c : ℕ} (X Mx L : Mat n c) (hM : ∀ p k, Mx (ix2 p k) = rowMax X p)
    (hL : ∀ p k, L (ix2 p k) = Ideal.log (∑ j : Fin c, Ideal.exp (X (ix2 p j) - Mx (ix2 p j)))) :
    (fun i => (X i - Mx i) - L i) = lsm X := by
  funext i
  obtain ⟨p, q, rfl⟩ : ∃ (p : Fin n) (q : Fin c), i = ix2 p q := ⟨i 0, i 1, eq_ix2 i⟩
  show (X (ix2 p q) - Mx (ix2 p q)) - L (ix2 p q) = _
  rw [hL, hM, lsm_apply]
  refine congrArg (fun s => (X (ix2 p q) - rowMax X p) - Ideal.log s) (Finset.sum_congr rfl fun k _ => ?_)
  rw [hM]

/-- The vector unit's row maxima, cast to a column and broadcast along the rows. -/
theorem vecColMax {n c : ℕ} (X : FVec Ideal ⟨2, ![n, c]⟩ .f32)
    (h : (⟨2, ![n, c]⟩ : Shape).Reduces [1] ⟨1, ![n]⟩) (hφ : FKind.Formats .f32)
    (haccM : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (shapeCast ⟨2, ![n, 1]⟩ (multiReduction .maximumf [1] ⟨1, ![n]⟩ X 0xFF800000#32 h hφ haccM) hc) hb (ix2 p k)
      = rowMax X p := by
  rw [Cert.RowBlocks.broadcastTo_col_apply, Cert.RowBlocks.shapeCast_col_apply, vecRowMax]

/-- The vector unit's row sums of `exp`, cast to a column, the logarithm taken and broadcast along the rows. -/
theorem vecColLogSum {n c : ℕ} (E : FVec Ideal ⟨2, ![n, c]⟩ .f32)
    (h : (⟨2, ![n, c]⟩ : Shape).Reduces [1] ⟨1, ![n]⟩) (hφ : FKind.Formats .f32)
    (haccS : (0x00000000#32 : BitVec 32) = 0x00000000#32)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (log (shapeCast ⟨2, ![n, 1]⟩ (multiReduction .add [1] ⟨1, ![n]⟩ E 0x00000000#32 h hφ haccS) hc)) hb (ix2 p k)
      = Ideal.log (∑ j : Fin c, E (ix2 p j)) := by
  rw [Cert.RowBlocks.broadcastTo_col_apply]
  show Ideal.log _ = _
  rw [Cert.RowBlocks.shapeCast_col_apply, Cert.RowBlocks.rowSum_apply]

/-- The host's row maxima (from −∞, once more against −∞), broadcast to a column and the column to the array. -/
theorem hostColMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (broadcastInDim ⟨2, ![n, 1]⟩ ![0] hb1
        (maximumf (broadcastInDim ⟨1, ![n]⟩ ![] hb0 (constant (F := Ideal) ⟨0, ![]⟩ .f32 0xFF800000#32))
          (Host.reduce FloatOps.maximumf X (constant (F := Ideal) ⟨0, ![]⟩ .f32 0xFF800000#32) h' hu))) (ix2 p k)
      = rowMax X p := by
  rw [Cert.HostLayout.bcast_col_mat, Cert.HostLayout.bcast_vec_col]
  show max (broadcastInDim ⟨1, ![n]⟩ ![] hb0 (constant (F := Ideal) ⟨0, ![]⟩ .f32 0xFF800000#32) (ix1 p))
      (Host.reduce FloatOps.maximumf X (constant (F := Ideal) ⟨0, ![]⟩ .f32 0xFF800000#32) h' hu (ix1 p)) = _
  rw [bcast_scalar_vec, hostRowMax X h' h hu p]
  exact max_negInf _

/-- The host's row sums (from 0), broadcast to a column, the logarithm taken and the column broadcast to the array. -/
theorem hostColLogSum {n c : ℕ} (E : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (Host.log (broadcastInDim ⟨2, ![n, 1]⟩ ![0] hb1
        (Host.reduceAdd E (constant (F := Ideal) ⟨0, ![]⟩ .f32 0x00000000#32) h' hu))) (ix2 p k)
      = Ideal.log (∑ j : Fin c, E (ix2 p j)) := by
  rw [Cert.HostLayout.bcast_col_mat]
  show Ideal.log _ = _
  rw [Cert.HostLayout.bcast_vec_col, Cert.HostLayout.hostRowSum _ _ h' h hu p]
  have h0 : (constant (F := Ideal) (⟨0, ![]⟩ : Shape) .f32 0x00000000#32) (Shape.Idx.first hu) = 0 := Ideal.ofBits_zero_f32
  rw [h0, zero_add]

end Cert.LogSoftmax

end
-- ==== Proof.GcnSpec.lean ====
/-
  The graph-convolution network both programs compute, as functions on matrices of extended reals, at any number of rows.

  `lk` is the leaky rectifier with the slope both programs spell as the same float pattern; `scaleRows X d` multiplies row
  `n` of `X` by the entry `d n` of a one-column matrix.  One program scales the rows of every product `H W` by the inverse
  square-root degrees before the rows are gathered along the edges and scales the summed rows again afterwards
  (`conv0`, `conv1`); the other multiplies every gathered row by the product of the two degrees' factors.  The head is two
  dense layers with leaky rectifiers and a row-wise softmax shifted by the row maximum (`headM`).  Every function here
  is row-local: an entry of the result depends on the same row of the left operand only.
-/
import Idealize.ShloMosaic.PureOps.Ideal.Laws
import Idealize.ShloMosaic.Lib.ValueIdx
import proofs.«145696_j7971459301586_2_alg».proof.Proof.LibDense
import proofs.«145696_j7971459301586_2_alg».proof.Proof.LibLogSoftmax

noncomputable section

open scoped BigOperators

namespace Cert.Gcn

open Idealize.ShloMosaic Idealize.ShloMosaic.ValueIdx Cert.Dense Cert.LogSoftmax

/-- The leaky rectifier: `v` where `v ≥ 0`, the slope times `v` elsewhere. -/
def lk (v : EReal) : EReal :=
  Scalar.select (Ideal.cmp .oge v (Ideal.ofBits .f32 0x00000000#32)) v (Ideal.ofBits .f32 0x3C23D70A#32 * v)

/-- The leaky rectifier on every entry. -/
def lkM {a b : ℕ} (X : Mat a b) : Mat a b := fun i => lk (X i)

theorem lkM_apply {a b : ℕ} (X : Mat a b) (i : (⟨2, ![a, b]⟩ : Shape).Idx) : lkM X i = lk (X i) := rfl

/-- Row `n` of `X` times the entry `d n` of a one-column matrix. -/
def scaleRows {a b : ℕ} (X : Mat a b) (d : Mat a 1) : Mat a b := fun i => X i * d (ix2 (c0 i) (0 : Fin 1))

theorem scaleRows_apply {a b : ℕ} (X : Mat a b) (d : Mat a 1) (p : Fin a) (q : Fin b) :
    scaleRows X d (ix2 p q) = X (ix2 p q) * d (ix2 p (0 : Fin 1)) := rfl

/-- The first layer's table before the gather: the rows of `x W` scaled. -/
def conv0 {n k c : ℕ} (x : Mat n k) (d : Mat n 1) (W : Mat k c) : Mat n c := scaleRows (mm x W) d

/-- A later layer's table before the gather: the summed rows `S` scaled and rectified, times `W`, the rows scaled again. -/
def conv1 {n k c : ℕ} (S : Mat n k) (d : Mat n 1) (W : Mat k c) : Mat n c := scaleRows (mm (lkM (scaleRows S d)) W) d

/-- The row-wise softmax, shifted by the row maximum. -/
def softmaxRows {n c : ℕ} (Y : Mat n c) : Mat n c :=
  fun i => Ideal.div (Ideal.exp (Y i - rowMax Y (c0 i))) (∑ k : Fin c, Ideal.exp (Y (ix2 (c0 i) k) - rowMax Y (c0 i)))

theorem softmaxRows_apply {n c : ℕ} (Y : Mat n c) (p : Fin n) (q : Fin c) :
    softmaxRows Y (ix2 p q)
      = Ideal.div (Ideal.exp (Y (ix2 p q) - rowMax Y p)) (∑ k : Fin c, Ideal.exp (Y (ix2 p k) - rowMax Y p)) := rfl

/-- The head: two dense layers, each followed by the leaky rectifier, then the row-wise softmax. -/
def headM {n k h c : ℕ} (A : Mat n k) (W1 : Mat k h) (W2 : Mat h c) : Mat n c :=
  softmaxRows (lkM (mm (lkM (mm A W1)) W2))

/-! ## Row locality -/

theorem mm_row {M M' K N : ℕ} (A : Mat M K) (A' : Mat M' K) (B : Mat K N) (p : Fin M) (p' : Fin M')
    (hA : ∀ k, A' (ix2 p' k) = A (ix2 p k)) (q : Fin N) : mm A' B (ix2 p' q) = mm A B (ix2 p q) := by
  rw [mm_apply, mm_apply]; exact Finset.sum_congr rfl fun k _ => by rw [hA k]

theorem softmaxRows_row {n n' c : ℕ} (Y : Mat n c) (Y' : Mat n' c) (p : Fin n) (p' : Fin n')
    (h : ∀ k, Y' (ix2 p' k) = Y (ix2 p k)) (q : Fin c) : softmaxRows Y' (ix2 p' q) = softmaxRows Y (ix2 p q) := by
  rw [softmaxRows_apply, softmaxRows_apply, rowMax_rows Y Y' p p' h, h q]
  refine congrArg _ (Finset.sum_congr rfl fun k _ => ?_)
  rw [h k]

/-- An entry of the head depends on the same row of `A` only. -/
theorem headM_row {n n' k h c : ℕ} (A : Mat n k) (A' : Mat n' k) (W1 : Mat k h) (W2 : Mat h c) (p : Fin n) (p' : Fin n')
    (hA : ∀ j, A' (ix2 p' j) = A (ix2 p j)) (q : Fin c) : headM A' W1 W2 (ix2 p' q) = headM A W1 W2 (ix2 p q) := by
  unfold headM
  refine softmaxRows_row _ _ p p' (fun j => ?_) q
  rw [lkM_apply, lkM_apply]
  refine congrArg lk (mm_row _ _ W2 p p' (fun l => ?_) j)
  rw [lkM_apply, lkM_apply]
  exact congrArg lk (mm_row A A' W1 p p' hA l)

/-- An entry of `conv0` depends on the same rows of `x` and `d` only. -/
theorem conv0_row {n n' k c : ℕ} (x : Mat n k) (x' : Mat n' k) (d : Mat n 1) (d' : Mat n' 1) (W : Mat k c)
    (p : Fin n) (p' : Fin n') (hx : ∀ j, x' (ix2 p' j) = x (ix2 p j)) (hd : d' (ix2 p' (0 : Fin 1)) = d (ix2 p (0 : Fin 1)))
    (q : Fin c) : conv0 x' d' W (ix2 p' q) = conv0 x d W (ix2 p q) := by
  unfold conv0
  rw [scaleRows_apply, scaleRows_apply, mm_row x x' W p p' hx q, hd]

/-- An entry of `conv1` depends on the same rows of `S` and `d` only. -/
theorem conv1_row {n n' k c : ℕ} (S : Mat n k) (S' : Mat n' k) (d : Mat n 1) (d' : Mat n' 1) (W : Mat k c)
    (p : Fin n) (p' : Fin n') (hS : ∀ j, S' (ix2 p' j) = S (ix2 p j)) (hd : d' (ix2 p' (0 : Fin 1)) = d (ix2 p (0 : Fin 1)))
    (q : Fin c) : conv1 S' d' W (ix2 p' q) = conv1 S d W (ix2 p q) := by
  unfold conv1
  rw [scaleRows_apply, scaleRows_apply, hd]
  refine congrArg (· * _) (mm_row _ _ W p p' (fun j => ?_) q)
  rw [lkM_apply, lkM_apply, scaleRows_apply, scaleRows_apply, hS j, hd]

end Cert.Gcn

end
-- ==== Proof.RegionConv0.lean ====
/-
  The first layer's kernel over the whole node table.

  The kernel works on blocks of 2000 node rows: on one block it multiplies the rows by the weight matrix and scales row `y`
  of the product by the block's degree factor at `y`, which is `conv0` of the block.  `conv0` is row-local, and block `t`
  of a row-tiled operand is rows `2000 t … 2000 t + 1999` of its array, so what point `t` writes back is block `t` of
  `conv0` of the whole arrays; the 25 blocks tile the 50000 rows, so the output array ends holding `conv0` of the arrays
  the region found.
-/
import proofs.«145696_j7971459301586_2_alg».proof.Proof.Gen.KernelIdeal.Frame
import proofs.«145696_j7971459301586_2_alg».proof.Proof.GcnSpec
import proofs.«145696_j7971459301586_2_alg».proof.Proof.LibDense
import proofs.«145696_j7971459301586_2_alg».proof.Proof.LibRowBlocks
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.Gcn

/-! ## One block -/

/-- On one block the stored value is `conv0` of the block: the product with the weights, each row scaled by the block's
    degree factor at that row (the roundings are the identity on the extended reals). -/
theorem pay0_eq (x0 : Vec Ideal S2000x128 .f32) (x1 : Vec Ideal S2000x1 .f32) (x2 : Vec Ideal S128x128 .f32) :
    k0_pay1 (F := Ideal) x0 x1 x2 = conv0 x0 x1 x2 := by
  funext i
  obtain ⟨p, q, rfl⟩ : ∃ (p : Fin 2000) (q : Fin 128), i = ix2 p q := ⟨i 0, i 1, eq_ix2 i⟩
  unfold k0_pay1
  show matmul (F := Ideal) dot_S2000x128_S128x128_S2000x128_1_0_0_1_n_n none x0 x2 (constant S2000x128 .f32 0x00000000#32) (ix2 p q)
      * broadcastTo S2000x128 (shapeCast S2000x1 x1 shapeCasts_S2000x1_S2000x1) broadcasts_S2000x1_S2000x128 (ix2 p q) = _
  rw [matmul_zero_eq_mm _ rfl rfl rfl rfl rfl rfl, Cert.RowBlocks.broadcastTo_col_apply, shapeCast_self]
  rfl

/-- The zero offsets of a whole-block access, as a constant function. -/
theorem zeros0 : (![0, 0] : Fin 2 → Nat) = fun _ => 0 := funext fun a => by fin_cases a <;> rfl

/-- What the body leaves in the output's staging buffer is `conv0` of the three input blocks: its one store covers
    the buffer and its loads read the whole blocks. -/
theorem out0_eq (x0 : Vec Ideal S2000x128 .f32) (x1 : Vec Ideal S2000x1 .f32) (x2 : Vec Ideal S128x128 .f32) :
    out0_3 (F := Ideal) x0 x1 x2 = conv0 x0 x1 x2 := by
  unfold out0_3
  rw [View.canon_unit_zero zeros0]
  simp only [View.ld_unit_zero (S := S2000x128) zeros0, View.ld_unit_zero (S := S2000x1) zeros0,
    View.ld_unit_zero (S := S128x128) zeros0]
  exact pay0_eq x0 x1 x2

/-! ## Blocks as rows of the arrays -/

/-- Row `y` of block `t` is row `2000 t + y` of the node table. -/
def row0 (t : Fin cfg0.N) (y : Fin 2000) : Fin 50000 :=
  ⟨t.val * 2000 + y.val, by have h : cfg0.N = 25 := N_0; have := t.isLt; have := y.isLt; omega⟩

/-- The printed index maps over the grid: the row-tiled windows sit at block row `t`, column block `0`; the weights'
    window is its whole array at every point. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The table's block at point `t`, at `(y, k)`, is the table at `(2000 t + y, k)`. -/
theorem blk0_0_apply (c : Dev nD) (t : Fin cfg0.N) (y : Fin 2000) (k : Fin 128) :
    (iblk0 V c 0 t : Mat 2000 128) (ix2 y k) = (V c (Pipeline.arrRef spec0 0) : Mat 50000 128) (ix2 (row0 t y) k) := by
  obtain ⟨e0, e1, -⟩ := index0 t
  unfold iblk0
  rw [View.read_apply]
  show (V c (Pipeline.arrRef spec0 0) : Mat 50000 128) (((cfg0.win 0).blk t).view.emb (ix2 y k)) = _
  refine congrArg (V c (Pipeline.arrRef spec0 0) : Mat 50000 128) (funext fun a => Fin.ext ?_)
  match a with
  | ⟨0, _⟩ => show win0_0.index t (0 : Fin 2) * 2000 + 1 * y.val = t.val * 2000 + y.val; rw [e0]; omega
  | ⟨1, _⟩ => show win0_0.index t (1 : Fin 2) * 128 + 1 * k.val = k.val; rw [e1]; omega

/-- The degree column's block at point `t`, at row `y`, is the column at row `2000 t + y`. -/
theorem blk0_1_apply (c : Dev nD) (t : Fin cfg0.N) (y : Fin 2000) :
    (iblk0 V c 1 t : Mat 2000 1) (ix2 y (0 : Fin 1))
      = (V c (Pipeline.arrRef spec0 1) : Mat 50000 1) (ix2 (row0 t y) (0 : Fin 1)) := by
  obtain ⟨-, -, e0, e1, -⟩ := index0 t
  unfold iblk0
  rw [View.read_apply]
  show (V c (Pipeline.arrRef spec0 1) : Mat 50000 1) (((cfg0.win 1).blk t).view.emb (ix2 y (0 : Fin 1))) = _
  refine congrArg (V c (Pipeline.arrRef spec0 1) : Mat 50000 1) (funext fun a => Fin.ext ?_)
  match a with
  | ⟨0, _⟩ => show win0_1.index t (0 : Fin 2) * 2000 + 1 * y.val = t.val * 2000 + y.val; rw [e0]; omega
  | ⟨1, _⟩ => show win0_1.index t (1 : Fin 2) * 1 + 1 * 0 = 0; rw [e1]

/-- The weights' block at every point is the weight matrix. -/
theorem blk0_2_eq (c : Dev nD) (t : Fin cfg0.N) :
    (iblk0 V c 2 t : Mat 128 128) = (V c (Pipeline.arrRef spec0 2) : Mat 128 128) := by
  obtain ⟨-, -, -, -, e0, e1, -⟩ := index0 t
  funext i
  obtain ⟨p, q, rfl⟩ : ∃ (p : Fin 128) (q : Fin 128), i = ix2 p q := ⟨i 0, i 1, eq_ix2 i⟩
  unfold iblk0
  rw [View.read_apply]
  show (V c (Pipeline.arrRef spec0 2) : Mat 128 128) (((cfg0.win 2).blk t).view.emb (ix2 p q)) = _
  refine congrArg (V c (Pipeline.arrRef spec0 2) : Mat 128 128) (funext fun a => Fin.ext ?_)
  match a with
  | ⟨0, _⟩ => show win0_2.index t (0 : Fin 2) * 128 + 1 * p.val = p.val; rw [e0]; omega
  | ⟨1, _⟩ => show win0_2.index t (1 : Fin 2) * 128 + 1 * q.val = q.val; rw [e1]; omega

/-- The output's block at point `t`, at `(y, q)`, sits in the array at `(2000 t + y, q)`. -/
theorem emb0_3 (t : Fin cfg0.N) (y : Fin 2000) (q : Fin 128) :
    (((cfg0.win 3).blk t).view.emb (ix2 y q) : S50000x128.Idx) = ix2 (row0 t y) q := by
  obtain ⟨-, -, -, -, -, -, e0, e1⟩ := index0 t
  refine funext fun a => Fin.ext ?_
  match a with
  | ⟨0, _⟩ => show win0_3.index t (0 : Fin 2) * 2000 + 1 * y.val = t.val * 2000 + y.val; rw [e0]; omega
  | ⟨1, _⟩ => show win0_3.index t (1 : Fin 2) * 128 + 1 * q.val = q.val; rw [e1]; omega

/-! ## From the blocks to the array -/

/-- `conv0` of the blocks at point `t` is block `t` of `conv0` of the arrays: an entry depends on its own row only. -/
theorem block0_eq (A0 : Mat 50000 128) (A1 : Mat 50000 1) (W : Mat 128 128) (x0 : Mat 2000 128) (x1 : Mat 2000 1)
    (t : Fin cfg0.N)
    (h0 : ∀ (y : Fin 2000) (k : Fin 128), x0 (ix2 y k) = A0 (ix2 (row0 t y) k))
    (h1 : ∀ y : Fin 2000, x1 (ix2 y (0 : Fin 1)) = A1 (ix2 (row0 t y) (0 : Fin 1)))
    (y : Fin 2000) (q : Fin 128) :
    conv0 x0 x1 W (ix2 y q) = conv0 A0 A1 W (ix2 (row0 t y) q) :=
  conv0_row A0 x0 A1 x1 W (row0 t y) y (h0 y) (h1 y) q

/-- What point `t` writes back is block `t` of `conv0` of the arrays as the region finds them. -/
theorem flushed0_eq (c : Dev nD) (t : Fin cfg0.N) :
    (dat0 (F := Ideal) V c).flushed 3 t
      = ((cfg0.win 3).blk t).view.read (Elt Ideal)
          (conv0 (V c (Pipeline.arrRef spec0 0) : Mat 50000 128) (V c (Pipeline.arrRef spec0 1) : Mat 50000 1)
            (V c (Pipeline.arrRef spec0 2) : Mat 128 128)) := by
  show (cfg0.win 3).cut (grid0.coords t) ((dat0 V c).after 3 t) = _
  rw [after0_3, out0_eq, blk0_2_eq V c t]
  funext j
  obtain ⟨y, q, rfl⟩ : ∃ (y : Fin 2000) (q : Fin 128), j = ix2 y q := ⟨j 0, j 1, eq_ix2 j⟩
  rw [View.read_apply]
  show conv0 (iblk0 V c 0 t : Mat 2000 128) (iblk0 V c 1 t : Mat 2000 1) (V c (Pipeline.arrRef spec0 2) : Mat 128 128) (ix2 y q)
    = conv0 (V c (Pipeline.arrRef spec0 0) : Mat 50000 128) (V c (Pipeline.arrRef spec0 1) : Mat 50000 1)
        (V c (Pipeline.arrRef spec0 2) : Mat 128 128) (((cfg0.win 3).blk t).view.emb (ix2 y q))
  rw [emb0_3 t y q]
  exact block0_eq (V c (Pipeline.arrRef spec0 0) : Mat 50000 128) (V c (Pipeline.arrRef spec0 1) : Mat 50000 1)
    (V c (Pipeline.arrRef spec0 2) : Mat 128 128) (iblk0 V c 0 t : Mat 2000 128) (iblk0 V c 1 t : Mat 2000 1) t
    (blk0_0_apply V c t) (blk0_1_apply V c t) y q

/-- An index of the array is in point `t`'s block iff each coordinate is in the block's range on its axis. -/
theorem mem_blk0 (t : Fin cfg0.N) (i : S50000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Every row of the array is in some point's block: row `r` in that of point `r / 2000`. -/
theorem cover0 (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  refine ⟨⟨(i 0).val / 2000, by omega⟩, flush0_3 _, ?_⟩
  rw [mem_blk0]
  obtain ⟨-, -, -, -, -, -, e0, e1⟩ := index0 ⟨(i 0).val / 2000, by omega⟩
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, _⟩ (1 : Fin 2) * 128 ≤ (i 1).val
      ∧ (i 1).val < win0_3.index ⟨(i 0).val / 2000, _⟩ (1 : Fin 2) * 128 + 128
    rw [e1]; omega

/-- The output array after the region: `conv0` of the arrays the region found. -/
theorem final0 (c : Dev nD) :
    (dat0 (F := Ideal) V c).arrAt 3 cfg0.N
      = conv0 (V c (Pipeline.arrRef spec0 0) : Mat 50000 128) (V c (Pipeline.arrRef spec0 1) : Mat 50000 1)
          (V c (Pipeline.arrRef spec0 2) : Mat 128 128) :=
  (dat0 (F := Ideal) V c).arrAt_eq_of_cover 3 _ (fun t _ => flushed0_eq V c t) (cover0)

end Cert.KernelIdeal.RegionValue

end
-- ==== Proof.RegionConv1.lean ====
/-
  The second layer's kernel over the whole node table.

  The kernel works on blocks of 2000 node rows: on one block it scales the summed rows by the block's degree factors,
  applies the leaky rectifier, multiplies by the weight matrix and scales the rows of the product again, which is `conv1`
  of the block.  `conv1` is row-local, and block `t` of a row-tiled operand is rows `2000 t … 2000 t + 1999` of its array,
  so what point `t` writes back is block `t` of `conv1` of the whole arrays; the 25 blocks tile the 50000 rows, so the
  output array ends holding `conv1` of the arrays the region found.
-/
import proofs.«145696_j7971459301586_2_alg».proof.Proof.Gen.KernelIdeal.Frame
import proofs.«145696_j7971459301586_2_alg».proof.Proof.GcnSpec
import proofs.«145696_j7971459301586_2_alg».proof.Proof.LibDense
import proofs.«145696_j7971459301586_2_alg».proof.Proof.LibRowBlocks
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.Gcn

/-! ## One block -/

/-- A block times its degree column broadcast along the rows is the block with its rows scaled. -/
theorem scaled1_eq (x0 : Vec Ideal S2000x128 .f32) (x1 : Vec Ideal S2000x1 .f32) :
    (mulf (F := Ideal) (shapeCast S2000x128 x0 shapeCasts_S2000x128_S2000x128)
        (broadcastTo S2000x128 (shapeCast S2000x1 x1 shapeCasts_S2000x1_S2000x1) broadcasts_S2000x1_S2000x128)
      : FVec Ideal S2000x128 .f32) = scaleRows x0 x1 := by
  funext j
  obtain ⟨p, k, rfl⟩ : ∃ (p : Fin 2000) (k : Fin 128), j = ix2 p k := ⟨j 0, j 1, eq_ix2 j⟩
  show shapeCast S2000x128 x0 shapeCasts_S2000x128_S2000x128 (ix2 p k)
      * broadcastTo S2000x128 (shapeCast S2000x1 x1 shapeCasts_S2000x1_S2000x1) broadcasts_S2000x1_S2000x128 (ix2 p k) = _
  rw [Cert.RowBlocks.broadcastTo_col_apply, shapeCast_self, shapeCast_self]
  rfl

/-- Keeping an entry where it is at least zero and taking the slope times it elsewhere is the leaky rectifier. -/
theorem leaky1_eq (v : FVec Ideal S2000x128 .f32) :
    (select (cmpf (F := Ideal) .oge v (broadcast S2000x128 (Scalar.ofBits (F := Ideal) .f32 0x00000000#32))) v
        (mulf (F := Ideal) (broadcast S2000x128 (Scalar.ofBits (F := Ideal) .f32 0x3C23D70A#32)) v)
      : FVec Ideal S2000x128 .f32) = lkM v :=
  funext fun j => rfl

/-- On one block the stored value is `conv1` of the block: the rows scaled by the block's degree factors and rectified,
    times the weights, the rows scaled again (the roundings are the identity on the extended reals). -/
theorem pay1_eq (x0 : Vec Ideal S2000x128 .f32) (x1 : Vec Ideal S2000x1 .f32) (x2 : Vec Ideal S128x128 .f32) :
    k1_pay1 (F := Ideal) x0 x1 x2 = conv1 x0 x1 x2 := by
  unfold k1_pay1
  dsimp only
  rw [scaled1_eq x0 x1, leaky1_eq (scaleRows x0 x1), matmul_zero_eq_mm _ rfl rfl rfl rfl rfl rfl]
  funext i
  obtain ⟨p, q, rfl⟩ : ∃ (p : Fin 2000) (q : Fin 128), i = ix2 p q := ⟨i 0, i 1, eq_ix2 i⟩
  show mm (lkM (scaleRows x0 x1)) x2 (ix2 p q)
      * broadcastTo S2000x128 (shapeCast S2000x1 x1 shapeCasts_S2000x1_S2000x1) broadcasts_S2000x1_S2000x128 (ix2 p q) = _
  rw [Cert.RowBlocks.broadcastTo_col_apply, shapeCast_self]
  rfl

/-- The zero offsets of a whole-block access, as a constant function. -/
theorem zeros1 : (![0, 0] : Fin 2 → Nat) = fun _ => 0 := funext fun a => by fin_cases a <;> rfl

/-- What the body leaves in the output's staging buffer is `conv1` of the three input blocks: its one store covers
    the buffer and its loads read the whole blocks. -/
theorem out1_eq (x0 : Vec Ideal S2000x128 .f32) (x1 : Vec Ideal S2000x1 .f32) (x2 : Vec Ideal S128x128 .f32) :
    out1_3 (F := Ideal) x0 x1 x2 = conv1 x0 x1 x2 := by
  unfold out1_3
  rw [View.canon_unit_zero zeros1]
  simp only [View.ld_unit_zero (S := S2000x128) zeros1, View.ld_unit_zero (S := S2000x1) zeros1,
    View.ld_unit_zero (S := S128x128) zeros1]
  exact pay1_eq x0 x1 x2

/-! ## Blocks as rows of the arrays -/

/-- Row `y` of block `t` is row `2000 t + y` of the node table. -/
def row1 (t : Fin cfg1.N) (y : Fin 2000) : Fin 50000 :=
  ⟨t.val * 2000 + y.val, by have h : cfg1.N = 25 := N_1; have := t.isLt; have := y.isLt; omega⟩

/-- The printed index maps over the grid: the row-tiled windows sit at block row `t`, column block `0`; the weights'
    window is its whole array at every point. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The table's block at point `t`, at `(y, k)`, is the table at `(2000 t + y, k)`. -/
theorem blk1_0_apply (c : Dev nD) (t : Fin cfg1.N) (y : Fin 2000) (k : Fin 128) :
    (iblk1 V c 0 t : Mat 2000 128) (ix2 y k) = (V c (Pipeline.arrRef spec1 0) : Mat 50000 128) (ix2 (row1 t y) k) := by
  obtain ⟨e0, e1, -⟩ := index1 t
  unfold iblk1
  rw [View.read_apply]
  show (V c (Pipeline.arrRef spec1 0) : Mat 50000 128) (((cfg1.win 0).blk t).view.emb (ix2 y k)) = _
  refine congrArg (V c (Pipeline.arrRef spec1 0) : Mat 50000 128) (funext fun a => Fin.ext ?_)
  match a with
  | ⟨0, _⟩ => show win1_0.index t (0 : Fin 2) * 2000 + 1 * y.val = t.val * 2000 + y.val; rw [e0]; omega
  | ⟨1, _⟩ => show win1_0.index t (1 : Fin 2) * 128 + 1 * k.val = k.val; rw [e1]; omega

/-- The degree column's block at point `t`, at row `y`, is the column at row `2000 t + y`. -/
theorem blk1_1_apply (c : Dev nD) (t : Fin cfg1.N) (y : Fin 2000) :
    (iblk1 V c 1 t : Mat 2000 1) (ix2 y (0 : Fin 1))
      = (V c (Pipeline.arrRef spec1 1) : Mat 50000 1) (ix2 (row1 t y) (0 : Fin 1)) := by
  obtain ⟨-, -, e0, e1, -⟩ := index1 t
  unfold iblk1
  rw [View.read_apply]
  show (V c (Pipeline.arrRef spec1 1) : Mat 50000 1) (((cfg1.win 1).blk t).view.emb (ix2 y (0 : Fin 1))) = _
  refine congrArg (V c (Pipeline.arrRef spec1 1) : Mat 50000 1) (funext fun a => Fin.ext ?_)
  match a with
  | ⟨0, _⟩ => show win1_1.index t (0 : Fin 2) * 2000 + 1 * y.val = t.val * 2000 + y.val; rw [e0]; omega
  | ⟨1, _⟩ => show win1_1.index t (1 : Fin 2) * 1 + 1 * 0 = 0; rw [e1]

/-- The weights' block at every point is the weight matrix. -/
theorem blk1_2_eq (c : Dev nD) (t : Fin cfg1.N) :
    (iblk1 V c 2 t : Mat 128 128) = (V c (Pipeline.arrRef spec1 2) : Mat 128 128) := by
  obtain ⟨-, -, -, -, e0, e1, -⟩ := index1 t
  funext i
  obtain ⟨p, q, rfl⟩ : ∃ (p : Fin 128) (q : Fin 128), i = ix2 p q := ⟨i 0, i 1, eq_ix2 i⟩
  unfold iblk1
  rw [View.read_apply]
  show (V c (Pipeline.arrRef spec1 2) : Mat 128 128) (((cfg1.win 2).blk t).view.emb (ix2 p q)) = _
  refine congrArg (V c (Pipeline.arrRef spec1 2) : Mat 128 128) (funext fun a => Fin.ext ?_)
  match a with
  | ⟨0, _⟩ => show win1_2.index t (0 : Fin 2) * 128 + 1 * p.val = p.val; rw [e0]; omega
  | ⟨1, _⟩ => show win1_2.index t (1 : Fin 2) * 128 + 1 * q.val = q.val; rw [e1]; omega

/-- The output's block at point `t`, at `(y, q)`, sits in the array at `(2000 t + y, q)`. -/
theorem emb1_3 (t : Fin cfg1.N) (y : Fin 2000) (q : Fin 128) :
    (((cfg1.win 3).blk t).view.emb (ix2 y q) : S50000x128.Idx) = ix2 (row1 t y) q := by
  obtain ⟨-, -, -, -, -, -, e0, e1⟩ := index1 t
  refine funext fun a => Fin.ext ?_
  match a with
  | ⟨0, _⟩ => show win1_3.index t (0 : Fin 2) * 2000 + 1 * y.val = t.val * 2000 + y.val; rw [e0]; omega
  | ⟨1, _⟩ => show win1_3.index t (1 : Fin 2) * 128 + 1 * q.val = q.val; rw [e1]; omega

/-! ## From the blocks to the array -/

/-- `conv1` of the blocks at point `t` is block `t` of `conv1` of the arrays: an entry depends on its own row only. -/
theorem block1_eq (A0 : Mat 50000 128) (A1 : Mat 50000 1) (W : Mat 128 128) (x0 : Mat 2000 128) (x1 : Mat 2000 1)
    (t : Fin cfg1.N)
    (h0 : ∀ (y : Fin 2000) (k : Fin 128), x0 (ix2 y k) = A0 (ix2 (row1 t y) k))
    (h1 : ∀ y : Fin 2000, x1 (ix2 y (0 : Fin 1)) = A1 (ix2 (row1 t y) (0 : Fin 1)))
    (y : Fin 2000) (q : Fin 128) :
    conv1 x0 x1 W (ix2 y q) = conv1 A0 A1 W (ix2 (row1 t y) q) :=
  conv1_row A0 x0 A1 x1 W (row1 t y) y (h0 y) (h1 y) q

/-- What point `t` writes back is block `t` of `conv1` of the arrays as the region finds them. -/
theorem flushed1_eq (c : Dev nD) (t : Fin cfg1.N) :
    (dat1 (F := Ideal) V c).flushed 3 t
      = ((cfg1.win 3).blk t).view.read (Elt Ideal)
          (conv1 (V c (Pipeline.arrRef spec1 0) : Mat 50000 128) (V c (Pipeline.arrRef spec1 1) : Mat 50000 1)
            (V c (Pipeline.arrRef spec1 2) : Mat 128 128)) := by
  show (cfg1.win 3).cut (grid1.coords t) ((dat1 V c).after 3 t) = _
  rw [after1_3, out1_eq, blk1_2_eq V c t]
  funext j
  obtain ⟨y, q, rfl⟩ : ∃ (y : Fin 2000) (q : Fin 128), j = ix2 y q := ⟨j 0, j 1, eq_ix2 j⟩
  rw [View.read_apply]
  show conv1 (iblk1 V c 0 t : Mat 2000 128) (iblk1 V c 1 t : Mat 2000 1) (V c (Pipeline.arrRef spec1 2) : Mat 128 128) (ix2 y q)
    = conv1 (V c (Pipeline.arrRef spec1 0) : Mat 50000 128) (V c (Pipeline.arrRef spec1 1) : Mat 50000 1)
        (V c (Pipeline.arrRef spec1 2) : Mat 128 128) (((cfg1.win 3).blk t).view.emb (ix2 y q))
  rw [emb1_3 t y q]
  exact block1_eq (V c (Pipeline.arrRef spec1 0) : Mat 50000 128) (V c (Pipeline.arrRef spec1 1) : Mat 50000 1)
    (V c (Pipeline.arrRef spec1 2) : Mat 128 128) (iblk1 V c 0 t : Mat 2000 128) (iblk1 V c 1 t : Mat 2000 1) t
    (blk1_0_apply V c t) (blk1_1_apply V c t) y q

/-- An index of the array is in point `t`'s block iff each coordinate is in the block's range on its axis. -/
theorem mem_blk1 (t : Fin cfg1.N) (i : S50000x128.Idx) :
    i ∈ ((cfg1.win 3).blk t).view.set
      ↔ ∀ a : Fin 2, win1_3.index t a * S2000x128.size a ≤ (i a).val ∧ (i a).val < win1_3.index t a * S2000x128.size a + S2000x128.size a := by
  show i ∈ ((View.whole main_v28).slice (win1_3.rect t)).set ↔ _
  rw [View.set_slice_whole, Rect.mem_set_unit]
  exact Iff.rfl

/-- Every row of the array is in some point's block: row `r` in that of point `r / 2000`. -/
theorem cover1 (i : S50000x128.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  refine ⟨⟨(i 0).val / 2000, by omega⟩, flush1_3 _, ?_⟩
  rw [mem_blk1]
  obtain ⟨-, -, -, -, -, -, e0, e1⟩ := index1 ⟨(i 0).val / 2000, by omega⟩
  intro a
  match a with
  | ⟨0, _⟩ =>
    show win1_3.index ⟨(i 0).val / 2000, _⟩ (0 : Fin 2) * 2000 ≤ (i 0).val
      ∧ (i 0).val < win1_3.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, _⟩ (1 : Fin 2) * 128 ≤ (i 1).val
      ∧ (i 1).val < win1_3.index ⟨(i 0).val / 2000, _⟩ (1 : Fin 2) * 128 + 128
    rw [e1]; omega

/-- The output array after the region: `conv1` of the arrays the region found. -/
theorem final1 (c : Dev nD) :
    (dat1 (F := Ideal) V c).arrAt 3 cfg1.N
      = conv1 (V c (Pipeline.arrRef spec1 0) : Mat 50000 128) (V c (Pipeline.arrRef spec1 1) : Mat 50000 1)
          (V c (Pipeline.arrRef spec1 2) : Mat 128 128) :=
  (dat1 (F := Ideal) V c).arrAt_eq_of_cover 3 _ (fun t _ => flushed1_eq V c t) (cover1)

end Cert.KernelIdeal.RegionValue

end
-- ==== Proof.RegionConv2.lean ====
/-
  The third layer's kernel over the whole node table.

  The kernel works on blocks of 2000 node rows: on one block it scales the summed rows by the block's degree factors,
  applies the leaky rectifier, multiplies by the weight matrix and scales the rows of the product again, which is `conv1`
  of the block.  `conv1` is row-local, and block `t` of a row-tiled operand is rows `2000 t … 2000 t + 1999` of its array,
  so what point `t` writes back is block `t` of `conv1` of the whole arrays; the 25 blocks tile the 50000 rows, so the
  output array ends holding `conv1` of the arrays the region found.
-/
import proofs.«145696_j7971459301586_2_alg».proof.Proof.Gen.KernelIdeal.Frame
import proofs.«145696_j7971459301586_2_alg».proof.Proof.GcnSpec
import proofs.«145696_j7971459301586_2_alg».proof.Proof.LibDense
import proofs.«145696_j7971459301586_2_alg».proof.Proof.LibRowBlocks
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.Gcn

/-! ## One block -/

/-- A block times its degree column broadcast along the rows is the block with its rows scaled. -/
theorem scaled2_eq (x0 : Vec Ideal S2000x128 .f32) (x1 : Vec Ideal S2000x1 .f32) :
    (mulf (F := Ideal) (shapeCast S2000x128 x0 shapeCasts_S2000x128_S2000x128)
        (broadcastTo S2000x128 (shapeCast S2000x1 x1 shapeCasts_S2000x1_S2000x1) broadcasts_S2000x1_S2000x128)
      : FVec Ideal S2000x128 .f32) = scaleRows x0 x1 := by
  funext j
  obtain ⟨p, k, rfl⟩ : ∃ (p : Fin 2000) (k : Fin 128), j = ix2 p k := ⟨j 0, j 1, eq_ix2 j⟩
  show shapeCast S2000x128 x0 shapeCasts_S2000x128_S2000x128 (ix2 p k)
      * broadcastTo S2000x128 (shapeCast S2000x1 x1 shapeCasts_S2000x1_S2000x1) broadcasts_S2000x1_S2000x128 (ix2 p k) = _
  rw [Cert.RowBlocks.broadcastTo_col_apply, shapeCast_self, shapeCast_self]
  rfl

/-- Keeping an entry where it is at least zero and taking the slope times it elsewhere is the leaky rectifier. -/
theorem leaky2_eq (v : FVec Ideal S2000x128 .f32) :
    (select (cmpf (F := Ideal) .oge v (broadcast S2000x128 (Scalar.ofBits (F := Ideal) .f32 0x00000000#32))) v
        (mulf (F := Ideal) (broadcast S2000x128 (Scalar.ofBits (F := Ideal) .f32 0x3C23D70A#32)) v)
      : FVec Ideal S2000x128 .f32) = lkM v :=
  funext fun j => rfl

/-- On one block the stored value is `conv1` of the block: the rows scaled by the block's degree factors and rectified,
    times the weights, the rows scaled again (the roundings are the identity on the extended reals). -/
theorem pay2_eq (x0 : Vec Ideal S2000x128 .f32) (x1 : Vec Ideal S2000x1 .f32) (x2 : Vec Ideal S128x128 .f32) :
    k2_pay1 (F := Ideal) x0 x1 x2 = conv1 x0 x1 x2 := by
  unfold k2_pay1
  dsimp only
  rw [scaled2_eq x0 x1, leaky2_eq (scaleRows x0 x1), matmul_zero_eq_mm _ rfl rfl rfl rfl rfl rfl]
  funext i
  obtain ⟨p, q, rfl⟩ : ∃ (p : Fin 2000) (q : Fin 128), i = ix2 p q := ⟨i 0, i 1, eq_ix2 i⟩
  show mm (lkM (scaleRows x0 x1)) x2 (ix2 p q)
      * broadcastTo S2000x128 (shapeCast S2000x1 x1 shapeCasts_S2000x1_S2000x1) broadcasts_S2000x1_S2000x128 (ix2 p q) = _
  rw [Cert.RowBlocks.broadcastTo_col_apply, shapeCast_self]
  rfl

/-- The zero offsets of a whole-block access, as a constant function. -/
theorem zeros2 : (![0, 0] : Fin 2 → Nat) = fun _ => 0 := funext fun a => by fin_cases a <;> rfl

/-- What the body leaves in the output's staging buffer is `conv1` of the three input blocks: its one store covers
    the buffer and its loads read the whole blocks. -/
theorem out2_eq (x0 : Vec Ideal S2000x128 .f32) (x1 : Vec Ideal S2000x1 .f32) (x2 : Vec Ideal S128x128 .f32) :
    out2_3 (F := Ideal) x0 x1 x2 = conv1 x0 x1 x2 := by
  unfold out2_3
  rw [View.canon_unit_zero zeros2]
  simp only [View.ld_unit_zero (S := S2000x128) zeros2, View.ld_unit_zero (S := S2000x1) zeros2,
    View.ld_unit_zero (S := S128x128) zeros2]
  exact pay2_eq x0 x1 x2

/-! ## Blocks as rows of the arrays -/

/-- Row `y` of block `t` is row `2000 t + y` of the node table. -/
def row2 (t : Fin cfg2.N) (y : Fin 2000) : Fin 50000 :=
  ⟨t.val * 2000 + y.val, by have h : cfg2.N = 25 := N_2; have := t.isLt; have := y.isLt; omega⟩

/-- The printed index maps over the grid: the row-tiled windows sit at block row `t`, column block `0`; the weights'
    window is its whole array at every point. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The table's block at point `t`, at `(y, k)`, is the table at `(2000 t + y, k)`. -/
theorem blk2_0_apply (c : Dev nD) (t : Fin cfg2.N) (y : Fin 2000) (k : Fin 128) :
    (iblk2 V c 0 t : Mat 2000 128) (ix2 y k) = (V c (Pipeline.arrRef spec2 0) : Mat 50000 128) (ix2 (row2 t y) k) := by
  obtain ⟨e0, e1, -⟩ := index2 t
  unfold iblk2
  rw [View.read_apply]
  show (V c (Pipeline.arrRef spec2 0) : Mat 50000 128) (((cfg2.win 0).blk t).view.emb (ix2 y k)) = _
  refine congrArg (V c (Pipeline.arrRef spec2 0) : Mat 50000 128) (funext fun a => Fin.ext ?_)
  match a with
  | ⟨0, _⟩ => show win2_0.index t (0 : Fin 2) * 2000 + 1 * y.val = t.val * 2000 + y.val; rw [e0]; omega
  | ⟨1, _⟩ => show win2_0.index t (1 : Fin 2) * 128 + 1 * k.val = k.val; rw [e1]; omega

/-- The degree column's block at point `t`, at row `y`, is the column at row `2000 t + y`. -/
theorem blk2_1_apply (c : Dev nD) (t : Fin cfg2.N) (y : Fin 2000) :
    (iblk2 V c 1 t : Mat 2000 1) (ix2 y (0 : Fin 1))
      = (V c (Pipeline.arrRef spec2 1) : Mat 50000 1) (ix2 (row2 t y) (0 : Fin 1)) := by
  obtain ⟨-, -, e0, e1, -⟩ := index2 t
  unfold iblk2
  rw [View.read_apply]
  show (V c (Pipeline.arrRef spec2 1) : Mat 50000 1) (((cfg2.win 1).blk t).view.emb (ix2 y (0 : Fin 1))) = _
  refine congrArg (V c (Pipeline.arrRef spec2 1) : Mat 50000 1) (funext fun a => Fin.ext ?_)
  match a with
  | ⟨0, _⟩ => show win2_1.index t (0 : Fin 2) * 2000 + 1 * y.val = t.val * 2000 + y.val; rw [e0]; omega
  | ⟨1, _⟩ => show win2_1.index t (1 : Fin 2) * 1 + 1 * 0 = 0; rw [e1]

/-- The weights' block at every point is the weight matrix. -/
theorem blk2_2_eq (c : Dev nD) (t : Fin cfg2.N) :
    (iblk2 V c 2 t : Mat 128 128) = (V c (Pipeline.arrRef spec2 2) : Mat 128 128) := by
  obtain ⟨-, -, -, -, e0, e1, -⟩ := index2 t
  funext i
  obtain ⟨p, q, rfl⟩ : ∃ (p : Fin 128) (q : Fin 128), i = ix2 p q := ⟨i 0, i 1, eq_ix2 i⟩
  unfold iblk2
  rw [View.read_apply]
  show (V c (Pipeline.arrRef spec2 2) : Mat 128 128) (((cfg2.win 2).blk t).view.emb (ix2 p q)) = _
  refine congrArg (V c (Pipeline.arrRef spec2 2) : Mat 128 128) (funext fun a => Fin.ext ?_)
  match a with
  | ⟨0, _⟩ => show win2_2.index t (0 : Fin 2) * 128 + 1 * p.val = p.val; rw [e0]; omega
  | ⟨1, _⟩ => show win2_2.index t (1 : Fin 2) * 128 + 1 * q.val = q.val; rw [e1]; omega

/-- The output's block at point `t`, at `(y, q)`, sits in the array at `(2000 t + y, q)`. -/
theorem emb2_3 (t : Fin cfg2.N) (y : Fin 2000) (q : Fin 128) :
    (((cfg2.win 3).blk t).view.emb (ix2 y q) : S50000x128.Idx) = ix2 (row2 t y) q := by
  obtain ⟨-, -, -, -, -, -, e0, e1⟩ := index2 t
  refine funext fun a => Fin.ext ?_
  match a with
  | ⟨0, _⟩ => show win2_3.index t (0 : Fin 2) * 2000 + 1 * y.val = t.val * 2000 + y.val; rw [e0]; omega
  | ⟨1, _⟩ => show win2_3.index t (1 : Fin 2) * 128 + 1 * q.val = q.val; rw [e1]; omega

/-! ## From the blocks to the array -/

/-- `conv1` of the blocks at point `t` is block `t` of `conv1` of the arrays: an entry depends on its own row only. -/
theorem block2_eq (A0 : Mat 50000 128) (A1 : Mat 50000 1) (W : Mat 128 128) (x0 : Mat 2000 128) (x1 : Mat 2000 1)
    (t : Fin cfg2.N)
    (h0 : ∀ (y : Fin 2000) (k : Fin 128), x0 (ix2 y k) = A0 (ix2 (row2 t y) k))
    (h1 : ∀ y : Fin 2000, x1 (ix2 y (0 : Fin 1)) = A1 (ix2 (row2 t y) (0 : Fin 1)))
    (y : Fin 2000) (q : Fin 128) :
    conv1 x0 x1 W (ix2 y q) = conv1 A0 A1 W (ix2 (row2 t y) q) :=
  conv1_row A0 x0 A1 x1 W (row2 t y) y (h0 y) (h1 y) q

/-- What point `t` writes back is block `t` of `conv1` of the arrays as the region finds them. -/
theorem flushed2_eq (c : Dev nD) (t : Fin cfg2.N) :
    (dat2 (F := Ideal) V c).flushed 3 t
      = ((cfg2.win 3).blk t).view.read (Elt Ideal)
          (conv1 (V c (Pipeline.arrRef spec2 0) : Mat 50000 128) (V c (Pipeline.arrRef spec2 1) : Mat 50000 1)
            (V c (Pipeline.arrRef spec2 2) : Mat 128 128)) := by
  show (cfg2.win 3).cut (grid2.coords t) ((dat2 V c).after 3 t) = _
  rw [after2_3, out2_eq, blk2_2_eq V c t]
  funext j
  obtain ⟨y, q, rfl⟩ : ∃ (y : Fin 2000) (q : Fin 128), j = ix2 y q := ⟨j 0, j 1, eq_ix2 j⟩
  rw [View.read_apply]
  show conv1 (iblk2 V c 0 t : Mat 2000 128) (iblk2 V c 1 t : Mat 2000 1) (V c (Pipeline.arrRef spec2 2) : Mat 128 128) (ix2 y q)
    = conv1 (V c (Pipeline.arrRef spec2 0) : Mat 50000 128) (V c (Pipeline.arrRef spec2 1) : Mat 50000 1)
        (V c (Pipeline.arrRef spec2 2) : Mat 128 128) (((cfg2.win 3).blk t).view.emb (ix2 y q))
  rw [emb2_3 t y q]
  exact block2_eq (V c (Pipeline.arrRef spec2 0) : Mat 50000 128) (V c (Pipeline.arrRef spec2 1) : Mat 50000 1)
    (V c (Pipeline.arrRef spec2 2) : Mat 128 128) (iblk2 V c 0 t : Mat 2000 128) (iblk2 V c 1 t : Mat 2000 1) t
    (blk2_0_apply V c t) (blk2_1_apply V c t) y q

/-- An index of the array is in point `t`'s block iff each coordinate is in the block's range on its axis. -/
theorem mem_blk2 (t : Fin cfg2.N) (i : S50000x128.Idx) :
    i ∈ ((cfg2.win 3).blk t).view.set
      ↔ ∀ a : Fin 2, win2_3.index t a * S2000x128.size a ≤ (i a).val ∧ (i a).val < win2_3.index t a * S2000x128.size a + S2000x128.size a := by
  show i ∈ ((View.whole main_v40).slice (win2_3.rect t)).set ↔ _
  rw [View.set_slice_whole, Rect.mem_set_unit]
  exact Iff.rfl

/-- Every row of the array is in some point's block: row `r` in that of point `r / 2000`. -/
theorem cover2 (i : S50000x128.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 128 := (i 1).isLt
  refine ⟨⟨(i 0).val / 2000, by omega⟩, flush2_3 _, ?_⟩
  rw [mem_blk2]
  obtain ⟨-, -, -, -, -, -, e0, e1⟩ := index2 ⟨(i 0).val / 2000, by omega⟩
  intro a
  match a with
  | ⟨0, _⟩ =>
    show win2_3.index ⟨(i 0).val / 2000, _⟩ (0 : Fin 2) * 2000 ≤ (i 0).val
      ∧ (i 0).val < win2_3.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, _⟩ (1 : Fin 2) * 128 ≤ (i 1).val
      ∧ (i 1).val < win2_3.index ⟨(i 0).val / 2000, _⟩ (1 : Fin 2) * 128 + 128
    rw [e1]; omega

/-- The output array after the region: `conv1` of the arrays the region found. -/
theorem final2 (c : Dev nD) :
    (dat2 (F := Ideal) V c).arrAt 3 cfg2.N
      = conv1 (V c (Pipeline.arrRef spec2 0) : Mat 50000 128) (V c (Pipeline.arrRef spec2 1) : Mat 50000 1)
          (V c (Pipeline.arrRef spec2 2) : Mat 128 128) :=
  (dat2 (F := Ideal) V c).arrAt_eq_of_cover 3 _ (fun t _ => flushed2_eq V c t) (cover2)

end Cert.KernelIdeal.RegionValue

end
-- ==== Proof.RegionHead.lean ====
/-
  The head of the network, read off the fourth kernel.

  The kernel treats the 50000 rows in 25 blocks of 2000.  On a block it scales every row by that row's entry of a
  one-column array, applies the leaky rectifier, multiplies by the first weights, rectifies, multiplies by the second
  weights, rectifies, and takes the row-wise softmax shifted by the row maximum: exactly `headM (lkM (scaleRows X d)) W₁ W₂`
  of the block's rows `X`, its column entries `d` and the two weight arrays.  Every step of that function is row-local, so
  the block at point `t` of the head of the blocks is block `t` of the head of the whole arrays; row `r` lies in the block of
  point `r / 2000`, the 25 blocks cover the result array, and the array ends holding the head of the whole arrays.
-/
import proofs.«145696_j7971459301586_2_alg».proof.Proof.Gen.KernelIdeal.Frame
import proofs.«145696_j7971459301586_2_alg».proof.Proof.GcnSpec
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.RegionValue

namespace Head

open Cert.KernelIdeal Cert.KernelIdeal.Gen Cert.Dense Cert.Gcn Cert.LogSoftmax

/-! ## The vector unit's spellings of the head's steps, at any extents -/

/-- A column broadcast along the rows and multiplied in scales every row by its entry of the column. -/
theorem vec_scaleRows {a b : ℕ} (X : FVec Ideal ⟨2, ![a, b]⟩ .f32) (d : FVec Ideal ⟨2, ![a, 1]⟩ .f32)
    (h : (⟨2, ![a, 1]⟩ : Shape).Broadcasts ⟨2, ![a, b]⟩) :
    mulf X (broadcastTo ⟨2, ![a, b]⟩ d h) = scaleRows X d := by
  funext i
  obtain ⟨p, q, rfl⟩ : ∃ (p : Fin a) (q : Fin b), i = ix2 p q := ⟨i 0, i 1, eq_ix2 i⟩
  show X (ix2 p q) * broadcastTo ⟨2, ![a, b]⟩ d h (ix2 p q) = _
  rw [Cert.RowBlocks.broadcastTo_col_apply]
  rfl

/-- The select of `v` where `v ≥ 0` and of the slope times `v` elsewhere is the leaky rectifier on every entry. -/
theorem vec_lk {a b : ℕ} (v : FVec Ideal ⟨2, ![a, b]⟩ .f32) :
    select (cmpf .oge v (broadcast ⟨2, ![a, b]⟩ (Scalar.ofBits (F := Ideal) .f32 0x00000000#32))) v
        (mulf (broadcast ⟨2, ![a, b]⟩ (Scalar.ofBits (F := Ideal) .f32 0x3C23D70A#32)) v)
      = lkM v := rfl

/-- Rounding to a narrower format is the identity on the extended reals, so a plain product of two rounded operands
    into a zero accumulator is the matrix product of the operands. -/
theorem vec_dense {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (hb : FTy.bits .bf16 < FTy.bits .f32)
    (A : FVec Ideal ⟨2, ![M, K]⟩ .f32) (B : FVec Ideal ⟨2, ![K, N]⟩ .f32) :
    matmul (F := Ideal) D none (truncf .bf16 A hb) (truncf .bf16 B hb) (constant ⟨2, ![M, N]⟩ .f32 0x00000000#32) = mm A B :=
  matmul_zero_eq_mm D h1 h2 h3 h4 h5 h6 none (truncf (F := Ideal) .bf16 A hb) (truncf (F := Ideal) .bf16 B hb)

/-- The vector unit's row sums, cast to a column and broadcast along the rows. -/
theorem vecColSum {n c : ℕ} (E : FVec Ideal ⟨2, ![n, c]⟩ .f32)
    (h : (⟨2, ![n, c]⟩ : Shape).Reduces [1] ⟨1, ![n]⟩) (hφ : FKind.Formats .f32)
    (haccS : (0x00000000#32 : BitVec 32) = 0x00000000#32)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (shapeCast ⟨2, ![n, 1]⟩ (multiReduction .add [1] ⟨1, ![n]⟩ E 0x00000000#32 h hφ haccS) hc) hb (ix2 p k)
      = ∑ j : Fin c, E (ix2 p j) := by
  rw [Cert.RowBlocks.broadcastTo_col_apply, Cert.RowBlocks.shapeCast_col_apply, Cert.RowBlocks.rowSum_apply]

/-- The vector unit's row-wise softmax: the row maxima and the row sums of the shifted exponentials, each cast to a
    column and broadcast along the rows, and an exact division. -/
theorem vec_softmax {n c : ℕ} (Y : FVec Ideal ⟨2, ![n, c]⟩ .f32)
    (h : (⟨2, ![n, c]⟩ : Shape).Reduces [1] ⟨1, ![n]⟩) (hφ : FKind.Formats .f32)
    (haccM : (0xFF800000#32 : BitVec 32) = FKind.maximumf.neutral .f32 hφ)
    (haccS : (0x00000000#32 : BitVec 32) = 0x00000000#32)
    (hc : (⟨1, ![n]⟩ : Shape).ShapeCasts ⟨2, ![n, 1]⟩) (hb : (⟨2, ![n, 1]⟩ : Shape).Broadcasts ⟨2, ![n, c]⟩) :
    divf
        (exp (subf Y (broadcastTo ⟨2, ![n, c]⟩ (shapeCast ⟨2, ![n, 1]⟩ (multiReduction .maximumf [1] ⟨1, ![n]⟩ Y 0xFF800000#32 h hφ haccM) hc) hb)))
        (broadcastTo ⟨2, ![n, c]⟩ (shapeCast ⟨2, ![n, 1]⟩ (multiReduction .add [1] ⟨1, ![n]⟩
          (exp (subf Y (broadcastTo ⟨2, ![n, c]⟩ (shapeCast ⟨2, ![n, 1]⟩ (multiReduction .maximumf [1] ⟨1, ![n]⟩ Y 0xFF800000#32 h hφ haccM) hc) hb)))
          0x00000000#32 h hφ haccS) hc) hb)
      = softmaxRows Y := by
  have hM : ∀ (p : Fin n) (k : Fin c),
      broadcastTo ⟨2, ![n, c]⟩ (shapeCast ⟨2, ![n, 1]⟩ (multiReduction .maximumf [1] ⟨1, ![n]⟩ Y 0xFF800000#32 h hφ haccM) hc) hb (ix2 p k)
        = rowMax Y p := vecColMax Y h hφ haccM hc hb
  generalize broadcastTo ⟨2, ![n, c]⟩ (shapeCast ⟨2, ![n, 1]⟩ (multiReduction .maximumf [1] ⟨1, ![n]⟩ Y 0xFF800000#32 h hφ haccM) hc) hb = Mx at hM ⊢
  funext i
  obtain ⟨p, q, rfl⟩ : ∃ (p : Fin n) (q : Fin c), i = ix2 p q := ⟨i 0, i 1, eq_ix2 i⟩
  show Ideal.div (Ideal.exp (Y (ix2 p q) - Mx (ix2 p q)))
      (broadcastTo ⟨2, ![n, c]⟩ (shapeCast ⟨2, ![n, 1]⟩ (multiReduction .add [1] ⟨1, ![n]⟩ (exp (subf Y Mx)) 0x00000000#32 h hφ haccS) hc) hb (ix2 p q)) = _
  rw [vecColSum (exp (subf Y Mx)) h hφ haccS hc hb p q, softmaxRows_apply, hM p q]
  refine congrArg (Ideal.div _) (Finset.sum_congr rfl fun k _ => ?_)
  show Ideal.exp (Y (ix2 p k) - Mx (ix2 p k)) = _
  rw [hM p k]

/-! ## The head kernel's payload on a block -/

/-- What the head kernel stores for a block: the head of the block's rows, scaled and rectified. -/
theorem pay_eq (x0 : Vec Ideal S2000x128 .f32) (x1 : Vec Ideal S2000x1 .f32) (x2 : Vec Ideal S128x256 .f32)
    (x3 : Vec Ideal S256x2 .f32) :
    Gen.k3_pay1 (F := Ideal) x0 x1 x2 x3 = headM (lkM (scaleRows x0 x1)) x2 x3 := by
  unfold Gen.k3_pay1
  dsimp only
  rw [shapeCast_self, shapeCast_self]
  rw [vec_scaleRows x0 x1, vec_lk, vec_dense _ rfl rfl rfl rfl rfl rfl, vec_lk, vec_dense _ rfl rfl rfl rfl rfl rfl, vec_lk]
  exact vec_softmax (n := 2000) (c := 2) (lkM (mm (lkM (mm (lkM (scaleRows x0 x1)) x2)) x3)) _ _ _ _ _ _

/-! ## From blocks to the array -/

section Array

variable (V : (c : Dev nD) → (b : Ref sig .tc) → Buf (Elt Ideal) ((c : Thread nD τ).loc b))

theorem zero_off : (![0, 0] : Fin 2 → Nat) = fun _ => 0 := funext fun a => by fin_cases a <;> rfl

/-- The head of the whole arrays as the region finds them: every row scaled by its entry of the column, rectified, and
    passed through the two dense layers and the row-wise softmax. -/
abbrev headOf (c : Dev nD) : Mat 50000 2 :=
  headM (lkM (scaleRows (V c (Pipeline.arrRef spec3 0)) (V c (Pipeline.arrRef spec3 1))))
    (V c (Pipeline.arrRef spec3 2)) (V c (Pipeline.arrRef spec3 3))

/-- The block indices over the grid: the row windows (the rows, the column, the result) are at block `t` of the rows at
    point `t`, the weights at their one block. -/
theorem index_facts : ∀ t : Fin cfg3.N,
    win3_0.index t (0 : Fin 2) = t.val ∧ win3_0.index t (1 : Fin 2) = 0
      ∧ win3_1.index t (0 : Fin 2) = t.val ∧ win3_1.index t (1 : Fin 2) = 0
      ∧ win3_2.index t (0 : Fin 2) = 0 ∧ win3_2.index t (1 : Fin 2) = 0
      ∧ win3_3.index t (0 : Fin 2) = 0 ∧ win3_3.index t (1 : Fin 2) = 0
      ∧ win3_4.index t (0 : Fin 2) = t.val ∧ win3_4.index t (1 : Fin 2) = 0 :=
  (by decide +kernel : ∀ t : Fin grid3.N, _)

/-- Row `y` of the rows' block at point `t` is row `2000 t + y` of the array. -/
theorem rows_block_apply (c : Dev nD) (t : Fin cfg3.N) (y : Fin 2000) (j : Fin 128) (r : Fin 50000)
    (hr : r.val = 2000 * t.val + y.val) :
    (iblk3 V c 0 t : Mat 2000 128) (ix2 y j) = (V c (Pipeline.arrRef spec3 0) : Mat 50000 128) (ix2 r j) := by
  obtain ⟨e0, e1, -⟩ := index_facts t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t 0 * 2000 + 1 * y.val = r.val; rw [e0, hr]; omega
  | ⟨1, _⟩ => show win3_0.index t 1 * 128 + 1 * j.val = j.val; rw [e1]; omega

/-- Row `y` of the column's block at point `t` is row `2000 t + y` of the column. -/
theorem col_block_apply (c : Dev nD) (t : Fin cfg3.N) (y : Fin 2000) (r : Fin 50000)
    (hr : r.val = 2000 * t.val + y.val) :
    (iblk3 V c 1 t : Mat 2000 1) (ix2 y (0 : Fin 1)) = (V c (Pipeline.arrRef spec3 1) : Mat 50000 1) (ix2 r (0 : Fin 1)) := by
  obtain ⟨-, -, e0, e1, -⟩ := index_facts t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t 0 * 2000 + 1 * y.val = r.val; rw [e0, hr]; omega
  | ⟨1, _⟩ => show win3_1.index t 1 * 1 + 1 * 0 = 0; rw [e1]

/-- The first weights' block at every point is the whole array. -/
theorem w1_block (c : Dev nD) (t : Fin cfg3.N) :
    (iblk3 V c 2 t : Mat 128 256) = (V c (Pipeline.arrRef spec3 2) : Mat 128 256) := by
  obtain ⟨-, -, -, -, e0, e1, -⟩ := index_facts t
  funext x
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t 0 * 128 + 1 * (x 0).val = (x 0).val; rw [e0]; omega
  | ⟨1, _⟩ => show win3_2.index t 1 * 256 + 1 * (x 1).val = (x 1).val; rw [e1]; omega

/-- The second weights' block at every point is the whole array. -/
theorem w2_block (c : Dev nD) (t : Fin cfg3.N) :
    (iblk3 V c 3 t : Mat 256 2) = (V c (Pipeline.arrRef spec3 3) : Mat 256 2) := by
  obtain ⟨-, -, -, -, -, -, e0, e1, -⟩ := index_facts t
  funext x
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t 0 * 256 + 1 * (x 0).val = (x 0).val; rw [e0]; omega
  | ⟨1, _⟩ => show win3_3.index t 1 * 2 + 1 * (x 1).val = (x 1).val; rw [e1]; omega

/-- An entry of the head depends on its own row of the rows and of the column only. -/
theorem head_row {n n' : ℕ} (X' : Mat n' 128) (d' : Mat n' 1) (X : Mat n 128) (d : Mat n 1) (W1 : Mat 128 256) (W2 : Mat 256 2)
    (y : Fin n') (r : Fin n) (hX : ∀ j, X' (ix2 y j) = X (ix2 r j)) (hd : d' (ix2 y (0 : Fin 1)) = d (ix2 r (0 : Fin 1)))
    (q : Fin 2) :
    headM (lkM (scaleRows X' d')) W1 W2 (ix2 y q) = headM (lkM (scaleRows X d)) W1 W2 (ix2 r q) :=
  headM_row _ _ W1 W2 r y (fun j => by rw [lkM_apply, lkM_apply, scaleRows_apply, scaleRows_apply, hX j, hd]) q

/-- WHAT POINT `t` WRITES BACK is block `t` of the head of the whole arrays. -/
theorem flushed_eq (c : Dev nD) (t : Fin cfg3.N) :
    (dat3 V c).flushed 4 t = ((cfg3.win 4).blk t).view.read (Elt Ideal) (headOf V c) := by
  show (cfg3.win 4).cut (grid3.coords t) ((dat3 V c).after 4 t) = _
  rw [after3_4]
  unfold out3_4
  rw [View.canon_unit_zero zero_off]
  simp only [View.ld_unit_zero (S := S2000x128) zero_off, View.ld_unit_zero (S := S2000x1) zero_off,
    View.ld_unit_zero (S := S128x256) zero_off, View.ld_unit_zero (S := S256x2) zero_off]
  rw [pay_eq, w1_block V c t, w2_block V c t]
  funext j
  rw [View.read_apply]
  have h0 : (j 0).val < 2000 := (j 0).isLt
  have h1 : (j 1).val < 2 := (j 1).isLt
  have hN : t.val < 25 := lt_of_lt_of_eq t.isLt N_3
  obtain ⟨-, -, -, -, -, -, -, -, e0, e1⟩ := index_facts t
  have hL : (cfg3.win 4).xinj (grid3.coords t) j = ix2 (⟨(j 0).val, h0⟩ : Fin 2000) (⟨(j 1).val, h1⟩ : Fin 2) :=
    funext fun a => Fin.ext (by
      match a with
      | ⟨0, _⟩ => rfl
      | ⟨1, _⟩ => rfl)
  have hR : ((cfg3.win 4).blk t).view.emb j
      = ix2 (⟨2000 * t.val + (j 0).val, by omega⟩ : Fin 50000) (⟨(j 1).val, h1⟩ : Fin 2) :=
    funext fun a => Fin.ext (by
      match a with
      | ⟨0, _⟩ => show win3_4.index t 0 * 2000 + 1 * (j 0).val = 2000 * t.val + (j 0).val; rw [e0]; omega
      | ⟨1, _⟩ => show win3_4.index t 1 * 2 + 1 * (j 1).val = (j 1).val; rw [e1]; omega)
  show headM (lkM (scaleRows (iblk3 V c 0 t) (iblk3 V c 1 t))) (V c (Pipeline.arrRef spec3 2)) (V c (Pipeline.arrRef spec3 3))
      ((cfg3.win 4).xinj (grid3.coords t) j) = headOf V c (((cfg3.win 4).blk t).view.emb j)
  rw [hL, hR]
  exact head_row (iblk3 V c 0 t) (iblk3 V c 1 t) (V c (Pipeline.arrRef spec3 0)) (V c (Pipeline.arrRef spec3 1))
    (V c (Pipeline.arrRef spec3 2)) (V c (Pipeline.arrRef spec3 3)) ⟨(j 0).val, h0⟩ ⟨2000 * t.val + (j 0).val, by omega⟩
    (fun k => rows_block_apply V c t ⟨(j 0).val, h0⟩ k ⟨2000 * t.val + (j 0).val, by omega⟩ rfl)
    (col_block_apply V c t ⟨(j 0).val, h0⟩ ⟨2000 * t.val + (j 0).val, by omega⟩ rfl) ⟨(j 1).val, h1⟩

/-- An index of the result array is in point `t`'s block iff each coordinate is in the block's range on its axis. -/
theorem mem_blk (t : Fin cfg3.N) (i : S50000x2.Idx) :
    i ∈ ((cfg3.win 4).blk t).view.set
      ↔ ∀ a : Fin 2, win3_4.index t a * S2000x2.size a ≤ (i a).val ∧ (i a).val < win3_4.index t a * S2000x2.size a + S2000x2.size a := by
  show i ∈ ((View.whole main_v52).slice (win3_4.rect t)).set ↔ _
  rw [View.set_slice_whole, Rect.mem_set_unit]
  exact Iff.rfl

/-- THE RESULT ARRAY after the region: the head of the whole arrays as the region finds them. Row `r` is written by
    point `r / 2000`, so the 25 blocks cover the array. -/
theorem array_eq (c : Dev nD) :
    (dat3 (F := Ideal) V c).arrAt 4 cfg3.N
      = headM (lkM (scaleRows (V c (Pipeline.arrRef spec3 0)) (V c (Pipeline.arrRef spec3 1))))
          (V c (Pipeline.arrRef spec3 2)) (V c (Pipeline.arrRef spec3 3)) :=
  (dat3 V c).arrAt_eq_of_cover 4 (headOf V c) (fun t _ => flushed_eq V c t) fun i => by
    have hi0 : (i 0).val < 50000 := (i 0).isLt
    have hi1 : (i 1).val < 2 := (i 1).isLt
    have hN : cfg3.N = 25 := N_3
    have ht : (i 0).val / 2000 < cfg3.N := by rw [hN]; omega
    obtain ⟨-, -, -, -, -, -, -, -, e0, e1⟩ := index_facts ⟨(i 0).val / 2000, ht⟩
    refine ⟨⟨(i 0).val / 2000, ht⟩, flush3_4 _, ?_⟩
    rw [mem_blk]
    intro a
    match a with
    | ⟨0, _⟩ =>
      show win3_4.index ⟨(i 0).val / 2000, ht⟩ 0 * 2000 ≤ (i 0).val
        ∧ (i 0).val < win3_4.index ⟨(i 0).val / 2000, ht⟩ 0 * 2000 + 2000
      rw [e0]
      show (i 0).val / 2000 * 2000 ≤ (i 0).val ∧ (i 0).val < (i 0).val / 2000 * 2000 + 2000
      omega
    | ⟨1, _⟩ =>
      show win3_4.index ⟨(i 0).val / 2000, ht⟩ 1 * 2 ≤ (i 1).val ∧ (i 1).val < win3_4.index ⟨(i 0).val / 2000, ht⟩ 1 * 2 + 2
      rw [e1]
      omega

end Array

end Head

/-- The result array after the fourth region, at any entry contents `V`: the head of the arrays the region finds. -/
theorem final3 (V : (c : Dev nD) → (b : Ref sig .tc) → Buf (Elt Ideal) ((c : Thread nD τ).loc b)) (c : Dev nD) :
    (Gen.dat3 (F := Ideal) V c).arrAt 4 cfg3.N
      = Cert.Gcn.headM (Cert.Gcn.lkM (Cert.Gcn.scaleRows (V c (Pipeline.arrRef spec3 0)) (V c (Pipeline.arrRef spec3 1))))
          (V c (Pipeline.arrRef spec3 2)) (V c (Pipeline.arrRef spec3 3)) :=
  Head.array_eq V c

end Cert.KernelIdeal.RegionValue

end
-- ==== Proof.KernelWalk.lean ====
/-
  The idealized kernel program's result, in closed form.

  The program's run ends with the result buffer at the last boundary's contents (the valued run).  Those contents are
  followed back here: the last launch's result array is the head applied to the rows it reads (the region's closed form),
  those rows are the plain sum along the edges of the third launch's result, and so on down to the launch memory.  A
  buffer that a host stretch does not write, or that a launch reads or does not touch, keeps its contents across it: that
  is how the edge lists, the one-column matrix of inverse square-root degrees and the weight arrays reach every place that
  reads them.
-/
import proofs.«145696_j7971459301586_2_alg».proof.Proof.Gen.KernelIdeal.Frame
import proofs.«145696_j7971459301586_2_alg».proof.Proof.KernelDefs
import proofs.«145696_j7971459301586_2_alg».proof.Proof.RegionConv0
import proofs.«145696_j7971459301586_2_alg».proof.Proof.RegionConv1
import proofs.«145696_j7971459301586_2_alg».proof.Proof.RegionConv2
import proofs.«145696_j7971459301586_2_alg».proof.Proof.RegionHead
import proofs.«145696_j7971459301586_2_alg».proof.Proof.GcnSpec

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.Gcn Cert.Dense

/-! ## The program's value as one function of the argument arrays -/

/-- The summed rows after the first launch. -/
def sum0 (x0 : FVec Ideal S50000x128 .f32) (x1 : IVec S2x800000 32) (x2 : FVec Ideal S128x128 .f32) : FVec Ideal S50000x128 .f32 :=
  aggK (srcList x1) (dstList x1) (conv0 x0 (dcol (dstList x1)) x2)
/-- The summed rows after the second launch. -/
def sum1 (x0 : FVec Ideal S50000x128 .f32) (x1 : IVec S2x800000 32) (x2 x3 : FVec Ideal S128x128 .f32) : FVec Ideal S50000x128 .f32 :=
  aggK (srcList x1) (dstList x1) (conv1 (sum0 x0 x1 x2) (dcol (dstList x1)) x3)
/-- The summed rows after the third launch. -/
def sum2 (x0 : FVec Ideal S50000x128 .f32) (x1 : IVec S2x800000 32) (x2 x3 x4 : FVec Ideal S128x128 .f32) : FVec Ideal S50000x128 .f32 :=
  aggK (srcList x1) (dstList x1) (conv1 (sum1 x0 x1 x2 x3) (dcol (dstList x1)) x4)
/-- The result: the head on the scaled, rectified rows of the last sum. -/
def kernelOut (x0 : FVec Ideal S50000x128 .f32) (x1 : IVec S2x800000 32) (x2 x3 x4 : FVec Ideal S128x128 .f32)
    (x5 : FVec Ideal S128x256 .f32) (x6 : FVec Ideal S256x2 .f32) : FVec Ideal S50000x2 .f32 :=
  headM (lkM (scaleRows (sum2 x0 x1 x2 x3 x4) (dcol (dstList x1)))) x5 x6

/-- The one-column matrix of inverse square-root degrees, from the edge array. -/
def dcolK' (x1 : IVec S2x800000 32) : FVec Ideal S50000x1 .f32 := dcol (dstList x1)

/-! ## The host stretches read at their results -/

/-- A buffer none of a stretch's operations writes keeps its contents through the stretch. -/
macro "keeps_host" : tactic => `(tactic| (
  refine StableHlo.after_of_forall_not_mem _ _ (List.forall_iff_forall_mem.mp ?_)
  simp only [hostOps0, hostOps0_1, hostOps0_2, hostOps1, hostOps2, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

section Stretches
open Idealize.ShloMosaic.StableHlo
variable (W : Valuation τ sig (Elt Ideal))

set_option maxHeartbeats 4000000 in
theorem k0_v3 : after hostOps0 W (Proc.devRef .tc main_v3) = srcList (W (Proc.devRef .tc main_arg1)) := by
  after_results; rfl
set_option maxHeartbeats 4000000 in
theorem k0_v6 : after hostOps0 W (Proc.devRef .tc main_v6) = dstList (W (Proc.devRef .tc main_arg1)) := by
  after_results; rfl
set_option maxHeartbeats 4000000 in
theorem k0_v12 : after hostOps0 W (Proc.devRef .tc main_v12)
    = cmpf (F := Ideal) .ogt (deg (dstList (W (Proc.devRef .tc main_arg1))))
        (broadcastInDim S50000 ![] bcast_S_S50000 (constant (F := Ideal) S_ .f32 0x00000000#32)) := by
  after_results; rfl
set_option maxHeartbeats 4000000 in
theorem k0_v13 : after hostOps0 W (Proc.devRef .tc main_v13)
    = Host.rsqrt (F := Ideal) (deg (dstList (W (Proc.devRef .tc main_arg1)))) := by
  after_results; rfl
set_option maxHeartbeats 4000000 in
theorem k0_cst2 : after hostOps0 W (Proc.devRef .tc main_cst_2) = constant (F := Ideal) S_ .f32 0x00000000#32 := by
  after_results
set_option maxHeartbeats 4000000 in
theorem k01_v14 : after hostOps0_1 W (Proc.devRef .tc main_v14)
    = select (W (Proc.devRef .tc main_v12)) (W (Proc.devRef .tc main_v13))
        (broadcastInDim S50000 ![] bcast_S_S50000 (id (W (Proc.devRef .tc main_cst_2)))) := by
  after_results; rfl
set_option maxHeartbeats 4000000 in
theorem k02_v15 : after hostOps0_2 W (Proc.devRef .tc main_v15)
    = shapeCast S50000x1 (W (Proc.devRef .tc main_v14)) shapeCasts_S50000_S50000x1 := by
  after_results; rfl
set_option maxHeartbeats 4000000 in
theorem k1_v27 : after hostOps1 W (Proc.devRef .tc main_v27)
    = aggK (W (Proc.devRef .tc main_v3)) (W (Proc.devRef .tc main_v6)) (W (Proc.devRef .tc main_v16)) := by
  after_results; rfl
set_option maxHeartbeats 4000000 in
theorem k2_v39 : after hostOps2 W (Proc.devRef .tc main_v39)
    = aggK (W (Proc.devRef .tc main_v3)) (W (Proc.devRef .tc main_v6)) (W (Proc.devRef .tc main_v28)) := by
  after_results; rfl
set_option maxHeartbeats 4000000 in
theorem k3_v51 : after hostOps3 W (Proc.devRef .tc main_v51)
    = aggK (W (Proc.devRef .tc main_v3)) (W (Proc.devRef .tc main_v6)) (W (Proc.devRef .tc main_v40)) := by
  after_results; rfl

end Stretches

/-! ## What is kept across each boundary -/

variable (m : (ℓ : Loc nD τ sig) → Buf (Elt Ideal) ℓ) (ρ : Dev nD → PrngReg) (c : Dev nD)

theorem keep_main_v3_2 : W2 m ρ c (Proc.devRef .tc main_v3) = W1 m ρ c (Proc.devRef .tc main_v3) := by
  show StableHlo.after hostOps0_1 (W1 m ρ c) (Proc.devRef .tc main_v3) = _
  keeps_host
theorem keep_main_v3_3 : W3 m ρ c (Proc.devRef .tc main_v3) = W2 m ρ c (Proc.devRef .tc main_v3) := by
  show StableHlo.after hostOps0_2 (W2 m ρ c) (Proc.devRef .tc main_v3) = _
  keeps_host
theorem keep_main_v3_4 : W4 m ρ c (Proc.devRef .tc main_v3) = W3 m ρ c (Proc.devRef .tc main_v3) := W4_of_ne m ρ c main_v3 (by decide)
theorem keep_main_v3_5 : W5 m ρ c (Proc.devRef .tc main_v3) = W4 m ρ c (Proc.devRef .tc main_v3) := by
  show StableHlo.after hostOps1 (W4 m ρ c) (Proc.devRef .tc main_v3) = _
  keeps_host
theorem keep_main_v3_6 : W6 m ρ c (Proc.devRef .tc main_v3) = W5 m ρ c (Proc.devRef .tc main_v3) := W6_of_ne m ρ c main_v3 (by decide)
theorem keep_main_v3_7 : W7 m ρ c (Proc.devRef .tc main_v3) = W6 m ρ c (Proc.devRef .tc main_v3) := by
  show StableHlo.after hostOps2 (W6 m ρ c) (Proc.devRef .tc main_v3) = _
  keeps_host
theorem keep_main_v3_8 : W8 m ρ c (Proc.devRef .tc main_v3) = W7 m ρ c (Proc.devRef .tc main_v3) := W8_of_ne m ρ c main_v3 (by decide)
theorem keep_main_v6_2 : W2 m ρ c (Proc.devRef .tc main_v6) = W1 m ρ c (Proc.devRef .tc main_v6) := by
  show StableHlo.after hostOps0_1 (W1 m ρ c) (Proc.devRef .tc main_v6) = _
  keeps_host
theorem keep_main_v6_3 : W3 m ρ c (Proc.devRef .tc main_v6) = W2 m ρ c (Proc.devRef .tc main_v6) := by
  show StableHlo.after hostOps0_2 (W2 m ρ c) (Proc.devRef .tc main_v6) = _
  keeps_host
theorem keep_main_v6_4 : W4 m ρ c (Proc.devRef .tc main_v6) = W3 m ρ c (Proc.devRef .tc main_v6) := W4_of_ne m ρ c main_v6 (by decide)
theorem keep_main_v6_5 : W5 m ρ c (Proc.devRef .tc main_v6) = W4 m ρ c (Proc.devRef .tc main_v6) := by
  show StableHlo.after hostOps1 (W4 m ρ c) (Proc.devRef .tc main_v6) = _
  keeps_host
theorem keep_main_v6_6 : W6 m ρ c (Proc.devRef .tc main_v6) = W5 m ρ c (Proc.devRef .tc main_v6) := W6_of_ne m ρ c main_v6 (by decide)
theorem keep_main_v6_7 : W7 m ρ c (Proc.devRef .tc main_v6) = W6 m ρ c (Proc.devRef .tc main_v6) := by
  show StableHlo.after hostOps2 (W6 m ρ c) (Proc.devRef .tc main_v6) = _
  keeps_host
theorem keep_main_v6_8 : W8 m ρ c (Proc.devRef .tc main_v6) = W7 m ρ c (Proc.devRef .tc main_v6) := W8_of_ne m ρ c main_v6 (by decide)
theorem keep_main_v15_4 : W4 m ρ c (Proc.devRef .tc main_v15) = W3 m ρ c (Proc.devRef .tc main_v15) := (W4_arr m ρ c 1).trans (((dat0 (V3 m ρ) c).arrAt_in 1 rfl _).trans (A_eq0 (V3 m ρ) c 1))
theorem keep_main_v15_5 : W5 m ρ c (Proc.devRef .tc main_v15) = W4 m ρ c (Proc.devRef .tc main_v15) := by
  show StableHlo.after hostOps1 (W4 m ρ c) (Proc.devRef .tc main_v15) = _
  keeps_host
theorem keep_main_v15_6 : W6 m ρ c (Proc.devRef .tc main_v15) = W5 m ρ c (Proc.devRef .tc main_v15) := (W6_arr m ρ c 1).trans (((dat1 (V5 m ρ) c).arrAt_in 1 rfl _).trans (A_eq1 (V5 m ρ) c 1))
theorem keep_main_v15_7 : W7 m ρ c (Proc.devRef .tc main_v15) = W6 m ρ c (Proc.devRef .tc main_v15) := by
  show StableHlo.after hostOps2 (W6 m ρ c) (Proc.devRef .tc main_v15) = _
  keeps_host
theorem keep_main_v15_8 : W8 m ρ c (Proc.devRef .tc main_v15) = W7 m ρ c (Proc.devRef .tc main_v15) := (W8_arr m ρ c 1).trans (((dat2 (V7 m ρ) c).arrAt_in 1 rfl _).trans (A_eq2 (V7 m ρ) c 1))
theorem keep_main_v15_9 : W9 m ρ c (Proc.devRef .tc main_v15) = W8 m ρ c (Proc.devRef .tc main_v15) := by
  show StableHlo.after hostOps3 (W8 m ρ c) (Proc.devRef .tc main_v15) = _
  keeps_host
theorem keep_main_arg0_1 : W1 m ρ c (Proc.devRef .tc main_arg0) = W0 m ρ c (Proc.devRef .tc main_arg0) := by
  show StableHlo.after hostOps0 (W0 m ρ c) (Proc.devRef .tc main_arg0) = _
  keeps_host
theorem keep_main_arg0_2 : W2 m ρ c (Proc.devRef .tc main_arg0) = W1 m ρ c (Proc.devRef .tc main_arg0) := by
  show StableHlo.after hostOps0_1 (W1 m ρ c) (Proc.devRef .tc main_arg0) = _
  keeps_host
theorem keep_main_arg0_3 : W3 m ρ c (Proc.devRef .tc main_arg0) = W2 m ρ c (Proc.devRef .tc main_arg0) := by
  show StableHlo.after hostOps0_2 (W2 m ρ c) (Proc.devRef .tc main_arg0) = _
  keeps_host
theorem keep_main_arg2_1 : W1 m ρ c (Proc.devRef .tc main_arg2) = W0 m ρ c (Proc.devRef .tc main_arg2) := by
  show StableHlo.after hostOps0 (W0 m ρ c) (Proc.devRef .tc main_arg2) = _
  keeps_host
theorem keep_main_arg2_2 : W2 m ρ c (Proc.devRef .tc main_arg2) = W1 m ρ c (Proc.devRef .tc main_arg2) := by
  show StableHlo.after hostOps0_1 (W1 m ρ c) (Proc.devRef .tc main_arg2) = _
  keeps_host
theorem keep_main_arg2_3 : W3 m ρ c (Proc.devRef .tc main_arg2) = W2 m ρ c (Proc.devRef .tc main_arg2) := by
  show StableHlo.after hostOps0_2 (W2 m ρ c) (Proc.devRef .tc main_arg2) = _
  keeps_host
theorem keep_main_arg3_1 : W1 m ρ c (Proc.devRef .tc main_arg3) = W0 m ρ c (Proc.devRef .tc main_arg3) := by
  show StableHlo.after hostOps0 (W0 m ρ c) (Proc.devRef .tc main_arg3) = _
  keeps_host
theorem keep_main_arg3_2 : W2 m ρ c (Proc.devRef .tc main_arg3) = W1 m ρ c (Proc.devRef .tc main_arg3) := by
  show StableHlo.after hostOps0_1 (W1 m ρ c) (Proc.devRef .tc main_arg3) = _
  keeps_host
theorem keep_main_arg3_3 : W3 m ρ c (Proc.devRef .tc main_arg3) = W2 m ρ c (Proc.devRef .tc main_arg3) := by
  show StableHlo.after hostOps0_2 (W2 m ρ c) (Proc.devRef .tc main_arg3) = _
  keeps_host
theorem keep_main_arg3_4 : W4 m ρ c (Proc.devRef .tc main_arg3) = W3 m ρ c (Proc.devRef .tc main_arg3) := W4_of_ne m ρ c main_arg3 (by decide)
theorem keep_main_arg3_5 : W5 m ρ c (Proc.devRef .tc main_arg3) = W4 m ρ c (Proc.devRef .tc main_arg3) := by
  show StableHlo.after hostOps1 (W4 m ρ c) (Proc.devRef .tc main_arg3) = _
  keeps_host
theorem keep_main_arg4_1 : W1 m ρ c (Proc.devRef .tc main_arg4) = W0 m ρ c (Proc.devRef .tc main_arg4) := by
  show StableHlo.after hostOps0 (W0 m ρ c) (Proc.devRef .tc main_arg4) = _
  keeps_host
theorem keep_main_arg4_2 : W2 m ρ c (Proc.devRef .tc main_arg4) = W1 m ρ c (Proc.devRef .tc main_arg4) := by
  show StableHlo.after hostOps0_1 (W1 m ρ c) (Proc.devRef .tc main_arg4) = _
  keeps_host
theorem keep_main_arg4_3 : W3 m ρ c (Proc.devRef .tc main_arg4) = W2 m ρ c (Proc.devRef .tc main_arg4) := by
  show StableHlo.after hostOps0_2 (W2 m ρ c) (Proc.devRef .tc main_arg4) = _
  keeps_host
theorem keep_main_arg4_4 : W4 m ρ c (Proc.devRef .tc main_arg4) = W3 m ρ c (Proc.devRef .tc main_arg4) := W4_of_ne m ρ c main_arg4 (by decide)
theorem keep_main_arg4_5 : W5 m ρ c (Proc.devRef .tc main_arg4) = W4 m ρ c (Proc.devRef .tc main_arg4) := by
  show StableHlo.after hostOps1 (W4 m ρ c) (Proc.devRef .tc main_arg4) = _
  keeps_host
theorem keep_main_arg4_6 : W6 m ρ c (Proc.devRef .tc main_arg4) = W5 m ρ c (Proc.devRef .tc main_arg4) := W6_of_ne m ρ c main_arg4 (by decide)
theorem keep_main_arg4_7 : W7 m ρ c (Proc.devRef .tc main_arg4) = W6 m ρ c (Proc.devRef .tc main_arg4) := by
  show StableHlo.after hostOps2 (W6 m ρ c) (Proc.devRef .tc main_arg4) = _
  keeps_host
theorem keep_main_arg5_1 : W1 m ρ c (Proc.devRef .tc main_arg5) = W0 m ρ c (Proc.devRef .tc main_arg5) := by
  show StableHlo.after hostOps0 (W0 m ρ c) (Proc.devRef .tc main_arg5) = _
  keeps_host
theorem keep_main_arg5_2 : W2 m ρ c (Proc.devRef .tc main_arg5) = W1 m ρ c (Proc.devRef .tc main_arg5) := by
  show StableHlo.after hostOps0_1 (W1 m ρ c) (Proc.devRef .tc main_arg5) = _
  keeps_host
theorem keep_main_arg5_3 : W3 m ρ c (Proc.devRef .tc main_arg5) = W2 m ρ c (Proc.devRef .tc main_arg5) := by
  show StableHlo.after hostOps0_2 (W2 m ρ c) (Proc.devRef .tc main_arg5) = _
  keeps_host
theorem keep_main_arg5_4 : W4 m ρ c (Proc.devRef .tc main_arg5) = W3 m ρ c (Proc.devRef .tc main_arg5) := W4_of_ne m ρ c main_arg5 (by decide)
theorem keep_main_arg5_5 : W5 m ρ c (Proc.devRef .tc main_arg5) = W4 m ρ c (Proc.devRef .tc main_arg5) := by
  show StableHlo.after hostOps1 (W4 m ρ c) (Proc.devRef .tc main_arg5) = _
  keeps_host
theorem keep_main_arg5_6 : W6 m ρ c (Proc.devRef .tc main_arg5) = W5 m ρ c (Proc.devRef .tc main_arg5) := W6_of_ne m ρ c main_arg5 (by decide)
theorem keep_main_arg5_7 : W7 m ρ c (Proc.devRef .tc main_arg5) = W6 m ρ c (Proc.devRef .tc main_arg5) := by
  show StableHlo.after hostOps2 (W6 m ρ c) (Proc.devRef .tc main_arg5) = _
  keeps_host
theorem keep_main_arg5_8 : W8 m ρ c (Proc.devRef .tc main_arg5) = W7 m ρ c (Proc.devRef .tc main_arg5) := W8_of_ne m ρ c main_arg5 (by decide)
theorem keep_main_arg5_9 : W9 m ρ c (Proc.devRef .tc main_arg5) = W8 m ρ c (Proc.devRef .tc main_arg5) := by
  show StableHlo.after hostOps3 (W8 m ρ c) (Proc.devRef .tc main_arg5) = _
  keeps_host
theorem keep_main_arg6_1 : W1 m ρ c (Proc.devRef .tc main_arg6) = W0 m ρ c (Proc.devRef .tc main_arg6) := by
  show StableHlo.after hostOps0 (W0 m ρ c) (Proc.devRef .tc main_arg6) = _
  keeps_host
theorem keep_main_arg6_2 : W2 m ρ c (Proc.devRef .tc main_arg6) = W1 m ρ c (Proc.devRef .tc main_arg6) := by
  show StableHlo.after hostOps0_1 (W1 m ρ c) (Proc.devRef .tc main_arg6) = _
  keeps_host
theorem keep_main_arg6_3 : W3 m ρ c (Proc.devRef .tc main_arg6) = W2 m ρ c (Proc.devRef .tc main_arg6) := by
  show StableHlo.after hostOps0_2 (W2 m ρ c) (Proc.devRef .tc main_arg6) = _
  keeps_host
theorem keep_main_arg6_4 : W4 m ρ c (Proc.devRef .tc main_arg6) = W3 m ρ c (Proc.devRef .tc main_arg6) := W4_of_ne m ρ c main_arg6 (by decide)
theorem keep_main_arg6_5 : W5 m ρ c (Proc.devRef .tc main_arg6) = W4 m ρ c (Proc.devRef .tc main_arg6) := by
  show StableHlo.after hostOps1 (W4 m ρ c) (Proc.devRef .tc main_arg6) = _
  keeps_host
theorem keep_main_arg6_6 : W6 m ρ c (Proc.devRef .tc main_arg6) = W5 m ρ c (Proc.devRef .tc main_arg6) := W6_of_ne m ρ c main_arg6 (by decide)
theorem keep_main_arg6_7 : W7 m ρ c (Proc.devRef .tc main_arg6) = W6 m ρ c (Proc.devRef .tc main_arg6) := by
  show StableHlo.after hostOps2 (W6 m ρ c) (Proc.devRef .tc main_arg6) = _
  keeps_host
theorem keep_main_arg6_8 : W8 m ρ c (Proc.devRef .tc main_arg6) = W7 m ρ c (Proc.devRef .tc main_arg6) := W8_of_ne m ρ c main_arg6 (by decide)
theorem keep_main_arg6_9 : W9 m ρ c (Proc.devRef .tc main_arg6) = W8 m ρ c (Proc.devRef .tc main_arg6) := by
  show StableHlo.after hostOps3 (W8 m ρ c) (Proc.devRef .tc main_arg6) = _
  keeps_host

/-! ## The buffers every later place reads, at each boundary -/

theorem at_main_v3_1 : W1 m ρ c (Proc.devRef .tc main_v3) = srcList (m ((c.tc : Thread nD τ).loc main_arg1)) :=
  k0_v3 (W0 m ρ c)
theorem at_main_v6_1 : W1 m ρ c (Proc.devRef .tc main_v6) = dstList (m ((c.tc : Thread nD τ).loc main_arg1)) :=
  k0_v6 (W0 m ρ c)
theorem at_main_v15_3 : W3 m ρ c (Proc.devRef .tc main_v15) = dcolK' (m ((c.tc : Thread nD τ).loc main_arg1)) := by
  show StableHlo.after hostOps0_2 (StableHlo.after hostOps0_1 (StableHlo.after hostOps0 (W0 m ρ c))) (Proc.devRef .tc main_v15) = _
  rw [k02_v15, k01_v14, k0_v12, k0_v13, k0_cst2]
  rfl
theorem at_main_v3_2 : W2 m ρ c (Proc.devRef .tc main_v3) = srcList (m ((c.tc : Thread nD τ).loc main_arg1)) := (keep_main_v3_2 m ρ c).trans (at_main_v3_1 m ρ c)
theorem at_main_v3_3 : W3 m ρ c (Proc.devRef .tc main_v3) = srcList (m ((c.tc : Thread nD τ).loc main_arg1)) := (keep_main_v3_3 m ρ c).trans (at_main_v3_2 m ρ c)
theorem at_main_v3_4 : W4 m ρ c (Proc.devRef .tc main_v3) = srcList (m ((c.tc : Thread nD τ).loc main_arg1)) := (keep_main_v3_4 m ρ c).trans (at_main_v3_3 m ρ c)
theorem at_main_v3_5 : W5 m ρ c (Proc.devRef .tc main_v3) = srcList (m ((c.tc : Thread nD τ).loc main_arg1)) := (keep_main_v3_5 m ρ c).trans (at_main_v3_4 m ρ c)
theorem at_main_v3_6 : W6 m ρ c (Proc.devRef .tc main_v3) = srcList (m ((c.tc : Thread nD τ).loc main_arg1)) := (keep_main_v3_6 m ρ c).trans (at_main_v3_5 m ρ c)
theorem at_main_v3_7 : W7 m ρ c (Proc.devRef .tc main_v3) = srcList (m ((c.tc : Thread nD τ).loc main_arg1)) := (keep_main_v3_7 m ρ c).trans (at_main_v3_6 m ρ c)
theorem at_main_v3_8 : W8 m ρ c (Proc.devRef .tc main_v3) = srcList (m ((c.tc : Thread nD τ).loc main_arg1)) := (keep_main_v3_8 m ρ c).trans (at_main_v3_7 m ρ c)
theorem at_main_v6_2 : W2 m ρ c (Proc.devRef .tc main_v6) = dstList (m ((c.tc : Thread nD τ).loc main_arg1)) := (keep_main_v6_2 m ρ c).trans (at_main_v6_1 m ρ c)
theorem at_main_v6_3 : W3 m ρ c (Proc.devRef .tc main_v6) = dstList (m ((c.tc : Thread nD τ).loc main_arg1)) := (keep_main_v6_3 m ρ c).trans (at_main_v6_2 m ρ c)
theorem at_main_v6_4 : W4 m ρ c (Proc.devRef .tc main_v6) = dstList (m ((c.tc : Thread nD τ).loc main_arg1)) := (keep_main_v6_4 m ρ c).trans (at_main_v6_3 m ρ c)
theorem at_main_v6_5 : W5 m ρ c (Proc.devRef .tc main_v6) = dstList (m ((c.tc : Thread nD τ).loc main_arg1)) := (keep_main_v6_5 m ρ c).trans (at_main_v6_4 m ρ c)
theorem at_main_v6_6 : W6 m ρ c (Proc.devRef .tc main_v6) = dstList (m ((c.tc : Thread nD τ).loc main_arg1)) := (keep_main_v6_6 m ρ c).trans (at_main_v6_5 m ρ c)
theorem at_main_v6_7 : W7 m ρ c (Proc.devRef .tc main_v6) = dstList (m ((c.tc : Thread nD τ).loc main_arg1)) := (keep_main_v6_7 m ρ c).trans (at_main_v6_6 m ρ c)
theorem at_main_v6_8 : W8 m ρ c (Proc.devRef .tc main_v6) = dstList (m ((c.tc : Thread nD τ).loc main_arg1)) := (keep_main_v6_8 m ρ c).trans (at_main_v6_7 m ρ c)
theorem at_main_v15_4 : W4 m ρ c (Proc.devRef .tc main_v15) = dcolK' (m ((c.tc : Thread nD τ).loc main_arg1)) := (keep_main_v15_4 m ρ c).trans (at_main_v15_3 m ρ c)
theorem at_main_v15_5 : W5 m ρ c (Proc.devRef .tc main_v15) = dcolK' (m ((c.tc : Thread nD τ).loc main_arg1)) := (keep_main_v15_5 m ρ c).trans (at_main_v15_4 m ρ c)
theorem at_main_v15_6 : W6 m ρ c (Proc.devRef .tc main_v15) = dcolK' (m ((c.tc : Thread nD τ).loc main_arg1)) := (keep_main_v15_6 m ρ c).trans (at_main_v15_5 m ρ c)
theorem at_main_v15_7 : W7 m ρ c (Proc.devRef .tc main_v15) = dcolK' (m ((c.tc : Thread nD τ).loc main_arg1)) := (keep_main_v15_7 m ρ c).trans (at_main_v15_6 m ρ c)
theorem at_main_v15_8 : W8 m ρ c (Proc.devRef .tc main_v15) = dcolK' (m ((c.tc : Thread nD τ).loc main_arg1)) := (keep_main_v15_8 m ρ c).trans (at_main_v15_7 m ρ c)
theorem at_main_v15_9 : W9 m ρ c (Proc.devRef .tc main_v15) = dcolK' (m ((c.tc : Thread nD τ).loc main_arg1)) := (keep_main_v15_9 m ρ c).trans (at_main_v15_8 m ρ c)
theorem at_main_arg0_0 : W0 m ρ c (Proc.devRef .tc main_arg0) = m ((c.tc : Thread nD τ).loc main_arg0) := rfl
theorem at_main_arg0_1 : W1 m ρ c (Proc.devRef .tc main_arg0) = m ((c.tc : Thread nD τ).loc main_arg0) := (keep_main_arg0_1 m ρ c).trans (at_main_arg0_0 m ρ c)
theorem at_main_arg0_2 : W2 m ρ c (Proc.devRef .tc main_arg0) = m ((c.tc : Thread nD τ).loc main_arg0) := (keep_main_arg0_2 m ρ c).trans (at_main_arg0_1 m ρ c)
theorem at_main_arg0_3 : W3 m ρ c (Proc.devRef .tc main_arg0) = m ((c.tc : Thread nD τ).loc main_arg0) := (keep_main_arg0_3 m ρ c).trans (at_main_arg0_2 m ρ c)
theorem at_main_arg2_0 : W0 m ρ c (Proc.devRef .tc main_arg2) = m ((c.tc : Thread nD τ).loc main_arg2) := rfl
theorem at_main_arg2_1 : W1 m ρ c (Proc.devRef .tc main_arg2) = m ((c.tc : Thread nD τ).loc main_arg2) := (keep_main_arg2_1 m ρ c).trans (at_main_arg2_0 m ρ c)
theorem at_main_arg2_2 : W2 m ρ c (Proc.devRef .tc main_arg2) = m ((c.tc : Thread nD τ).loc main_arg2) := (keep_main_arg2_2 m ρ c).trans (at_main_arg2_1 m ρ c)
theorem at_main_arg2_3 : W3 m ρ c (Proc.devRef .tc main_arg2) = m ((c.tc : Thread nD τ).loc main_arg2) := (keep_main_arg2_3 m ρ c).trans (at_main_arg2_2 m ρ c)
theorem at_main_arg3_0 : W0 m ρ c (Proc.devRef .tc main_arg3) = m ((c.tc : Thread nD τ).loc main_arg3) := rfl
theorem at_main_arg3_1 : W1 m ρ c (Proc.devRef .tc main_arg3) = m ((c.tc : Thread nD τ).loc main_arg3) := (keep_main_arg3_1 m ρ c).trans (at_main_arg3_0 m ρ c)
theorem at_main_arg3_2 : W2 m ρ c (Proc.devRef .tc main_arg3) = m ((c.tc : Thread nD τ).loc main_arg3) := (keep_main_arg3_2 m ρ c).trans (at_main_arg3_1 m ρ c)
theorem at_main_arg3_3 : W3 m ρ c (Proc.devRef .tc main_arg3) = m ((c.tc : Thread nD τ).loc main_arg3) := (keep_main_arg3_3 m ρ c).trans (at_main_arg3_2 m ρ c)
theorem at_main_arg3_4 : W4 m ρ c (Proc.devRef .tc main_arg3) = m ((c.tc : Thread nD τ).loc main_arg3) := (keep_main_arg3_4 m ρ c).trans (at_main_arg3_3 m ρ c)
theorem at_main_arg3_5 : W5 m ρ c (Proc.devRef .tc main_arg3) = m ((c.tc : Thread nD τ).loc main_arg3) := (keep_main_arg3_5 m ρ c).trans (at_main_arg3_4 m ρ c)
theorem at_main_arg4_0 : W0 m ρ c (Proc.devRef .tc main_arg4) = m ((c.tc : Thread nD τ).loc main_arg4) := rfl
theorem at_main_arg4_1 : W1 m ρ c (Proc.devRef .tc main_arg4) = m ((c.tc : Thread nD τ).loc main_arg4) := (keep_main_arg4_1 m ρ c).trans (at_main_arg4_0 m ρ c)
theorem at_main_arg4_2 : W2 m ρ c (Proc.devRef .tc main_arg4) = m ((c.tc : Thread nD τ).loc main_arg4) := (keep_main_arg4_2 m ρ c).trans (at_main_arg4_1 m ρ c)
theorem at_main_arg4_3 : W3 m ρ c (Proc.devRef .tc main_arg4) = m ((c.tc : Thread nD τ).loc main_arg4) := (keep_main_arg4_3 m ρ c).trans (at_main_arg4_2 m ρ c)
theorem at_main_arg4_4 : W4 m ρ c (Proc.devRef .tc main_arg4) = m ((c.tc : Thread nD τ).loc main_arg4) := (keep_main_arg4_4 m ρ c).trans (at_main_arg4_3 m ρ c)
theorem at_main_arg4_5 : W5 m ρ c (Proc.devRef .tc main_arg4) = m ((c.tc : Thread nD τ).loc main_arg4) := (keep_main_arg4_5 m ρ c).trans (at_main_arg4_4 m ρ c)
theorem at_main_arg4_6 : W6 m ρ c (Proc.devRef .tc main_arg4) = m ((c.tc : Thread nD τ).loc main_arg4) := (keep_main_arg4_6 m ρ c).trans (at_main_arg4_5 m ρ c)
theorem at_main_arg4_7 : W7 m ρ c (Proc.devRef .tc main_arg4) = m ((c.tc : Thread nD τ).loc main_arg4) := (keep_main_arg4_7 m ρ c).trans (at_main_arg4_6 m ρ c)
theorem at_main_arg5_0 : W0 m ρ c (Proc.devRef .tc main_arg5) = m ((c.tc : Thread nD τ).loc main_arg5) := rfl
theorem at_main_arg5_1 : W1 m ρ c (Proc.devRef .tc main_arg5) = m ((c.tc : Thread nD τ).loc main_arg5) := (keep_main_arg5_1 m ρ c).trans (at_main_arg5_0 m ρ c)
theorem at_main_arg5_2 : W2 m ρ c (Proc.devRef .tc main_arg5) = m ((c.tc : Thread nD τ).loc main_arg5) := (keep_main_arg5_2 m ρ c).trans (at_main_arg5_1 m ρ c)
theorem at_main_arg5_3 : W3 m ρ c (Proc.devRef .tc main_arg5) = m ((c.tc : Thread nD τ).loc main_arg5) := (keep_main_arg5_3 m ρ c).trans (at_main_arg5_2 m ρ c)
theorem at_main_arg5_4 : W4 m ρ c (Proc.devRef .tc main_arg5) = m ((c.tc : Thread nD τ).loc main_arg5) := (keep_main_arg5_4 m ρ c).trans (at_main_arg5_3 m ρ c)
theorem at_main_arg5_5 : W5 m ρ c (Proc.devRef .tc main_arg5) = m ((c.tc : Thread nD τ).loc main_arg5) := (keep_main_arg5_5 m ρ c).trans (at_main_arg5_4 m ρ c)
theorem at_main_arg5_6 : W6 m ρ c (Proc.devRef .tc main_arg5) = m ((c.tc : Thread nD τ).loc main_arg5) := (keep_main_arg5_6 m ρ c).trans (at_main_arg5_5 m ρ c)
theorem at_main_arg5_7 : W7 m ρ c (Proc.devRef .tc main_arg5) = m ((c.tc : Thread nD τ).loc main_arg5) := (keep_main_arg5_7 m ρ c).trans (at_main_arg5_6 m ρ c)
theorem at_main_arg5_8 : W8 m ρ c (Proc.devRef .tc main_arg5) = m ((c.tc : Thread nD τ).loc main_arg5) := (keep_main_arg5_8 m ρ c).trans (at_main_arg5_7 m ρ c)
theorem at_main_arg5_9 : W9 m ρ c (Proc.devRef .tc main_arg5) = m ((c.tc : Thread nD τ).loc main_arg5) := (keep_main_arg5_9 m ρ c).trans (at_main_arg5_8 m ρ c)
theorem at_main_arg6_0 : W0 m ρ c (Proc.devRef .tc main_arg6) = m ((c.tc : Thread nD τ).loc main_arg6) := rfl
theorem at_main_arg6_1 : W1 m ρ c (Proc.devRef .tc main_arg6) = m ((c.tc : Thread nD τ).loc main_arg6) := (keep_main_arg6_1 m ρ c).trans (at_main_arg6_0 m ρ c)
theorem at_main_arg6_2 : W2 m ρ c (Proc.devRef .tc main_arg6) = m ((c.tc : Thread nD τ).loc main_arg6) := (keep_main_arg6_2 m ρ c).trans (at_main_arg6_1 m ρ c)
theorem at_main_arg6_3 : W3 m ρ c (Proc.devRef .tc main_arg6) = m ((c.tc : Thread nD τ).loc main_arg6) := (keep_main_arg6_3 m ρ c).trans (at_main_arg6_2 m ρ c)
theorem at_main_arg6_4 : W4 m ρ c (Proc.devRef .tc main_arg6) = m ((c.tc : Thread nD τ).loc main_arg6) := (keep_main_arg6_4 m ρ c).trans (at_main_arg6_3 m ρ c)
theorem at_main_arg6_5 : W5 m ρ c (Proc.devRef .tc main_arg6) = m ((c.tc : Thread nD τ).loc main_arg6) := (keep_main_arg6_5 m ρ c).trans (at_main_arg6_4 m ρ c)
theorem at_main_arg6_6 : W6 m ρ c (Proc.devRef .tc main_arg6) = m ((c.tc : Thread nD τ).loc main_arg6) := (keep_main_arg6_6 m ρ c).trans (at_main_arg6_5 m ρ c)
theorem at_main_arg6_7 : W7 m ρ c (Proc.devRef .tc main_arg6) = m ((c.tc : Thread nD τ).loc main_arg6) := (keep_main_arg6_7 m ρ c).trans (at_main_arg6_6 m ρ c)
theorem at_main_arg6_8 : W8 m ρ c (Proc.devRef .tc main_arg6) = m ((c.tc : Thread nD τ).loc main_arg6) := (keep_main_arg6_8 m ρ c).trans (at_main_arg6_7 m ρ c)
theorem at_main_arg6_9 : W9 m ρ c (Proc.devRef .tc main_arg6) = m ((c.tc : Thread nD τ).loc main_arg6) := (keep_main_arg6_9 m ρ c).trans (at_main_arg6_8 m ρ c)

/-! ## Each launch's result and each sum along the edges -/

theorem val_v16 : W4 m ρ c (Proc.devRef .tc main_v16)
    = conv0 (m ((c.tc : Thread nD τ).loc main_arg0)) (dcolK' (m ((c.tc : Thread nD τ).loc main_arg1))) (m ((c.tc : Thread nD τ).loc main_arg2)) := by
  refine (W4_arr m ρ c 3).trans ((RegionValue.final0 (V3 m ρ) c).trans ?_)
  show conv0 (W3 m ρ c (Proc.devRef .tc main_arg0)) (W3 m ρ c (Proc.devRef .tc main_v15)) (W3 m ρ c (Proc.devRef .tc main_arg2)) = _
  rw [at_main_arg0_3, at_main_v15_3, at_main_arg2_3]

theorem val_v27 : W5 m ρ c (Proc.devRef .tc main_v27) = sum0 (m ((c.tc : Thread nD τ).loc main_arg0)) (m ((c.tc : Thread nD τ).loc main_arg1)) (m ((c.tc : Thread nD τ).loc main_arg2)) := by
  show StableHlo.after hostOps1 (W4 m ρ c) (Proc.devRef .tc main_v27) = _
  rw [k1_v27, at_main_v3_4, at_main_v6_4, val_v16]
  rfl

theorem val_v28 : W6 m ρ c (Proc.devRef .tc main_v28)
    = conv1 (sum0 (m ((c.tc : Thread nD τ).loc main_arg0)) (m ((c.tc : Thread nD τ).loc main_arg1)) (m ((c.tc : Thread nD τ).loc main_arg2))) (dcolK' (m ((c.tc : Thread nD τ).loc main_arg1))) (m ((c.tc : Thread nD τ).loc main_arg3)) := by
  refine (W6_arr m ρ c 3).trans ((RegionValue.final1 (V5 m ρ) c).trans ?_)
  show conv1 (W5 m ρ c (Proc.devRef .tc main_v27)) (W5 m ρ c (Proc.devRef .tc main_v15)) (W5 m ρ c (Proc.devRef .tc main_arg3)) = _
  rw [val_v27, at_main_v15_5, at_main_arg3_5]

theorem val_v39 : W7 m ρ c (Proc.devRef .tc main_v39) = sum1 (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v39) = _
  rw [k2_v39, at_main_v3_6, at_main_v6_6, val_v28]
  rfl

theorem val_v40 : W8 m ρ c (Proc.devRef .tc main_v40)
    = conv1 (sum1 (m ((c.tc : Thread nD τ).loc main_arg0)) (m ((c.tc : Thread nD τ).loc main_arg1)) (m ((c.tc : Thread nD τ).loc main_arg2)) (m ((c.tc : Thread nD τ).loc main_arg3))) (dcolK' (m ((c.tc : Thread nD τ).loc main_arg1))) (m ((c.tc : Thread nD τ).loc main_arg4)) := by
  refine (W8_arr m ρ c 3).trans ((RegionValue.final2 (V7 m ρ) c).trans ?_)
  show conv1 (W7 m ρ c (Proc.devRef .tc main_v39)) (W7 m ρ c (Proc.devRef .tc main_v15)) (W7 m ρ c (Proc.devRef .tc main_arg4)) = _
  rw [val_v39, at_main_v15_7, at_main_arg4_7]

theorem val_v51 : W9 m ρ c (Proc.devRef .tc main_v51) = sum2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W8 m ρ c) (Proc.devRef .tc main_v51) = _
  rw [k3_v51, at_main_v3_8, at_main_v6_8, val_v40]
  rfl

/-- The result buffer's last contents are the program's value at the launch memory's argument arrays. -/
theorem val_v52 : W10 m ρ c (Proc.devRef .tc main_v52)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 4).trans ((RegionValue.final3 (V9 m ρ) c).trans ?_)
  show headM (lkM (scaleRows (W9 m ρ c (Proc.devRef .tc main_v51)) (W9 m ρ c (Proc.devRef .tc main_v15))))
      (W9 m ρ c (Proc.devRef .tc main_arg5)) (W9 m ρ c (Proc.devRef .tc main_arg6)) = _
  rw [val_v51, at_main_v15_9, at_main_arg5_9, at_main_arg6_9]
  rfl

end Cert.KernelIdeal.KValue

end
-- ==== Proof.RefDefs.lean ====
/-
  The reference program's stages as named functions.

  The edge lists (row 0 and row 1 of the edge array, the self loops appended), the degrees (a one per edge accumulated at its
  destination), their gated inverse square roots, the edge weights (the source's factor times the destination's), one layer
  (the rows of `h w` gathered along the edges, weighted, accumulated at the destinations, rectified), written with the
  host's operations exactly as the program applies them.  A value that several later stages read is an argument here, so
  it is carried by name.
-/
import proofs.«145696_j7971459301586_2_alg».proof.Proof.Gen.ReferenceIdeal
import Idealize.ShloMosaic.PureOps.Ideal.Laws
import proofs.«145696_j7971459301586_2_alg».proof.Proof.LibDense

noncomputable section

namespace Cert.ReferenceIdeal.RefValue

open Cert.ReferenceIdeal Cert.ReferenceIdeal.Gen
open Idealize.ShloMosaic Idealize.ShloMosaic.TcCoe Idealize.SL.Sem

/-! ## The stretches' results as functions -/

/-- The source list: row 0 of the edge array, then the self loops `0, 1, …, N − 1`. -/
def srcList (x1 : IVec S2x800000 32) : IVec S850000 32 :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

/-- The destination list: row 1 of the edge array, then the self loops. -/
def dstList (x1 : IVec S2x800000 32) : IVec S850000 32 :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- A list of node numbers as a one-column index array. -/
def dstCol (dst : IVec S850000 32) : IVec S850000x1 32 :=
  broadcastInDim S850000x1 ![0] bcast_S850000_S850000x1_0 dst

/-- A list of node numbers, the negative ones wrapped by `N`, as a one-column index array (what a gather reads). -/
def srcCol (src : IVec S850000 32) : IVec S850000x1 32 :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- The degrees: a one per edge accumulated at the edge's destination. -/
def deg (dst : IVec S850000 32) : FVec Ideal S50000 .f32 :=
  Host.scatterAdd (F := Ideal) scatter_S50000_S850000x1_S850000_n_0_0_1 (broadcastInDim S50000 ![] bcast_S_S50000 (constant (F := Ideal) S_ .f32 0x00000000#32))
    (dstCol dst) (broadcastInDim S850000 ![] bcast_S_S850000 (constant (F := Ideal) S_ .f32 0x3F800000#32))

/-- The gated inverse square roots of the degrees. -/
def dinv (dst : IVec S850000 32) : FVec Ideal S50000 .f32 :=
  select (cmpf (F := Ideal) .ogt (deg dst) (broadcastInDim S50000 ![] bcast_S_S50000 (constant (F := Ideal) S_ .f32 0x00000000#32))) (Host.rsqrt (F := Ideal) (deg dst))
    (broadcastInDim S50000 ![] bcast_S_S50000 (id (constant (F := Ideal) S_ .f32 0x00000000#32)))

/-- The edge weights: the factor of the edge's source times the factor of its destination. -/
def nrm (src dst : IVec S850000 32) (dv : FVec Ideal S50000 .f32) : FVec Ideal S850000 .f32 :=
  mulf (F := Ideal) (Host.gather gather_S50000_S850000x1_S850000_n_0_n_n_0_1_1 dv (srcCol src))
    (Host.gather gather_S50000_S850000x1_S850000_n_0_n_n_0_1_1 dv (srcCol dst))

/-- The zero matrix a layer's sum starts from. -/
def zeros128 : FVec Ideal S50000x128 .f32 := broadcastInDim S50000x128 ![] bcast_S_S50000x128 (constant (F := Ideal) S_ .f32 0x00000000#32)

/-- A layer's weighted sum: the rows of `H` gathered along the edges, each times its edge weight, accumulated at the
    edge's destination. -/
def aggR (src dst : IVec S850000 32) (nm : FVec Ideal S850000 .f32) (H : FVec Ideal S50000x128 .f32) : FVec Ideal S50000x128 .f32 :=
  Host.scatterAdd (F := Ideal) scatter_S50000x128_S850000x1_S850000x128_1_0_0_1 zeros128 (dstCol dst)
    (mulf (F := Ideal) (Host.gather gather_S50000x128_S850000x1_S850000x128_1_0_n_n_0_1_1128 H (srcCol src))
      (broadcastInDim S850000x128 ![0, 1] bcast_S850000x1_S850000x128_0_1 (broadcastInDim S850000x1 ![0] bcast_S850000_S850000x1_0 nm)))

/-- The leaky rectifier in the host's spelling. -/
def leakyR (T : FVec Ideal S50000x128 .f32) : FVec Ideal S50000x128 .f32 :=
  select (cmpf (F := Ideal) .oge T (broadcastInDim S50000x128 ![] bcast_S_S50000x128 (constant (F := Ideal) S_ .f32 0x00000000#32))) T
    (mulf (F := Ideal) (broadcastInDim S50000x128 ![] bcast_S_S50000x128 (constant (F := Ideal) S_ .f32 0x3C23D70A#32)) T)

/-- One layer: the rectified weighted sum of the rows of `h w`. -/
def layerR (src dst : IVec S850000 32) (nm : FVec Ideal S850000 .f32) (h : FVec Ideal S50000x128 .f32) (w : FVec Ideal S128x128 .f32) :
    FVec Ideal S50000x128 .f32 :=
  leakyR (aggR src dst nm (Host.dotGeneral (F := Ideal) dot_S50000x128_S128x128_S50000x128_1_0_0_1_n_n none h w))

/-- The gated inverse square roots as a one-column matrix. -/
def dcolM (dst : IVec S850000 32) : Cert.Dense.Mat 50000 1 :=
  fun i => dinv dst (Idealize.ShloMosaic.ValueIdx.ix1 (Cert.Dense.c0 i))

/-- The plain sum along the edges of a table `A`: its rows gathered at the edges' sources, accumulated at their
    destinations, no weights. -/
def aggS (src dst : IVec S850000 32) (A : FVec Ideal S50000x128 .f32) : FVec Ideal S50000x128 .f32 :=
  Host.scatterAdd (F := Ideal) scatter_S50000x128_S850000x1_S850000x128_1_0_0_1 zeros128 (dstCol dst)
    (Host.gather gather_S50000x128_S850000x1_S850000x128_1_0_n_n_0_1_1128 A (srcCol src))

end Cert.ReferenceIdeal.RefValue

end
-- ==== Proof.RefHead.lean ====
/-
  The head of the network as the host program spells it.

  From the rectified layer-3 matrix `A` and the two weight arrays the host takes a plain dot product, the leaky
  rectifier written as a select between `v` and the slope times `v` against a zero broadcast from a scalar, a second dot
  product and rectifier, and the row-wise softmax: the row maximum by a reduction from −∞ (and once more against −∞,
  which changes nothing), broadcast to a column and along the rows, subtracted; the exponential; the row sum by a
  reduction from zero, broadcast the same way; an exact division.  On the extended reals that composition is
  `headM A W₁ W₂`.
-/
import proofs.«145696_j7971459301586_2_alg».proof.Proof.Gen.ReferenceIdeal
import proofs.«145696_j7971459301586_2_alg».proof.Proof.GcnSpec

noncomputable section

open scoped BigOperators
open Idealize.ShloMosaic Idealize.ShloMosaic.ValueIdx

namespace Cert.ReferenceIdeal.RefValue

open Cert.ReferenceIdeal Cert.ReferenceIdeal.Facts₀ Cert.Dense Cert.Gcn Cert.LogSoftmax

/-! ## The host's spellings of the head's steps, at any extents -/

/-- The select of `v` where `v ≥ 0` and of the slope times `v` elsewhere, both constants broadcast from scalars, is the
    leaky rectifier on every entry. -/
theorem host_lk {a b : ℕ} (v : FVec Ideal ⟨2, ![a, b]⟩ .f32) (h0 : (⟨0, ![]⟩ : Shape).BroadcastsInDim ⟨2, ![a, b]⟩ ![]) :
    select (cmpf .oge v (broadcastInDim ⟨2, ![a, b]⟩ ![] h0 (constant (F := Ideal) ⟨0, ![]⟩ .f32 0x00000000#32))) v
        (mulf (broadcastInDim ⟨2, ![a, b]⟩ ![] h0 (constant (F := Ideal) ⟨0, ![]⟩ .f32 0x3C23D70A#32)) v)
      = lkM v := by
  funext i
  obtain ⟨p, q, rfl⟩ : ∃ (p : Fin a) (q : Fin b), i = ix2 p q := ⟨i 0, i 1, eq_ix2 i⟩
  show Scalar.select (Ideal.cmp .oge (v (ix2 p q))
        (broadcastInDim ⟨2, ![a, b]⟩ ![] h0 (constant (F := Ideal) ⟨0, ![]⟩ .f32 0x00000000#32) (ix2 p q)))
      (v (ix2 p q))
      (broadcastInDim ⟨2, ![a, b]⟩ ![] h0 (constant (F := Ideal) ⟨0, ![]⟩ .f32 0x3C23D70A#32) (ix2 p q) * v (ix2 p q)) = _
  rw [Cert.HostLayout.bcast_scalar_mat, Cert.HostLayout.bcast_scalar_mat]
  rfl

/-- The host's row sums (from zero), broadcast to a column and the column along the rows. -/
theorem hostColSum {n c : ℕ} (E : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (broadcastInDim ⟨2, ![n, 1]⟩ ![0] hb1
        (Host.reduceAdd E (constant (F := Ideal) ⟨0, ![]⟩ .f32 0x00000000#32) h' hu)) (ix2 p k)
      = ∑ j : Fin c, E (ix2 p j) := by
  rw [Cert.HostLayout.bcast_col_mat, Cert.HostLayout.bcast_vec_col, Cert.HostLayout.hostRowSum _ _ h' h hu p]
  have h0 : (constant (F := Ideal) (⟨0, ![]⟩ : Shape) .f32 0x00000000#32) (Shape.Idx.first hu) = 0 := Ideal.ofBits_zero_f32
  rw [h0, zero_add]

/-- The host's row-wise softmax: the row maxima and the row sums of the shifted exponentials, each broadcast to a
    column and along the rows, and an exact division. -/
theorem host_softmax {n c : ℕ} (Y : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, c]⟩ ![0, 1]) :
    Host.divf
        (Host.exp (subf Y (broadcastInDim ⟨2, ![n, c]⟩ ![0, 1] hb2 (broadcastInDim ⟨2, ![n, 1]⟩ ![0] hb1
          (maximumf (broadcastInDim ⟨1, ![n]⟩ ![] hb0 (constant (F := Ideal) ⟨0, ![]⟩ .f32 0xFF800000#32))
            (Host.reduce FloatOps.maximumf Y (constant (F := Ideal) ⟨0, ![]⟩ .f32 0xFF800000#32) h' hu))))))
        (broadcastInDim ⟨2, ![n, c]⟩ ![0, 1] hb2 (broadcastInDim ⟨2, ![n, 1]⟩ ![0] hb1
          (Host.reduceAdd
            (Host.exp (subf Y (broadcastInDim ⟨2, ![n, c]⟩ ![0, 1] hb2 (broadcastInDim ⟨2, ![n, 1]⟩ ![0] hb1
              (maximumf (broadcastInDim ⟨1, ![n]⟩ ![] hb0 (constant (F := Ideal) ⟨0, ![]⟩ .f32 0xFF800000#32))
                (Host.reduce FloatOps.maximumf Y (constant (F := Ideal) ⟨0, ![]⟩ .f32 0xFF800000#32) h' hu))))))
            (constant (F := Ideal) ⟨0, ![]⟩ .f32 0x00000000#32) h' hu)))
      = softmaxRows Y := by
  have hM : ∀ (p : Fin n) (k : Fin c),
      broadcastInDim ⟨2, ![n, c]⟩ ![0, 1] hb2 (broadcastInDim ⟨2, ![n, 1]⟩ ![0] hb1
          (maximumf (broadcastInDim ⟨1, ![n]⟩ ![] hb0 (constant (F := Ideal) ⟨0, ![]⟩ .f32 0xFF800000#32))
            (Host.reduce FloatOps.maximumf Y (constant (F := Ideal) ⟨0, ![]⟩ .f32 0xFF800000#32) h' hu))) (ix2 p k)
        = rowMax Y p := hostColMax Y h' h hu hb0 hb1 hb2
  generalize broadcastInDim ⟨2, ![n, c]⟩ ![0, 1] hb2 (broadcastInDim ⟨2, ![n, 1]⟩ ![0] hb1
          (maximumf (broadcastInDim ⟨1, ![n]⟩ ![] hb0 (constant (F := Ideal) ⟨0, ![]⟩ .f32 0xFF800000#32))
            (Host.reduce FloatOps.maximumf Y (constant (F := Ideal) ⟨0, ![]⟩ .f32 0xFF800000#32) h' hu))) = Mx at hM ⊢
  funext i
  obtain ⟨p, q, rfl⟩ : ∃ (p : Fin n) (q : Fin c), i = ix2 p q := ⟨i 0, i 1, eq_ix2 i⟩
  show Ideal.div (Ideal.exp (Y (ix2 p q) - Mx (ix2 p q)))
      (broadcastInDim ⟨2, ![n, c]⟩ ![0, 1] hb2 (broadcastInDim ⟨2, ![n, 1]⟩ ![0] hb1
        (Host.reduceAdd (Host.exp (subf Y Mx)) (constant (F := Ideal) ⟨0, ![]⟩ .f32 0x00000000#32) h' hu)) (ix2 p q)) = _
  rw [hostColSum (Host.exp (subf Y Mx)) h' h hu hb1 hb2 p q, softmaxRows_apply, hM p q]
  refine congrArg (Ideal.div _) (Finset.sum_congr rfl fun k _ => ?_)
  show Ideal.exp (Y (ix2 p k) - Mx (ix2 p k)) = _
  rw [hM p k]

/-! ## The host's head -/

/-- The host's leaky rectifier on the first dense layer's output. -/
def refLk256 (v : FVec Ideal S50000x256 .f32) : FVec Ideal S50000x256 .f32 :=
  select (cmpf .oge v (broadcastInDim S50000x256 ![] bcast_S_S50000x256 (constant (F := Ideal) S_ .f32 0x00000000#32))) v
    (mulf (broadcastInDim S50000x256 ![] bcast_S_S50000x256 (constant (F := Ideal) S_ .f32 0x3C23D70A#32)) v)

/-- The host's leaky rectifier on the second dense layer's output. -/
def refLk2 (v : FVec Ideal S50000x2 .f32) : FVec Ideal S50000x2 .f32 :=
  select (cmpf .oge v (broadcastInDim S50000x2 ![] bcast_S_S50000x2 (constant (F := Ideal) S_ .f32 0x00000000#32))) v
    (mulf (broadcastInDim S50000x2 ![] bcast_S_S50000x2 (constant (F := Ideal) S_ .f32 0x3C23D70A#32)) v)

/-- The host's row maxima, along the rows. -/
def refRowMax (Y : FVec Ideal S50000x2 .f32) : FVec Ideal S50000x2 .f32 :=
  broadcastInDim S50000x2 ![0, 1] bcast_S50000x1_S50000x2_0_1 (broadcastInDim S50000x1 ![0] bcast_S50000_S50000x1_0
    (maximumf (broadcastInDim S50000 ![] bcast_S_S50000 (constant (F := Ideal) S_ .f32 0xFF800000#32))
      (Host.reduce FloatOps.maximumf Y (constant (F := Ideal) S_ .f32 0xFF800000#32) reducesTo_S50000x2_S50000_d1 h_S_)))

/-- The host's shifted exponentials. -/
def refExp (Y : FVec Ideal S50000x2 .f32) : FVec Ideal S50000x2 .f32 := Host.exp (subf Y (refRowMax Y))

/-- The host's row-wise softmax. -/
def refSoftmax (Y : FVec Ideal S50000x2 .f32) : FVec Ideal S50000x2 .f32 :=
  Host.divf (refExp Y) (broadcastInDim S50000x2 ![0, 1] bcast_S50000x1_S50000x2_0_1
    (broadcastInDim S50000x1 ![0] bcast_S50000_S50000x1_0
      (Host.reduceAdd (refExp Y) (constant (F := Ideal) S_ .f32 0x00000000#32) reducesTo_S50000x2_S50000_d1 h_S_)))

/-- The host's head: two dot products, each followed by the leaky rectifier, then the row-wise softmax. -/
def refHead (A : FVec Ideal S50000x128 .f32) (W1 : FVec Ideal S128x256 .f32) (W2 : FVec Ideal S256x2 .f32) :
    FVec Ideal S50000x2 .f32 :=
  refSoftmax (refLk2 (Host.dotGeneral (F := Ideal) dot_S50000x256_S256x2_S50000x2_1_0_0_1_n_n none
    (refLk256 (Host.dotGeneral (F := Ideal) dot_S50000x128_S128x256_S50000x256_1_0_0_1_n_n none A W1)) W2))

theorem refLk256_eq (v : FVec Ideal S50000x256 .f32) : refLk256 v = lkM v := host_lk v bcast_S_S50000x256

theorem refLk2_eq (v : FVec Ideal S50000x2 .f32) : refLk2 v = lkM v := host_lk v bcast_S_S50000x2

theorem refSoftmax_eq (Y : FVec Ideal S50000x2 .f32) : refSoftmax Y = softmaxRows Y :=
  host_softmax (n := 50000) (c := 2) Y reducesTo_S50000x2_S50000_d1 (by decide) h_S_ bcast_S_S50000 bcast_S50000_S50000x1_0
    bcast_S50000x1_S50000x2_0_1

/-- The host's head is the head. -/
theorem ref_head (A : FVec Ideal S50000x128 .f32) (W1 : FVec Ideal S128x256 .f32) (W2 : FVec Ideal S256x2 .f32) :
    refHead A W1 W2 = headM A W1 W2 := by
  unfold refHead
  rw [hostDot_eq_mm _ rfl rfl rfl rfl rfl rfl none A W1, refLk256_eq,
    hostDot_eq_mm _ rfl rfl rfl rfl rfl rfl none (lkM (mm A W1)) W2, refLk2_eq, refSoftmax_eq]
  rfl

end Cert.ReferenceIdeal.RefValue

end
-- ==== Proof.RefWalk.lean ====
/-
  The reference program's run, read stretch by stretch.

  The reference is one straight line of 142 host operations.  Its run ends with every buffer at the fold of the
  operations' results over the launch contents.  The fold is read here in eleven consecutive stretches: the two edge lists
  (with the self loops appended), the degrees and their gated inverse square roots, the edge weights, the three layers and
  the head.  Each stretch's one result is a named function of the few buffers the stretch reads, so a value that later
  stretches read several times (the edge lists, the weights, a layer's output) is carried by name and never written out
  again; a buffer a stretch does not write keeps its contents through it.
-/
import proofs.«145696_j7971459301586_2_alg».proof.Proof.RefOps
import proofs.«145696_j7971459301586_2_alg».proof.Proof.RefDefs
import proofs.«145696_j7971459301586_2_alg».proof.Proof.RefHead

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo

/-- The fold over a concatenation is the fold over the second list from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- A buffer none of a stretch's operations writes keeps its contents through the stretch. -/
macro "keeps_ref" : tactic => `(tactic| (
  refine after_of_forall_not_mem _ _ (List.forall_iff_forall_mem.mp ?_)
  simp only [ops, ops0a, ops0b, ops0b', ops0c, ops1, ops1', ops2, ops2', ops3, ops3', ops4, List.Forall, nullary_writes, unary_writes, binary_writes,
    ternary_writes, quaternary_writes, reshape_writes, binaryIndexed_writes, Finset.mem_singleton]
  repeat' apply And.intro
  all_goals exact devRef_ne_of_ne (by decide)))

/-! ## What each stretch keeps -/

theorem keep_ops0b_main_v3 (W : Valuation τ sig (Elt Ideal)) : after ops0b W (Proc.devRef .tc main_v3) = W (Proc.devRef .tc main_v3) := by keeps_ref
theorem keep_ops0bp_main_v3 (W : Valuation τ sig (Elt Ideal)) : after ops0b' W (Proc.devRef .tc main_v3) = W (Proc.devRef .tc main_v3) := by keeps_ref
theorem keep_ops0c_main_v3 (W : Valuation τ sig (Elt Ideal)) : after ops0c W (Proc.devRef .tc main_v3) = W (Proc.devRef .tc main_v3) := by keeps_ref
theorem keep_ops1_main_v3 (W : Valuation τ sig (Elt Ideal)) : after ops1 W (Proc.devRef .tc main_v3) = W (Proc.devRef .tc main_v3) := by keeps_ref
theorem keep_ops1p_main_v3 (W : Valuation τ sig (Elt Ideal)) : after ops1' W (Proc.devRef .tc main_v3) = W (Proc.devRef .tc main_v3) := by keeps_ref
theorem keep_ops2_main_v3 (W : Valuation τ sig (Elt Ideal)) : after ops2 W (Proc.devRef .tc main_v3) = W (Proc.devRef .tc main_v3) := by keeps_ref
theorem keep_ops2p_main_v3 (W : Valuation τ sig (Elt Ideal)) : after ops2' W (Proc.devRef .tc main_v3) = W (Proc.devRef .tc main_v3) := by keeps_ref
theorem keep_ops0b_main_v6 (W : Valuation τ sig (Elt Ideal)) : after ops0b W (Proc.devRef .tc main_v6) = W (Proc.devRef .tc main_v6) := by keeps_ref
theorem keep_ops0bp_main_v6 (W : Valuation τ sig (Elt Ideal)) : after ops0b' W (Proc.devRef .tc main_v6) = W (Proc.devRef .tc main_v6) := by keeps_ref
theorem keep_ops0c_main_v6 (W : Valuation τ sig (Elt Ideal)) : after ops0c W (Proc.devRef .tc main_v6) = W (Proc.devRef .tc main_v6) := by keeps_ref
theorem keep_ops1_main_v6 (W : Valuation τ sig (Elt Ideal)) : after ops1 W (Proc.devRef .tc main_v6) = W (Proc.devRef .tc main_v6) := by keeps_ref
theorem keep_ops1p_main_v6 (W : Valuation τ sig (Elt Ideal)) : after ops1' W (Proc.devRef .tc main_v6) = W (Proc.devRef .tc main_v6) := by keeps_ref
theorem keep_ops2_main_v6 (W : Valuation τ sig (Elt Ideal)) : after ops2 W (Proc.devRef .tc main_v6) = W (Proc.devRef .tc main_v6) := by keeps_ref
theorem keep_ops2p_main_v6 (W : Valuation τ sig (Elt Ideal)) : after ops2' W (Proc.devRef .tc main_v6) = W (Proc.devRef .tc main_v6) := by keeps_ref
theorem keep_ops1_main_v29 (W : Valuation τ sig (Elt Ideal)) : after ops1 W (Proc.devRef .tc main_v29) = W (Proc.devRef .tc main_v29) := by keeps_ref
theorem keep_ops1p_main_v29 (W : Valuation τ sig (Elt Ideal)) : after ops1' W (Proc.devRef .tc main_v29) = W (Proc.devRef .tc main_v29) := by keeps_ref
theorem keep_ops2_main_v29 (W : Valuation τ sig (Elt Ideal)) : after ops2 W (Proc.devRef .tc main_v29) = W (Proc.devRef .tc main_v29) := by keeps_ref
theorem keep_ops2p_main_v29 (W : Valuation τ sig (Elt Ideal)) : after ops2' W (Proc.devRef .tc main_v29) = W (Proc.devRef .tc main_v29) := by keeps_ref
theorem keep_ops0a_main_arg0 (W : Valuation τ sig (Elt Ideal)) : after ops0a W (Proc.devRef .tc main_arg0) = W (Proc.devRef .tc main_arg0) := by keeps_ref
theorem keep_ops0b_main_arg0 (W : Valuation τ sig (Elt Ideal)) : after ops0b W (Proc.devRef .tc main_arg0) = W (Proc.devRef .tc main_arg0) := by keeps_ref
theorem keep_ops0bp_main_arg0 (W : Valuation τ sig (Elt Ideal)) : after ops0b' W (Proc.devRef .tc main_arg0) = W (Proc.devRef .tc main_arg0) := by keeps_ref
theorem keep_ops0c_main_arg0 (W : Valuation τ sig (Elt Ideal)) : after ops0c W (Proc.devRef .tc main_arg0) = W (Proc.devRef .tc main_arg0) := by keeps_ref
theorem keep_ops0a_main_arg2 (W : Valuation τ sig (Elt Ideal)) : after ops0a W (Proc.devRef .tc main_arg2) = W (Proc.devRef .tc main_arg2) := by keeps_ref
theorem keep_ops0b_main_arg2 (W : Valuation τ sig (Elt Ideal)) : after ops0b W (Proc.devRef .tc main_arg2) = W (Proc.devRef .tc main_arg2) := by keeps_ref
theorem keep_ops0bp_main_arg2 (W : Valuation τ sig (Elt Ideal)) : after ops0b' W (Proc.devRef .tc main_arg2) = W (Proc.devRef .tc main_arg2) := by keeps_ref
theorem keep_ops0c_main_arg2 (W : Valuation τ sig (Elt Ideal)) : after ops0c W (Proc.devRef .tc main_arg2) = W (Proc.devRef .tc main_arg2) := by keeps_ref
theorem keep_ops0a_main_arg3 (W : Valuation τ sig (Elt Ideal)) : after ops0a W (Proc.devRef .tc main_arg3) = W (Proc.devRef .tc main_arg3) := by keeps_ref
theorem keep_ops0b_main_arg3 (W : Valuation τ sig (Elt Ideal)) : after ops0b W (Proc.devRef .tc main_arg3) = W (Proc.devRef .tc main_arg3) := by keeps_ref
theorem keep_ops0bp_main_arg3 (W : Valuation τ sig (Elt Ideal)) : after ops0b' W (Proc.devRef .tc main_arg3) = W (Proc.devRef .tc main_arg3) := by keeps_ref
theorem keep_ops0c_main_arg3 (W : Valuation τ sig (Elt Ideal)) : after ops0c W (Proc.devRef .tc main_arg3) = W (Proc.devRef .tc main_arg3) := by keeps_ref
theorem keep_ops1_main_arg3 (W : Valuation τ sig (Elt Ideal)) : after ops1 W (Proc.devRef .tc main_arg3) = W (Proc.devRef .tc main_arg3) := by keeps_ref
theorem keep_ops1p_main_arg3 (W : Valuation τ sig (Elt Ideal)) : after ops1' W (Proc.devRef .tc main_arg3) = W (Proc.devRef .tc main_arg3) := by keeps_ref
theorem keep_ops0a_main_arg4 (W : Valuation τ sig (Elt Ideal)) : after ops0a W (Proc.devRef .tc main_arg4) = W (Proc.devRef .tc main_arg4) := by keeps_ref
theorem keep_ops0b_main_arg4 (W : Valuation τ sig (Elt Ideal)) : after ops0b W (Proc.devRef .tc main_arg4) = W (Proc.devRef .tc main_arg4) := by keeps_ref
theorem keep_ops0bp_main_arg4 (W : Valuation τ sig (Elt Ideal)) : after ops0b' W (Proc.devRef .tc main_arg4) = W (Proc.devRef .tc main_arg4) := by keeps_ref
theorem keep_ops0c_main_arg4 (W : Valuation τ sig (Elt Ideal)) : after ops0c W (Proc.devRef .tc main_arg4) = W (Proc.devRef .tc main_arg4) := by keeps_ref
theorem keep_ops1_main_arg4 (W : Valuation τ sig (Elt Ideal)) : after ops1 W (Proc.devRef .tc main_arg4) = W (Proc.devRef .tc main_arg4) := by keeps_ref
theorem keep_ops1p_main_arg4 (W : Valuation τ sig (Elt Ideal)) : after ops1' W (Proc.devRef .tc main_arg4) = W (Proc.devRef .tc main_arg4) := by keeps_ref
theorem keep_ops2_main_arg4 (W : Valuation τ sig (Elt Ideal)) : after ops2 W (Proc.devRef .tc main_arg4) = W (Proc.devRef .tc main_arg4) := by keeps_ref
theorem keep_ops2p_main_arg4 (W : Valuation τ sig (Elt Ideal)) : after ops2' W (Proc.devRef .tc main_arg4) = W (Proc.devRef .tc main_arg4) := by keeps_ref
theorem keep_ops0a_main_arg5 (W : Valuation τ sig (Elt Ideal)) : after ops0a W (Proc.devRef .tc main_arg5) = W (Proc.devRef .tc main_arg5) := by keeps_ref
theorem keep_ops0b_main_arg5 (W : Valuation τ sig (Elt Ideal)) : after ops0b W (Proc.devRef .tc main_arg5) = W (Proc.devRef .tc main_arg5) := by keeps_ref
theorem keep_ops0bp_main_arg5 (W : Valuation τ sig (Elt Ideal)) : after ops0b' W (Proc.devRef .tc main_arg5) = W (Proc.devRef .tc main_arg5) := by keeps_ref
theorem keep_ops0c_main_arg5 (W : Valuation τ sig (Elt Ideal)) : after ops0c W (Proc.devRef .tc main_arg5) = W (Proc.devRef .tc main_arg5) := by keeps_ref
theorem keep_ops1_main_arg5 (W : Valuation τ sig (Elt Ideal)) : after ops1 W (Proc.devRef .tc main_arg5) = W (Proc.devRef .tc main_arg5) := by keeps_ref
theorem keep_ops1p_main_arg5 (W : Valuation τ sig (Elt Ideal)) : after ops1' W (Proc.devRef .tc main_arg5) = W (Proc.devRef .tc main_arg5) := by keeps_ref
theorem keep_ops2_main_arg5 (W : Valuation τ sig (Elt Ideal)) : after ops2 W (Proc.devRef .tc main_arg5) = W (Proc.devRef .tc main_arg5) := by keeps_ref
theorem keep_ops2p_main_arg5 (W : Valuation τ sig (Elt Ideal)) : after ops2' W (Proc.devRef .tc main_arg5) = W (Proc.devRef .tc main_arg5) := by keeps_ref
theorem keep_ops3_main_arg5 (W : Valuation τ sig (Elt Ideal)) : after ops3 W (Proc.devRef .tc main_arg5) = W (Proc.devRef .tc main_arg5) := by keeps_ref
theorem keep_ops3p_main_arg5 (W : Valuation τ sig (Elt Ideal)) : after ops3' W (Proc.devRef .tc main_arg5) = W (Proc.devRef .tc main_arg5) := by keeps_ref
theorem keep_ops0a_main_arg6 (W : Valuation τ sig (Elt Ideal)) : after ops0a W (Proc.devRef .tc main_arg6) = W (Proc.devRef .tc main_arg6) := by keeps_ref
theorem keep_ops0b_main_arg6 (W : Valuation τ sig (Elt Ideal)) : after ops0b W (Proc.devRef .tc main_arg6) = W (Proc.devRef .tc main_arg6) := by keeps_ref
theorem keep_ops0bp_main_arg6 (W : Valuation τ sig (Elt Ideal)) : after ops0b' W (Proc.devRef .tc main_arg6) = W (Proc.devRef .tc main_arg6) := by keeps_ref
theorem keep_ops0c_main_arg6 (W : Valuation τ sig (Elt Ideal)) : after ops0c W (Proc.devRef .tc main_arg6) = W (Proc.devRef .tc main_arg6) := by keeps_ref
theorem keep_ops1_main_arg6 (W : Valuation τ sig (Elt Ideal)) : after ops1 W (Proc.devRef .tc main_arg6) = W (Proc.devRef .tc main_arg6) := by keeps_ref
theorem keep_ops1p_main_arg6 (W : Valuation τ sig (Elt Ideal)) : after ops1' W (Proc.devRef .tc main_arg6) = W (Proc.devRef .tc main_arg6) := by keeps_ref
theorem keep_ops2_main_arg6 (W : Valuation τ sig (Elt Ideal)) : after ops2 W (Proc.devRef .tc main_arg6) = W (Proc.devRef .tc main_arg6) := by keeps_ref
theorem keep_ops2p_main_arg6 (W : Valuation τ sig (Elt Ideal)) : after ops2' W (Proc.devRef .tc main_arg6) = W (Proc.devRef .tc main_arg6) := by keeps_ref
theorem keep_ops3_main_arg6 (W : Valuation τ sig (Elt Ideal)) : after ops3 W (Proc.devRef .tc main_arg6) = W (Proc.devRef .tc main_arg6) := by keeps_ref
theorem keep_ops3p_main_arg6 (W : Valuation τ sig (Elt Ideal)) : after ops3' W (Proc.devRef .tc main_arg6) = W (Proc.devRef .tc main_arg6) := by keeps_ref

/-- A layer's dense product, with its operands' types stated. -/
def dotR (h : FVec Ideal S50000x128 .f32) (w : FVec Ideal S128x128 .f32) : FVec Ideal S50000x128 .f32 :=
  Host.dotGeneral (F := Ideal) dot_S50000x128_S128x128_S50000x128_1_0_0_1_n_n none h w

/-! ## Each stretch read at its results -/

set_option maxHeartbeats 4000000 in
theorem r0a_v3 (W : Valuation τ sig (Elt Ideal)) :
    after ops0a W (Proc.devRef .tc main_v3) = srcList (W (Proc.devRef .tc main_arg1)) := by
  after_results; exact rfl
set_option maxHeartbeats 4000000 in
theorem r0a_v6 (W : Valuation τ sig (Elt Ideal)) :
    after ops0a W (Proc.devRef .tc main_v6) = dstList (W (Proc.devRef .tc main_arg1)) := by
  after_results; exact rfl
set_option maxHeartbeats 4000000 in
theorem r0b_v12 (W : Valuation τ sig (Elt Ideal)) :
    after ops0b W (Proc.devRef .tc main_v12)
      = cmpf (F := Ideal) .ogt (deg (W (Proc.devRef .tc main_v6))) (broadcastInDim S50000 ![] bcast_S_S50000 (constant (F := Ideal) S_ .f32 0x00000000#32)) := by
  after_results_simp; exact rfl
set_option maxHeartbeats 4000000 in
theorem r0b_v13 (W : Valuation τ sig (Elt Ideal)) :
    after ops0b W (Proc.devRef .tc main_v13) = Host.rsqrt (F := Ideal) (deg (W (Proc.devRef .tc main_v6))) := by
  after_results_simp; exact rfl
set_option maxHeartbeats 4000000 in
theorem r0b_cst2 (W : Valuation τ sig (Elt Ideal)) :
    after ops0b W (Proc.devRef .tc main_cst_2) = constant (F := Ideal) S_ .f32 0x00000000#32 := by
  after_results_simp
set_option maxHeartbeats 4000000 in
theorem r0bp_v14 (W : Valuation τ sig (Elt Ideal)) :
    after ops0b' W (Proc.devRef .tc main_v14)
      = select (W (Proc.devRef .tc main_v12)) (W (Proc.devRef .tc main_v13)) (broadcastInDim S50000 ![] bcast_S_S50000 (id (W (Proc.devRef .tc main_cst_2)))) := by
  after_results_simp; exact rfl
set_option maxHeartbeats 4000000 in
theorem r0c_v29 (W : Valuation τ sig (Elt Ideal)) :
    after ops0c W (Proc.devRef .tc main_v29) = nrm (W (Proc.devRef .tc main_v3)) (W (Proc.devRef .tc main_v6)) (W (Proc.devRef .tc main_v14)) := by
  after_results_simp; exact rfl

set_option maxHeartbeats 4000000 in
theorem r1_sum (W : Valuation τ sig (Elt Ideal)) :
    after ops1 W (Proc.devRef .tc main_v43)
      = aggR (W (Proc.devRef .tc main_v3)) (W (Proc.devRef .tc main_v6)) (W (Proc.devRef .tc main_v29))
          (dotR (W (Proc.devRef .tc main_arg0)) (W (Proc.devRef .tc main_arg2))) := by
  after_results_simp; exact rfl
set_option maxHeartbeats 4000000 in
theorem r1_sign (W : Valuation τ sig (Elt Ideal)) :
    after ops1 W (Proc.devRef .tc main_v45)
      = cmpf (F := Ideal) .oge (aggR (W (Proc.devRef .tc main_v3)) (W (Proc.devRef .tc main_v6)) (W (Proc.devRef .tc main_v29))
          (dotR (W (Proc.devRef .tc main_arg0)) (W (Proc.devRef .tc main_arg2))))
          (broadcastInDim S50000x128 ![] bcast_S_S50000x128 (constant (F := Ideal) S_ .f32 0x00000000#32)) := by
  after_results_simp; exact rfl
set_option maxHeartbeats 4000000 in
theorem r1_slope (W : Valuation τ sig (Elt Ideal)) :
    after ops1 W (Proc.devRef .tc main_v47)
      = mulf (F := Ideal) (broadcastInDim S50000x128 ![] bcast_S_S50000x128 (constant (F := Ideal) S_ .f32 0x3C23D70A#32))
          (aggR (W (Proc.devRef .tc main_v3)) (W (Proc.devRef .tc main_v6)) (W (Proc.devRef .tc main_v29))
            (dotR (W (Proc.devRef .tc main_arg0)) (W (Proc.devRef .tc main_arg2)))) := by
  after_results_simp; exact rfl
set_option maxHeartbeats 4000000 in
theorem r1_out (W : Valuation τ sig (Elt Ideal)) :
    after ops1' W (Proc.devRef .tc main_v48) = select (W (Proc.devRef .tc main_v45)) (W (Proc.devRef .tc main_v43)) (W (Proc.devRef .tc main_v47)) := by
  after_results_simp; exact rfl

set_option maxHeartbeats 4000000 in
theorem r2_sum (W : Valuation τ sig (Elt Ideal)) :
    after ops2 W (Proc.devRef .tc main_v62)
      = aggR (W (Proc.devRef .tc main_v3)) (W (Proc.devRef .tc main_v6)) (W (Proc.devRef .tc main_v29))
          (dotR (W (Proc.devRef .tc main_v48)) (W (Proc.devRef .tc main_arg3))) := by
  after_results_simp; exact rfl
set_option maxHeartbeats 4000000 in
theorem r2_sign (W : Valuation τ sig (Elt Ideal)) :
    after ops2 W (Proc.devRef .tc main_v64)
      = cmpf (F := Ideal) .oge (aggR (W (Proc.devRef .tc main_v3)) (W (Proc.devRef .tc main_v6)) (W (Proc.devRef .tc main_v29))
          (dotR (W (Proc.devRef .tc main_v48)) (W (Proc.devRef .tc main_arg3))))
          (broadcastInDim S50000x128 ![] bcast_S_S50000x128 (constant (F := Ideal) S_ .f32 0x00000000#32)) := by
  after_results_simp; exact rfl
set_option maxHeartbeats 4000000 in
theorem r2_slope (W : Valuation τ sig (Elt Ideal)) :
    after ops2 W (Proc.devRef .tc main_v66)
      = mulf (F := Ideal) (broadcastInDim S50000x128 ![] bcast_S_S50000x128 (constant (F := Ideal) S_ .f32 0x3C23D70A#32))
          (aggR (W (Proc.devRef .tc main_v3)) (W (Proc.devRef .tc main_v6)) (W (Proc.devRef .tc main_v29))
            (dotR (W (Proc.devRef .tc main_v48)) (W (Proc.devRef .tc main_arg3)))) := by
  after_results_simp; exact rfl
set_option maxHeartbeats 4000000 in
theorem r2_out (W : Valuation τ sig (Elt Ideal)) :
    after ops2' W (Proc.devRef .tc main_v67) = select (W (Proc.devRef .tc main_v64)) (W (Proc.devRef .tc main_v62)) (W (Proc.devRef .tc main_v66)) := by
  after_results_simp; exact rfl

set_option maxHeartbeats 4000000 in
theorem r3_sum (W : Valuation τ sig (Elt Ideal)) :
    after ops3 W (Proc.devRef .tc main_v81)
      = aggR (W (Proc.devRef .tc main_v3)) (W (Proc.devRef .tc main_v6)) (W (Proc.devRef .tc main_v29))
          (dotR (W (Proc.devRef .tc main_v67)) (W (Proc.devRef .tc main_arg4))) := by
  after_results_simp; exact rfl
set_option maxHeartbeats 4000000 in
theorem r3_sign (W : Valuation τ sig (Elt Ideal)) :
    after ops3 W (Proc.devRef .tc main_v83)
      = cmpf (F := Ideal) .oge (aggR (W (Proc.devRef .tc main_v3)) (W (Proc.devRef .tc main_v6)) (W (Proc.devRef .tc main_v29))
          (dotR (W (Proc.devRef .tc main_v67)) (W (Proc.devRef .tc main_arg4))))
          (broadcastInDim S50000x128 ![] bcast_S_S50000x128 (constant (F := Ideal) S_ .f32 0x00000000#32)) := by
  after_results_simp; exact rfl
set_option maxHeartbeats 4000000 in
theorem r3_slope (W : Valuation τ sig (Elt Ideal)) :
    after ops3 W (Proc.devRef .tc main_v85)
      = mulf (F := Ideal) (broadcastInDim S50000x128 ![] bcast_S_S50000x128 (constant (F := Ideal) S_ .f32 0x3C23D70A#32))
          (aggR (W (Proc.devRef .tc main_v3)) (W (Proc.devRef .tc main_v6)) (W (Proc.devRef .tc main_v29))
            (dotR (W (Proc.devRef .tc main_v67)) (W (Proc.devRef .tc main_arg4)))) := by
  after_results_simp; exact rfl
set_option maxHeartbeats 4000000 in
theorem r3_out (W : Valuation τ sig (Elt Ideal)) :
    after ops3' W (Proc.devRef .tc main_v86) = select (W (Proc.devRef .tc main_v83)) (W (Proc.devRef .tc main_v81)) (W (Proc.devRef .tc main_v85)) := by
  after_results_simp; exact rfl

set_option maxHeartbeats 4000000 in
theorem r4_v109 (W : Valuation τ sig (Elt Ideal)) :
    after ops4 W (Proc.devRef .tc main_v109) = refHead (W (Proc.devRef .tc main_v86)) (W (Proc.devRef .tc main_arg5)) (W (Proc.devRef .tc main_arg6)) := by
  after_results_simp; exact rfl

/-! ## The fold in closed form, and the run -/

/-- The edge weights from the edge array. -/
def nrmOf (x1 : IVec S2x800000 32) : FVec Ideal S850000 .f32 := nrm (srcList x1) (dstList x1) (dinv (dstList x1))

/-- The reference's value as one function of the argument arrays: three layers, then the head. -/
def refOut (x0 : FVec Ideal S50000x128 .f32) (x1 : IVec S2x800000 32) (x2 x3 x4 : FVec Ideal S128x128 .f32)
    (x5 : FVec Ideal S128x256 .f32) (x6 : FVec Ideal S256x2 .f32) : FVec Ideal S50000x2 .f32 :=
  refHead (layerR (srcList x1) (dstList x1) (nrmOf x1)
    (layerR (srcList x1) (dstList x1) (nrmOf x1) (layerR (srcList x1) (dstList x1) (nrmOf x1) x0 x2) x3) x4) x5 x6

set_option maxHeartbeats 4000000 in
/-- The fold of all 142 operations, at the result buffer, is `refOut` of the contents it starts from. -/
theorem fold_value (W : Valuation τ sig (Elt Ideal)) :
    after ops W (Proc.devRef .tc main_v109)
      = refOut (W (Proc.devRef .tc main_arg0)) (W (Proc.devRef .tc main_arg1)) (W (Proc.devRef .tc main_arg2))
          (W (Proc.devRef .tc main_arg3)) (W (Proc.devRef .tc main_arg4)) (W (Proc.devRef .tc main_arg5))
          (W (Proc.devRef .tc main_arg6)) := by
  rw [ops_split, after_append, after_append, after_append, after_append, after_append, after_append, after_append, after_append,
    after_append, after_append]
  repeat (first
    | rw [r4_v109]
    | rw [r3_out]
    | rw [r3_sum]
    | rw [r3_sign]
    | rw [r3_slope]
    | rw [r2_out]
    | rw [r2_sum]
    | rw [r2_sign]
    | rw [r2_slope]
    | rw [r1_out]
    | rw [r1_sum]
    | rw [r1_sign]
    | rw [r1_slope]
    | rw [r0c_v29]
    | rw [r0bp_v14]
    | rw [r0b_v12]
    | rw [r0b_v13]
    | rw [r0b_cst2]
    | rw [r0a_v3]
    | rw [r0a_v6]
    | rw [keep_ops0b_main_v3]
    | rw [keep_ops0bp_main_v3]
    | rw [keep_ops0c_main_v3]
    | rw [keep_ops1_main_v3]
    | rw [keep_ops1p_main_v3]
    | rw [keep_ops2_main_v3]
    | rw [keep_ops2p_main_v3]
    | rw [keep_ops0b_main_v6]
    | rw [keep_ops0bp_main_v6]
    | rw [keep_ops0c_main_v6]
    | rw [keep_ops1_main_v6]
    | rw [keep_ops1p_main_v6]
    | rw [keep_ops2_main_v6]
    | rw [keep_ops2p_main_v6]
    | rw [keep_ops1_main_v29]
    | rw [keep_ops1p_main_v29]
    | rw [keep_ops2_main_v29]
    | rw [keep_ops2p_main_v29]
    | rw [keep_ops0a_main_arg0]
    | rw [keep_ops0b_main_arg0]
    | rw [keep_ops0bp_main_arg0]
    | rw [keep_ops0c_main_arg0]
    | rw [keep_ops0a_main_arg2]
    | rw [keep_ops0b_main_arg2]
    | rw [keep_ops0bp_main_arg2]
    | rw [keep_ops0c_main_arg2]
    | rw [keep_ops0a_main_arg3]
    | rw [keep_ops0b_main_arg3]
    | rw [keep_ops0bp_main_arg3]
    | rw [keep_ops0c_main_arg3]
    | rw [keep_ops1_main_arg3]
    | rw [keep_ops1p_main_arg3]
    | rw [keep_ops0a_main_arg4]
    | rw [keep_ops0b_main_arg4]
    | rw [keep_ops0bp_main_arg4]
    | rw [keep_ops0c_main_arg4]
    | rw [keep_ops1_main_arg4]
    | rw [keep_ops1p_main_arg4]
    | rw [keep_ops2_main_arg4]
    | rw [keep_ops2p_main_arg4]
    | rw [keep_ops0a_main_arg5]
    | rw [keep_ops0b_main_arg5]
    | rw [keep_ops0bp_main_arg5]
    | rw [keep_ops0c_main_arg5]
    | rw [keep_ops1_main_arg5]
    | rw [keep_ops1p_main_arg5]
    | rw [keep_ops2_main_arg5]
    | rw [keep_ops2p_main_arg5]
    | rw [keep_ops3_main_arg5]
    | rw [keep_ops3p_main_arg5]
    | rw [keep_ops0a_main_arg6]
    | rw [keep_ops0b_main_arg6]
    | rw [keep_ops0bp_main_arg6]
    | rw [keep_ops0c_main_arg6]
    | rw [keep_ops1_main_arg6]
    | rw [keep_ops1p_main_arg6]
    | rw [keep_ops2_main_arg6]
    | rw [keep_ops2p_main_arg6]
    | rw [keep_ops3_main_arg6]
    | rw [keep_ops3p_main_arg6])
  exact rfl

set_option maxHeartbeats 4000000 in
theorem keep_all_main_arg0 (W : Valuation τ sig (Elt Ideal)) : after ops W (Proc.devRef .tc main_arg0) = W (Proc.devRef .tc main_arg0) := by keeps_ref
set_option maxHeartbeats 4000000 in
theorem keep_all_main_arg1 (W : Valuation τ sig (Elt Ideal)) : after ops W (Proc.devRef .tc main_arg1) = W (Proc.devRef .tc main_arg1) := by keeps_ref
set_option maxHeartbeats 4000000 in
theorem keep_all_main_arg2 (W : Valuation τ sig (Elt Ideal)) : after ops W (Proc.devRef .tc main_arg2) = W (Proc.devRef .tc main_arg2) := by keeps_ref
set_option maxHeartbeats 4000000 in
theorem keep_all_main_arg3 (W : Valuation τ sig (Elt Ideal)) : after ops W (Proc.devRef .tc main_arg3) = W (Proc.devRef .tc main_arg3) := by keeps_ref
set_option maxHeartbeats 4000000 in
theorem keep_all_main_arg4 (W : Valuation τ sig (Elt Ideal)) : after ops W (Proc.devRef .tc main_arg4) = W (Proc.devRef .tc main_arg4) := by keeps_ref
set_option maxHeartbeats 4000000 in
theorem keep_all_main_arg5 (W : Valuation τ sig (Elt Ideal)) : after ops W (Proc.devRef .tc main_arg5) = W (Proc.devRef .tc main_arg5) := by keeps_ref
set_option maxHeartbeats 4000000 in
theorem keep_all_main_arg6 (W : Valuation τ sig (Elt Ideal)) : after ops W (Proc.devRef .tc main_arg6) = W (Proc.devRef .tc main_arg6) := by keeps_ref

variable (m : (ℓ : Loc nD τ sig) → Buf (Elt Ideal) ℓ) (ρ : Dev nD → PrngReg)

/-- Every weakly fair execution of the reference terminates, nothing faulting, with the result buffer at `refOut` of the
    launch memory's argument arrays and the argument arrays as launched. -/
theorem run_value : θ_run defs (onTc (τ := τ) (main (F := Ideal))) ⟨m, fun _ => 0, ρ⟩ fun r => ∀ c : Dev nD,
      r.2.mem ((c.tc : Thread nD τ).loc main_v109)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v109).trans (fold_value (launchContents m c)),
      (h c main_arg0).trans (keep_all_main_arg0 (launchContents m c)),
      (h c main_arg1).trans (keep_all_main_arg1 (launchContents m c)),
      (h c main_arg2).trans (keep_all_main_arg2 (launchContents m c)),
      (h c main_arg3).trans (keep_all_main_arg3 (launchContents m c)),
      (h c main_arg4).trans (keep_all_main_arg4 (launchContents m c)),
      (h c main_arg5).trans (keep_all_main_arg5 (launchContents m c)),
      (h c main_arg6).trans (keep_all_main_arg6 (launchContents m c))⟩)
    (run_seq scopedRefs_eq scopedSems_eq defs main (fun _ => ops) main_eq (fun _ => ops_sub) m ρ)

end Cert.ReferenceIdeal.RefValue

end
-- ==== Proof.LibRowGather.lean ====
/-
  A gather of whole rows, read at an index, at any extents.

  `x[idx]` of a table `x : [N, C]` at a column of row numbers `idx : [E, 1]` is the array `[E, C]` whose row `e` is row
  `idx e` of the table: the start index is read as a signed integer and clamped into `[0, N − 1]`, the slice is one whole
  row, so entry `(e, q)` is `x (clamp (idx e), q)`.  The clamped row number depends on `idx` and `e` only — not on the
  table, nor on its width — which is what lets a map applied to every row of the table be taken before or after the gather.
-/
import Idealize.ShloMosaic.PureOps.Ideal.Laws
import Idealize.ShloMosaic.Lib.ValueIdx
import Idealize.ShloMosaic.Lib.Pipeline.Value

noncomputable section

namespace Cert.RowGather

open Idealize.ShloMosaic Idealize.ShloMosaic.ValueIdx

variable {α : Type}

/-- The row a gather reads for entry `e`: the start index read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A gather of whole rows (the result's second axis the offset axis, the table's first axis collapsed and named by the
    start index, one index per result row) reads, at `(e, q)`, the table at row `rowOf idx e` and column `q`. -/
theorem rowGather_apply {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (rowOf hN idx e) q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![E, 1]⟩ ⟨2, ![E, C]⟩) = D
  unfold Host.gather
  refine congrArg x (funext fun a => Fin.ext ?_)
  show D.start (ix2 e q) idx a + D.batchCoord (ix2 e q) a + D.offCoord (ix2 e q) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 2) ∈ D.startIndexMap := by rw [hsm]; exact List.mem_singleton.mpr rfl
    rw [dif_pos hmem]
    have hsi : D.siIdx (ix2 e q) ⟨List.idxOf (⟨0, by decide⟩ : Fin 2) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl
  | ⟨1, _⟩ =>
    have hst : D.start (ix2 e q) idx ⟨1, by show 1 < 2; omega⟩ = 0 := by
      unfold GatherDims.start
      rw [dif_neg (by rw [hsm]; exact fun h => Nat.one_ne_zero (congrArg Fin.val (List.mem_singleton.mp h)))]
    rw [hst, Nat.zero_add]
    subst hD
    rfl

end Cert.RowGather

end
-- ==== Proof.LibIndexedRows.lean ====
/-
  Two more indexed operations read at an index, at any extents.

  A gather of single entries of a vector: `x[idx]` of `x : [N]` at a column of positions `idx : [E, 1]` is the vector `[E]`
  whose entry `e` is `x (clamp (idx e))`, the position read as a signed integer and clamped into `[0, N − 1]` — the same
  clamped position a gather of whole rows of a table with `N` rows reads for `e`.

  A scatter of whole rows: update row `e` of `upd : [E, C]` is sent to row `idx e` of the operand `[N, C]`, the row number read
  signed and NOT clamped; an update entry `(e, q)` lands on the operand entry `(n, q')` only if `idx e = n` as integers and
  `q = q'`.  At the extended reals the accumulating scatter is the operand entry plus the sum of the update entries that land
  on it.
-/
import Idealize.ShloMosaic.PureOps.Ideal.Laws
import Idealize.ShloMosaic.Lib.ValueIdx
import Idealize.ShloMosaic.Lib.Pipeline.Value
import proofs.«145696_j7971459301586_2_alg».proof.Proof.LibRowGather

noncomputable section

namespace Cert.IndexedRows

open Idealize.ShloMosaic Idealize.ShloMosaic.ValueIdx Cert.RowGather

variable {α : Type}

/-- A gather of single entries of a vector (no offset axis, the vector's one axis collapsed and named by the start index,
    one index per result entry) reads, at `e`, the vector at the clamped position `rowOf idx e`. -/
theorem vecGather_apply {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (rowOf hN idx e)) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = D
  unfold Host.gather
  refine congrArg x (funext fun a => Fin.ext ?_)
  show D.start (ix1 e) idx a + D.batchCoord (ix1 e) a + D.offCoord (ix1 e) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 1) ∈ D.startIndexMap := by rw [hsm]; exact List.mem_singleton.mpr rfl
    rw [dif_pos hmem]
    have hsi : D.siIdx (ix1 e) ⟨List.idxOf (⟨0, by decide⟩ : Fin 1) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl

/-- Where an update of a scatter of whole rows lands: if update entry `(e, q)` lands on operand entry `i`, then the row number
    `idx e`, read signed, is `i`'s row, and `q` is `i`'s column. -/
theorem rowScatter_lands {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (q : Fin C) (i : (⟨2, ![N, C]⟩ : Shape).Idx)
    (h : d.resultIdx? (ix2 e q) idx = some i) :
    (idx (ix2 e (0 : Fin 1))).toInt = ((i 0).val : Int) ∧ (i 1).val = q.val := by
  obtain ⟨uw, iw, sd, iv, wf⟩ := d
  dsimp only at h1 h2 h3 h4
  subst h1 h2 h3 h4
  generalize hD : (⟨[1], [0], [0], 1, wf⟩ : ScatterDims ⟨2, ![N, C]⟩ ⟨2, ![E, 1]⟩ ⟨2, ![E, C]⟩) = D at h
  have hsd : D.scatterDimsToOperandDims = [0] := by subst hD; rfl
  have hiw : D.insertedWindowDims = [0] := by subst hD; rfl
  -- the start on the row axis is the row number read signed; on the column axis it is 0
  have hs0 : D.start (ix2 e q) idx ⟨0, Nat.zero_lt_two⟩ = (idx (ix2 e (0 : Fin 1))).toInt := by
    unfold ScatterDims.start
    have hmem : (⟨0, Nat.zero_lt_two⟩ : Fin 2) ∈ D.scatterDimsToOperandDims := by rw [hsd]; exact List.mem_singleton.mpr rfl
    rw [dif_pos hmem]
    have hsi : D.siIdx (ix2 e q) ⟨List.idxOf (⟨0, Nat.zero_lt_two⟩ : Fin 2) D.scatterDimsToOperandDims, List.idxOf_lt_length_iff.2 hmem⟩
        = ix2 e (0 : Fin 1) := by
      subst hD
      funext b; refine Fin.ext ?_
      match b with
      | ⟨0, _⟩ => rfl
      | ⟨1, _⟩ => rfl
    rw [hsi]
  have hs1 : D.start (ix2 e q) idx ⟨1, Nat.one_lt_two⟩ = 0 := by
    unfold ScatterDims.start
    rw [dif_neg (by rw [hsd]; exact fun h => Nat.one_ne_zero (congrArg Fin.val (List.mem_singleton.mp h)))]
  -- the window coordinate is 0 on the (inserted) row axis and the update's column on the column axis
  have hw0 : D.window (ix2 e q) ⟨0, Nat.zero_lt_two⟩ = 0 := by
    unfold ScatterDims.window
    rw [dif_neg (by subst hD; simp [ScatterDims.sKept, Shape.kept])]
  have hw1 : D.window (ix2 e q) ⟨1, Nat.one_lt_two⟩ = q.val := by
    unfold ScatterDims.window
    rw [dif_pos (by subst hD; simp [ScatterDims.sKept, Shape.kept])]
    subst hD
    rfl
  unfold ScatterDims.resultIdx? at h
  split at h
  · rename_i hall
    have hi := Option.some.inj h
    have h0 := hall ⟨0, Nat.zero_lt_two⟩
    rw [hs0, hw0] at h0
    constructor
    · have : (i 0).val = ((idx (ix2 e (0 : Fin 1))).toInt + ((0 : ℕ) : Int)).toNat := by
        rw [← hi]; show (D.start (ix2 e q) idx ⟨0, Nat.zero_lt_two⟩ + (D.window (ix2 e q) ⟨0, Nat.zero_lt_two⟩ : Int)).toNat = _
        rw [hs0, hw0]
      omega
    · have : (i 1).val = ((0 : Int) + ((q.val : ℕ) : Int)).toNat := by
        rw [← hi]; show (D.start (ix2 e q) idx ⟨1, Nat.one_lt_two⟩ + (D.window (ix2 e q) ⟨1, Nat.one_lt_two⟩ : Int)).toNat = _
        rw [hs1, hw1]
      omega
  · exact absurd h (by simp)

/-- The accumulating scatter on the extended reals at an entry: the operand entry plus the sum of the update entries
    that land on it. -/
theorem scatterAdd_apply {s si u : Shape} {w : ℕ} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

end Cert.IndexedRows

end
-- ==== Proof.LibNonnegScale.lean ====
/-
  Scaling by a nonnegative real on the extended reals.

  On the extended reals multiplication does not distribute over addition in general (`⊤ + ⊥`), but it does when the
  common factor is a nonnegative REAL: `(a + b) · c = a · c + b · c` for every `a`, `b`.  So a nonnegative real factor passes
  through any finite sum, whatever the summands.  The gated reciprocal square root `if 0 < x then x^(-1/2) else 0` is such a
  factor at every extended real `x`: it is `(√r)⁻¹` at a positive real `r`, and `0` at `⊤`, at `⊥` and at the reals `≤ 0`.
-/
import Idealize.ShloMosaic.PureOps.Ideal

noncomputable section

namespace Cert.NonnegScale

open Idealize.ShloMosaic

/-- An extended real that is a nonnegative real number. -/
def IsNNReal (c : EReal) : Prop := ∃ r : ℝ, 0 ≤ r ∧ c = (r : EReal)

theorem IsNNReal.zero : IsNNReal 0 := ⟨0, le_refl _, rfl⟩

/-- A nonnegative real factor passes through a finite sum of extended reals. -/
theorem sum_mul_of_nnreal {ι : Type} (s : Finset ι) (f : ι → EReal) {c : EReal} (hc : IsNNReal c) :
    (∑ j ∈ s, f j) * c = ∑ j ∈ s, f j * c := by
  obtain ⟨r, hr, rfl⟩ := hc
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The same with a zero initial value in front of the sum (the form an accumulating scatter into zeros has). -/
theorem zero_add_sum_mul_of_nnreal {ι : Type} (s : Finset ι) (f : ι → EReal) {c : EReal} (hc : IsNNReal c) :
    (0 + ∑ j ∈ s, f j) * c = 0 + ∑ j ∈ s, f j * c := by
  rw [zero_add, zero_add, sum_mul_of_nnreal s f hc]

/-- The gated reciprocal square root is a nonnegative real at every extended real. -/
theorem rsqrt_gate_nnreal (x : EReal) :
    IsNNReal (Scalar.select (Ideal.cmp .ogt x 0) (Ideal.rsqrt x) 0) := by
  unfold Scalar.select Ideal.cmp
  by_cases h : (0 : EReal) < x
  · simp only [h, decide_true, BitVec.ofBool_true, if_true]
    induction x using EReal.rec with
    | bot => exact absurd h (by simp)
    | top => exact ⟨0, le_refl _, rfl⟩
    | coe r =>
      have hr : 0 < r := by exact_mod_cast h
      refine ⟨(Real.sqrt r)⁻¹, inv_nonneg.mpr (Real.sqrt_nonneg r), ?_⟩
      show (if r < 0 then (⊥ : EReal) else if r = 0 then ⊤ else ((Real.sqrt r)⁻¹ : ℝ)) = _
      rw [if_neg (not_lt.mpr hr.le), if_neg hr.ne']
  · simp only [h, decide_false, BitVec.ofBool_false]
    exact ⟨0, le_refl _, by simp⟩

end Cert.NonnegScale

end
-- ==== Proof.LibEdgeSum.lean ====
/-
  Summing gathered rows along edges: scaling per edge against scaling per node.

  Rows of a table `H : [N, C]` are gathered along `E` edges (edge `e` reads row `src e`) and accumulated by a scatter into
  row `dst e` of a zero matrix.  One program multiplies every gathered row by the edge weight `dv (src e) · dv (dst e)`
  before the scatter.  The other scales row `n` of the TABLE by `dv n` before the gather and scales row `n` of the SUM by
  `dv n` after the scatter.  The two agree on the extended reals when every `dv n` is a nonnegative real: an update that
  lands on row `n` has `dst e = n`, so its weight is `dv (src e) · dv n`; the gather reads the same row `src e` of either
  table; and the common factor `dv n` passes through the finite sum (a nonnegative real factor distributes over any sum of
  extended reals).
-/
import proofs.«145696_j7971459301586_2_alg».proof.Proof.LibIndexedRows
import proofs.«145696_j7971459301586_2_alg».proof.Proof.LibNonnegScale
import proofs.«145696_j7971459301586_2_alg».proof.Proof.GcnSpec

noncomputable section

open scoped BigOperators

namespace Cert.EdgeSum

open Idealize.ShloMosaic Idealize.ShloMosaic.ValueIdx Cert.Dense Cert.RowGather Cert.IndexedRows Cert.NonnegScale Cert.Gcn

/-- The per-edge weighting equals the per-node scalings, for the scatter-accumulated gather of rows. -/
theorem edge_sum {N C E : ℕ} (hN : 0 < N)
    (dS : ScatterDims ⟨2, ![N, C]⟩ ⟨2, ![E, 1]⟩ ⟨2, ![E, C]⟩)
    (hs1 : dS.updateWindowDims = [1]) (hs2 : dS.insertedWindowDims = [0]) (hs3 : dS.scatterDimsToOperandDims = [0])
    (hs4 : dS.indexVectorDim = 1)
    (g : GatherDims ⟨2, ![N, C]⟩ ⟨2, ![E, 1]⟩ ⟨2, ![E, C]⟩)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, C])
    (g1 : GatherDims ⟨1, ![N]⟩ ⟨2, ![E, 1]⟩ ⟨1, ![E]⟩)
    (hv1 : g1.offsetDims = []) (hv2 : g1.collapsedSliceDims = [0]) (hv3 : g1.operandBatchingDims = [])
    (hv4 : g1.startIndicesBatchingDims = []) (hv5 : g1.startIndexMap = [0]) (hv6 : g1.indexVectorDim = 1)
    (hv7 : g1.sliceSizes = ![1])
    (z : FVec Ideal ⟨2, ![N, C]⟩ .f32) (hz : ∀ i, z i = 0)
    (idxD idxS idxS1 idxDw : IVec ⟨2, ![E, 1]⟩ 32)
    (hS : ∀ e, rowOf hN idxS1 e = rowOf hN idxS e)
    (hDw : ∀ (e : Fin E) (n : Fin N), (idxD (ix2 e (0 : Fin 1))).toInt = (n.val : Int) → rowOf hN idxDw e = n)
    (dv : FVec Ideal ⟨1, ![N]⟩ .f32) (hdv : ∀ n : Fin N, IsNNReal (dv (ix1 n)))
    (dcol : Mat N 1) (hdcol : ∀ n : Fin N, dcol (ix2 n (0 : Fin 1)) = dv (ix1 n))
    (nb : FVec Ideal ⟨2, ![E, C]⟩ .f32)
    (hnb : ∀ (e : Fin E) (q : Fin C), nb (ix2 e q) = Host.gather g1 dv idxS1 (ix1 e) * Host.gather g1 dv idxDw (ix1 e))
    (H : FVec Ideal ⟨2, ![N, C]⟩ .f32) :
    Host.scatterAdd dS z idxD (mulf (Host.gather g H idxS) nb)
      = scaleRows (Host.scatterAdd dS z idxD (Host.gather g (scaleRows H dcol) idxS)) dcol := by
  funext i
  obtain ⟨n, q, rfl⟩ : ∃ (n : Fin N) (q : Fin C), i = ix2 n q := ⟨c0 i, c1 i, eq_ix2 i⟩
  rw [scaleRows_apply, scatterAdd_apply, scatterAdd_apply, hz, hdcol, zero_add_sum_mul_of_nnreal _ _ (hdv n)]
  refine congrArg (fun t => (0 : EReal) + t) (Finset.sum_congr rfl fun j hj => ?_)
  have hj' := (Finset.mem_filter.mp hj).2
  obtain ⟨e, q', rfl⟩ : ∃ (e : Fin E) (q' : Fin C), j = ix2 e q' := ⟨c0 j, c1 j, eq_ix2 j⟩
  obtain ⟨hrow, hcol⟩ := rowScatter_lands dS hs1 hs2 hs3 hs4 idxD e q' (ix2 n q) hj'
  have hq : q = q' := Fin.ext hcol
  subst hq
  show Host.gather g H idxS (ix2 e q) * nb (ix2 e q) = Host.gather g (scaleRows H dcol) idxS (ix2 e q) * dv (ix1 n)
  rw [rowGather_apply hN g hg1 hg2 hg3 hg4 hg5 hg6 hg7 H idxS e q,
    rowGather_apply hN g hg1 hg2 hg3 hg4 hg5 hg6 hg7 (scaleRows H dcol) idxS e q, scaleRows_apply, hdcol, hnb,
    vecGather_apply hN g1 hv1 hv2 hv3 hv4 hv5 hv6 hv7 dv idxS1 e, vecGather_apply hN g1 hv1 hv2 hv3 hv4 hv5 hv6 hv7 dv idxDw e,
    hS e, hDw e n hrow, mul_assoc]

end Cert.EdgeSum

end
-- ==== Proof.RefEdge.lean ====
/-
  One layer of the host program in the specification's vocabulary.

  The gated inverse square root of a degree is a nonnegative real whatever the degree.  The host weights every gathered
  row by the product of its two endpoints' factors before accumulating it at the destination; because every factor is a
  nonnegative real, that equals scaling the table's rows before the gather and the summed rows after the scatter.  The one
  fact about indices: a destination entry that names row `n` of the table is not negative, so wrapping negative indices
  by the number of rows leaves it alone and the clamp into the table returns `n`.  The rectifier written as a select is
  the leaky rectifier on every entry, and the host's plain dot product is the matrix product.
-/
import proofs.«145696_j7971459301586_2_alg».proof.Proof.RefDefs
import proofs.«145696_j7971459301586_2_alg».proof.Proof.LibEdgeSum
import proofs.«145696_j7971459301586_2_alg».proof.Proof.LibHostLayout
import proofs.«145696_j7971459301586_2_alg».proof.Proof.GcnSpec
import proofs.«145696_j7971459301586_2_alg».proof.Proof.RefHead

noncomputable section

open scoped BigOperators
open Idealize.ShloMosaic Idealize.ShloMosaic.ValueIdx

namespace Cert.ReferenceIdeal.RefValue

open Cert.ReferenceIdeal Cert.ReferenceIdeal.Gen Cert.Dense Cert.Gcn Cert.RowGather Cert.NonnegScale

namespace Edge

/-- An index word whose signed value is a row number `n` of the table is not negative: the wrap of negative indices
    leaves it, and the clamp into the table gives `n`. -/
theorem wrap_clamp (x : BitVec 32) (n : ℕ) (hn : n < 50000) (hx : x.toInt = (n : Int)) :
    min (Scalar.select (IntOp.cmpi .slt x 0#32) (IntOp.addi x 50000#32) x).toInt.toNat (50000 - 1) = n := by
  have hs : x.slt 0#32 = false := by
    have h0 : ¬ x.toInt < (0#32 : BitVec 32).toInt := by
      rw [hx, BitVec.toInt_zero]; omega
    simpa [BitVec.slt] using h0
  have hc : IntOp.cmpi .slt x 0#32 = 0#1 := by
    show BitVec.ofBool (x.slt 0#32) = 0#1
    rw [hs]; rfl
  rw [hc]
  show min x.toInt.toNat (50000 - 1) = n
  rw [hx]
  omega

/-- The destinations as a column read at an edge. -/
theorem dstCol_apply (dst : IVec S850000 32) (e : Fin 850000) : dstCol dst (ix2 e (0 : Fin 1)) = dst (ix1 e) := by
  unfold dstCol
  exact Cert.HostLayout.bcast_vec_col dst _ e 0

/-- The wrapped column read at an edge. -/
theorem srcCol_apply (src : IVec S850000 32) (e : Fin 850000) :
    srcCol src (ix2 e (0 : Fin 1))
      = Scalar.select (IntOp.cmpi .slt (src (ix1 e)) 0#32) (IntOp.addi (src (ix1 e)) 50000#32) (src (ix1 e)) := by
  unfold srcCol
  rw [Cert.HostLayout.bcast_vec_col]
  show Scalar.select (IntOp.cmpi .slt (src (ix1 e)) (broadcastInDim S850000 ![] bcast_S_S850000 (constantI S_ 32 0#32) (ix1 e)))
      (IntOp.addi (src (ix1 e)) (broadcastInDim S850000 ![] bcast_S_S850000 (constantI S_ 32 50000#32) (ix1 e))) (src (ix1 e)) = _
  rw [Cert.LogSoftmax.bcast_scalar_vec, Cert.LogSoftmax.bcast_scalar_vec]
  rfl

/-- The matrix a layer's sum starts from is zero everywhere. -/
theorem zeros128_apply (i : S50000x128.Idx) : zeros128 i = 0 := by
  obtain ⟨p, q, rfl⟩ : ∃ (p : Fin 50000) (q : Fin 128), i = ix2 p q := ⟨i 0, i 1, eq_ix2 i⟩
  unfold zeros128
  rw [Cert.HostLayout.bcast_scalar_mat]
  exact Ideal.ofBits_zero_f32

/-- The row number of the one-column index `(n, 0)`. -/
theorem row_of_col (n : Fin 50000) : ix1 (c0 (ix2 n (0 : Fin 1))) = ix1 n := rfl

/-- The factors as a one-column matrix, read at a row. -/
theorem dcolM_apply (dst : IVec S850000 32) (n : Fin 50000) : dcolM dst (ix2 n (0 : Fin 1)) = dinv dst (ix1 n) := by
  unfold dcolM
  exact congrArg (dinv dst) (row_of_col n)

/-- The edge weights broadcast along the rows, read at an edge: the source's factor times the destination's. -/
theorem weight_apply (src dst : IVec S850000 32) (dv : FVec Ideal S50000 .f32) (e : Fin 850000) (q : Fin 128) :
    broadcastInDim S850000x128 ![0, 1] bcast_S850000x1_S850000x128_0_1
        (broadcastInDim S850000x1 ![0] bcast_S850000_S850000x1_0 (nrm src dst dv)) (ix2 e q)
      = Host.gather gather_S50000_S850000x1_S850000_n_0_n_n_0_1_1 dv (srcCol src) (ix1 e)
        * Host.gather gather_S50000_S850000x1_S850000_n_0_n_n_0_1_1 dv (srcCol dst) (ix1 e) := by
  rw [Cert.HostLayout.bcast_col_mat, Cert.HostLayout.bcast_vec_col]
  unfold nrm
  exact mulf_apply _ _ _

/-- A destination entry that names row `n` reads row `n` when it is used as a gather index. -/
theorem dst_row (dst : IVec S850000 32) (e : Fin 850000) (n : Fin 50000)
    (hx : (dstCol dst (ix2 e (0 : Fin 1))).toInt = (n.val : Int)) :
    rowOf (N := 50000) (by omega) (srcCol dst) e = n := by
  rw [dstCol_apply] at hx
  refine Fin.ext ?_
  show min ((srcCol dst) (ix2 e (0 : Fin 1))).toInt.toNat (50000 - 1) = n.val
  rw [srcCol_apply]
  exact wrap_clamp (dst (ix1 e)) n.val n.isLt hx

/-- The gate on any vector of degrees: the inverse square root where the degree is positive, zero elsewhere, is a
    nonnegative real at every entry. -/
theorem gate_nnreal (D : FVec Ideal S50000 .f32) (n : Fin 50000) :
    IsNNReal ((select (cmpf (F := Ideal) .ogt D (broadcastInDim S50000 ![] bcast_S_S50000 (constant (F := Ideal) S_ .f32 0x00000000#32)))
      (Host.rsqrt (F := Ideal) D)
      (broadcastInDim S50000 ![] bcast_S_S50000 (id (constant (F := Ideal) S_ .f32 0x00000000#32)))) (ix1 n)) := by
  rw [select_apply, cmpf_apply, Cert.LogSoftmax.bcast_scalar_vec, Cert.LogSoftmax.bcast_scalar_vec]
  have h0 : (constant (F := Ideal) S_ .f32 0x00000000#32) ix0 = 0 := Ideal.ofBits_zero_f32
  have h1 : id (constant (F := Ideal) S_ .f32 0x00000000#32) ix0 = 0 := Ideal.ofBits_zero_f32
  rw [h0, h1]
  exact rsqrt_gate_nnreal (D (ix1 n))

end Edge

/-- The gated inverse square root of a degree is a nonnegative real. -/
theorem dinv_nnreal (dst : IVec S850000 32) (n : Fin 50000) : Cert.NonnegScale.IsNNReal (dinv dst (ix1 n)) := by
  unfold dinv
  exact Edge.gate_nnreal (deg dst) n

/-- The host's weighted sum along the edges is the plain sum of the scaled table, scaled again: the general law at these
    extents, its side conditions the lemmas above. -/
theorem aggR_eq (src dst : IVec S850000 32) (H : FVec Ideal S50000x128 .f32) :
    aggR src dst (nrm src dst (dinv dst)) H
      = Cert.Gcn.scaleRows (aggS src dst (Cert.Gcn.scaleRows H (dcolM dst))) (dcolM dst) := by
  have key := fun hnb => Cert.EdgeSum.edge_sum (N := 50000) (C := 128) (E := 850000) (by omega)
    scatter_S50000x128_S850000x1_S850000x128_1_0_0_1 rfl rfl rfl rfl
    gather_S50000x128_S850000x1_S850000x128_1_0_n_n_0_1_1128 rfl rfl rfl rfl rfl rfl rfl
    gather_S50000_S850000x1_S850000_n_0_n_n_0_1_1 rfl rfl rfl rfl rfl rfl rfl
    zeros128 Edge.zeros128_apply
    (dstCol dst) (srcCol src) (srcCol src) (srcCol dst)
    (fun _ => rfl)
    (Edge.dst_row dst)
    (dinv dst) (dinv_nnreal dst)
    (dcolM dst) (Edge.dcolM_apply dst)
    (broadcastInDim S850000x128 ![0, 1] bcast_S850000x1_S850000x128_0_1
      (broadcastInDim S850000x1 ![0] bcast_S850000_S850000x1_0 (nrm src dst (dinv dst))))
    hnb
    H
  have w := Edge.weight_apply src dst (dinv dst)
  have key2 := key w
  unfold aggR aggS
  exact key2

/-- One layer of the host program: the rectified weighted sum of the rows of `h w`. -/
theorem layerR_eq (src dst : IVec S850000 32) (nm : FVec Ideal S850000 .f32) (h : FVec Ideal S50000x128 .f32)
    (w : FVec Ideal S128x128 .f32) :
    layerR src dst nm h w = Cert.Gcn.lkM (aggR src dst nm (Cert.Dense.mm h w)) := by
  unfold layerR leakyR
  rw [hostDot_eq_mm _ rfl rfl rfl rfl rfl rfl none h w]
  exact host_lk _ bcast_S_S50000x128

end Cert.ReferenceIdeal.RefValue

end
-- ==== Proof.VocabBridge.lean ====
/-
  The two programs' host stages are the same functions.

  The kernel program and the reference program each declare the shapes and the dimension records of the host operations
  they apply, under their own names; the declarations agree field by field.  So the edge lists, the degrees and their gated
  inverse square roots, and the plain sum along the edges are the same functions whichever program's names spell them.  Two
  differences in form remain: one program lays the inverse square roots out as a one-column matrix by a cast of the
  vector, whose entry at `(n, 0)` is the vector's entry at `n`; and it widens the gathered rows before accumulating
  them, which on the extended reals changes nothing.
-/
import proofs.«145696_j7971459301586_2_alg».proof.Proof.KernelDefs
import proofs.«145696_j7971459301586_2_alg».proof.Proof.RefDefs
import proofs.«145696_j7971459301586_2_alg».proof.Proof.LibDense
import proofs.«145696_j7971459301586_2_alg».proof.Proof.LibRowBlocks

noncomputable section

namespace Cert.Proof.Vocab

open Idealize.ShloMosaic Idealize.ShloMosaic.ValueIdx

/-- The source lists agree. -/
theorem srcList_eq (x1 : IVec Cert.KernelIdeal.S2x800000 32) :
    Cert.KernelIdeal.KValue.srcList x1 = Cert.ReferenceIdeal.RefValue.srcList x1 := rfl

/-- The destination lists agree. -/
theorem dstList_eq (x1 : IVec Cert.KernelIdeal.S2x800000 32) :
    Cert.KernelIdeal.KValue.dstList x1 = Cert.ReferenceIdeal.RefValue.dstList x1 := rfl

/-- The gated inverse square roots of the degrees agree. -/
theorem dinv_eq (dst : IVec Cert.KernelIdeal.S850000 32) :
    Cert.KernelIdeal.KValue.dinv dst = Cert.ReferenceIdeal.RefValue.dinv dst := rfl

/-- The one-column matrix of the inverse square roots: the vector cast to a column reads, at `(n, 0)`, the vector at `n`. -/
theorem dcol_eq (dst : IVec Cert.KernelIdeal.S850000 32) :
    (Cert.KernelIdeal.KValue.dcol dst : Cert.Dense.Mat 50000 1) = Cert.ReferenceIdeal.RefValue.dcolM dst := by
  funext i
  obtain ⟨n, u, rfl⟩ : ∃ (n : Fin 50000) (u : Fin 1), i = ix2 n u := ⟨i 0, i 1, eq_ix2 i⟩
  unfold Cert.KernelIdeal.KValue.dcol
  rw [Cert.RowBlocks.shapeCast_col_apply, dinv_eq]
  rfl

/-- The plain sums along the edges agree: widening the gathered rows is the identity on the extended reals. -/
theorem aggK_eq (src dst : IVec Cert.KernelIdeal.S850000 32) (A : FVec Ideal Cert.KernelIdeal.S50000x128 .bf16) :
    Cert.KernelIdeal.KValue.aggK src dst A = Cert.ReferenceIdeal.RefValue.aggS src dst A := rfl

end Cert.Proof.Vocab

end
-- ==== Proof.Bridge.lean ====
/-
  The two programs compute one function of the argument arrays.

  Layer by layer: the kernel program's summed rows, scaled by the inverse square-root degrees and rectified, are the
  reference's layer.  The reference weighs every gathered row of `h W` by the product of the two degrees' factors before
  the sum along the edges; the kernel program scales the rows of `h W` before the gather and the summed rows after it.
  These agree on the extended reals because the factors are nonnegative reals (the law of sums along edges), and the
  scaled, rectified rows are exactly what the kernel program's next launch forms from its input before multiplying by the
  next weights.  After three layers both apply the same head.
-/
import proofs.«145696_j7971459301586_2_alg».proof.Proof.KernelWalk
import proofs.«145696_j7971459301586_2_alg».proof.Proof.RefWalk
import proofs.«145696_j7971459301586_2_alg».proof.Proof.RefEdge
import proofs.«145696_j7971459301586_2_alg».proof.Proof.VocabBridge

noncomputable section

namespace Cert.Proof.Bridge

open Idealize.ShloMosaic Cert.Gcn Cert.Dense Cert.Proof.Vocab

variable (x0 : FVec Ideal Cert.KernelIdeal.S50000x128 .f32) (x1 : IVec Cert.KernelIdeal.S2x800000 32)
  (x2 x3 x4 : FVec Ideal Cert.KernelIdeal.S128x128 .f32) (x5 : FVec Ideal Cert.KernelIdeal.S128x256 .f32)
  (x6 : FVec Ideal Cert.KernelIdeal.S256x2 .f32)

/-- The first layer. -/
theorem layer1 :
    lkM (scaleRows (Cert.KernelIdeal.KValue.sum0 x0 x1 x2) (Cert.ReferenceIdeal.RefValue.dcolM (Cert.ReferenceIdeal.RefValue.dstList x1))) = Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) x0 x2 := by
  rw [Cert.ReferenceIdeal.RefValue.layerR_eq, Cert.ReferenceIdeal.RefValue.aggR_eq]
  unfold Cert.KernelIdeal.KValue.sum0
  rw [aggK_eq, srcList_eq, dstList_eq, dcol_eq]
  rfl

/-- The second layer. -/
theorem layer2 :
    lkM (scaleRows (Cert.KernelIdeal.KValue.sum1 x0 x1 x2 x3) (Cert.ReferenceIdeal.RefValue.dcolM (Cert.ReferenceIdeal.RefValue.dstList x1)))
      = Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) x0 x2) x3 := by
  rw [Cert.ReferenceIdeal.RefValue.layerR_eq (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) x0 x2) x3, Cert.ReferenceIdeal.RefValue.aggR_eq, ← layer1]
  unfold Cert.KernelIdeal.KValue.sum1
  rw [aggK_eq, srcList_eq, dstList_eq, dcol_eq]
  rfl

/-- The third layer. -/
theorem layer3 :
    lkM (scaleRows (Cert.KernelIdeal.KValue.sum2 x0 x1 x2 x3 x4) (Cert.ReferenceIdeal.RefValue.dcolM (Cert.ReferenceIdeal.RefValue.dstList x1)))
      = Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1)))
          (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) x0 x2) x3) x4 := by
  rw [Cert.ReferenceIdeal.RefValue.layerR_eq (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1)))
      (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) (Cert.ReferenceIdeal.RefValue.layerR (Cert.ReferenceIdeal.RefValue.srcList x1) (Cert.ReferenceIdeal.RefValue.dstList x1) (Cert.ReferenceIdeal.RefValue.nrm (Cert.ReferenceIdeal.RefValue.srcList x1) (Cert.ReferenceIdeal.RefValue.dstList x1) (Cert.ReferenceIdeal.RefValue.dinv (Cert.ReferenceIdeal.RefValue.dstList x1))) x0 x2) x3) x4, Cert.ReferenceIdeal.RefValue.aggR_eq, ← layer2]
  unfold Cert.KernelIdeal.KValue.sum2
  rw [aggK_eq, srcList_eq, dstList_eq, dcol_eq]
  rfl

/-- The kernel program's value is the reference's. -/
theorem out_eq : Cert.KernelIdeal.KValue.kernelOut x0 x1 x2 x3 x4 x5 x6 = Cert.ReferenceIdeal.RefValue.refOut x0 x1 x2 x3 x4 x5 x6 := by
  unfold Cert.KernelIdeal.KValue.kernelOut Cert.ReferenceIdeal.RefValue.refOut Cert.ReferenceIdeal.RefValue.nrmOf
  rw [Cert.ReferenceIdeal.RefValue.ref_head, dstList_eq, dcol_eq, layer3]

end Cert.Proof.Bridge

end
-- ==== Proof.lean ====
/-
  The certificate: both programs run, and at the extended reals they end with the same result.

  A three-layer graph-convolution network with a two-layer head and a row-wise softmax over 50000 nodes and 850000 edges
  (the given ones and a self loop per node).  The kernel program tiles the dense work over blocks of 2000 node rows in four
  launches and leaves the gathers and the sums along the edges to host operations between them; the reference is one line
  of host operations.  The kernel program factors the edge weight `d(src) · d(dst)`, `d` the gated inverse square root of
  the degree, into a scaling of the table's rows before the gather and a scaling of the summed rows after it.

  The frames of the two kernel programs are the generated ones.  The kernel program's value: its run with the result named
  (KernelRun), each launch's result array in closed form (RegionConv0–2, RegionHead), the host stretches between them and
  what every boundary keeps (KernelWalk).  The reference's value: its run over the fold of its 142 operations, read in
  stretches (RefOps, RefWalk), its head (RefHead).  That the two values are one function of the argument arrays: the law
  of sums along edges on the extended reals (LibEdgeSum, for the reference's vocabulary in RefEdge), the two programs'
  host vocabularies identified (VocabBridge), the layers matched one by one (Bridge).  The idealization changed no
  operation, so nothing is owed for it.
-/
import proofs.«145696_j7971459301586_2_alg».proof.Defs
import proofs.«145696_j7971459301586_2_alg».proof.Proof.Gen.Kernel
import proofs.«145696_j7971459301586_2_alg».proof.Proof.Gen.Kernel.Skeleton
import proofs.«145696_j7971459301586_2_alg».proof.Proof.Gen.Kernel.Launch
import proofs.«145696_j7971459301586_2_alg».proof.Proof.Gen.Kernel.Points
import proofs.«145696_j7971459301586_2_alg».proof.Proof.Gen.Kernel.Frame
import proofs.«145696_j7971459301586_2_alg».proof.Proof.Gen.KernelIdeal
import proofs.«145696_j7971459301586_2_alg».proof.Proof.Gen.KernelIdeal.Skeleton
import proofs.«145696_j7971459301586_2_alg».proof.Proof.Gen.KernelIdeal.Launch
import proofs.«145696_j7971459301586_2_alg».proof.Proof.Gen.KernelIdeal.Points
import proofs.«145696_j7971459301586_2_alg».proof.Proof.Gen.KernelIdeal.Frame
import proofs.«145696_j7971459301586_2_alg».proof.Proof.Gen.ReferenceIdeal
import proofs.«145696_j7971459301586_2_alg».proof.Proof.Gen.Pre_finite_inputs
import proofs.«145696_j7971459301586_2_alg».proof.Proof.KernelRun
import proofs.«145696_j7971459301586_2_alg».proof.Proof.KernelWalk
import proofs.«145696_j7971459301586_2_alg».proof.Proof.RefWalk
import proofs.«145696_j7971459301586_2_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RefValue.run_value m ρ)

theorem preserves : Cert.preserves_Kernel_KernelIdeal := trivial

/-- From memories agreeing on the arguments both idealized programs end at one value: the kernel program at its closed
    form of its own arguments, the reference at its closed form of its own, and the closed forms are one function. -/
theorem algebraic : Cert.algebraic_KernelIdeal_ReferenceIdeal := by
  intro m ρ m' ρ' _ hagree
  refine ⟨fun c => Cert.KernelIdeal.KValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.KValue.val_v52 m ρ c), (h c).2⟩)
      (Cert.KernelIdeal.RunValue.run_valued m ρ)
  · refine (θ_run Cert.ReferenceIdeal.defs _ _).mono (fun _ h c => ⟨(h c).1.trans ?_, (h c).2⟩) (Cert.ReferenceIdeal.RefValue.run_value m' ρ')
    rw [(hagree c).1, (hagree c).2.1, (hagree c).2.2.1, (hagree c).2.2.2.1, (hagree c).2.2.2.2.1, (hagree c).2.2.2.2.2.1,
      (hagree c).2.2.2.2.2.2]
    exact (Bridge.out_eq _ _ _ _ _ _ _).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
